-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel

variable [Facts]

def fn {F : FTy → Type} [FloatOps F] (main_arg0 : FVec F S4096x128 .f32) (main_arg1 : FVec F S4096x128 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S4096x128 .f32 := Host.absf main_arg1
  let main_cst_0 : FVec F S_ .f32 := constant S_ .f32 0x7F800000#32
  let main_v5 : FVec F S4096x128 .f32 := broadcastInDim S4096x128 ![] bcast_S_S4096x128 main_cst_0
  let main_v6 : IVec S4096x128 1 := cmpf .olt main_v4 main_v5
  let main_c_1 : IVec S_ 1 := constantI S_ 1 1#1
  let main_v7 : IVec S_ 1 := (fun x v => Host.reduce IntOp.andi x v reducesTo_S4096x128_S_d0_1 h_S_) main_v6 main_c_1
  let main_v8 : IVec S_ 1 := andi main_v3 main_v7
  main_v8
-- ==== Kernel.lean ====
abbrev S4096x128 : Shape := ⟨2, ![4096, 128]⟩
abbrev S_ : Shape := ⟨0, ![]⟩
abbrev S4096 : Shape := ⟨1, ![4096]⟩
abbrev S4096x1 : Shape := ⟨2, ![4096, 1]⟩
abbrev S4x1x4096 : Shape := ⟨3, ![4, 1, 4096]⟩
abbrev S4x4096 : Shape := ⟨2, ![4, 4096]⟩
abbrev S1024x128 : Shape := ⟨2, ![1024, 128]⟩
abbrev S1024x1 : Shape := ⟨2, ![1024, 1]⟩
abbrev S1x1x4096 : Shape := ⟨3, ![1, 1, 4096]⟩
abbrev S1024x1024 : Shape := ⟨2, ![1024, 1024]⟩
abbrev S1024 : Shape := ⟨1, ![1024]⟩
abbrev S1x1024 : Shape := ⟨2, ![1, 1024]⟩
abbrev S1x1x1024 : Shape := ⟨3, ![1, 1, 1024]⟩

abbrev nBuf : Space → Nat
  | .hbm => 50
  | .vmem => 10
  | .smem => 0
  | _ => 0

abbrev bufTy : (tb : Table) → Fin (tcTables nBuf tb) → BufTy
  | .hbm, ⟨0, _⟩ => ⟨S4096x128, .f32⟩
  | .hbm, ⟨1, _⟩ => ⟨S4096x128, .f32⟩
  | .hbm, ⟨2, _⟩ => ⟨S4096x128, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x128, .f32⟩
  | .hbm, ⟨11, _⟩ => ⟨S4096x128, .f32⟩
  | .hbm, ⟨12, _⟩ => ⟨S4096x128, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x128, .f32⟩
  | .hbm, ⟨21, _⟩ => ⟨S4096x128, .f32⟩
  | .hbm, ⟨22, _⟩ => ⟨S4096x128, .f32⟩
  | .hbm, ⟨23, _⟩ => ⟨S_, .f32⟩
  | .hbm, ⟨24, _⟩ => ⟨S4096, .f32⟩
  | .hbm, ⟨25, _⟩ => ⟨S4096x128, .bf16⟩
  | .hbm, ⟨26, _⟩ => ⟨S4096x128, .bf16⟩
  | .hbm, ⟨27, _⟩ => ⟨S4096x1, .f32⟩
  | .hbm, ⟨28, _⟩ => ⟨S4x1x4096, .f32⟩
  | .hbm, ⟨29, _⟩ => ⟨S4096, .f32⟩
  | .hbm, ⟨30, _⟩ => ⟨S4x4096, .f32⟩
  | .hbm, ⟨31, _⟩ => ⟨S_, .f32⟩
  | .hbm, ⟨32, _⟩ => ⟨S4096, .f32⟩
  | .hbm, ⟨33, _⟩ => ⟨S4096, .f32⟩
  | .hbm, ⟨34, _⟩ => ⟨S_, .f32⟩
  | .hbm, ⟨35, _⟩ => ⟨S4096, .f32⟩
  | .hbm, ⟨36, _⟩ => ⟨S4096, .f32⟩
  | .hbm, ⟨37, _⟩ => ⟨S4096, .f32⟩
  | .hbm, ⟨38, _⟩ => ⟨S4096, .f32⟩
  | .hbm, ⟨39, _⟩ => ⟨S4096, .f32⟩
  | .hbm, ⟨40, _⟩ => ⟨S_, .f32⟩
  | .hbm, ⟨41, _⟩ => ⟨S4096, .f32⟩
  | .hbm, ⟨42, _⟩ => ⟨S4096, .f32⟩
  | .hbm, ⟨43, _⟩ => ⟨S4096, .f32⟩
  | .hbm, ⟨44, _⟩ => ⟨S4096, .f32⟩
  | .hbm, ⟨45, _⟩ => ⟨S4096, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .local _ .vmem, ⟨0, _⟩ => ⟨S1024x128, .bf16⟩
  | .local _ .vmem, ⟨1, _⟩ => ⟨S1024x128, .bf16⟩
  | .local _ .vmem, ⟨2, _⟩ => ⟨S1024x128, .bf16⟩
  | .local _ .vmem, ⟨3, _⟩ => ⟨S1024x128, .bf16⟩
  | .local _ .vmem, ⟨4, _⟩ => ⟨S1024x1, .f32⟩
  | .local _ .vmem, ⟨5, _⟩ => ⟨S1024x1, .f32⟩
  | .local _ .vmem, ⟨6, _⟩ => ⟨S1x1x4096, .f32⟩
  | .local _ .vmem, ⟨7, _⟩ => ⟨S1x1x4096, .f32⟩
  | .local _ .vmem, ⟨8, _⟩ => ⟨S1024x1, .f32⟩
  | .local _ .vmem, ⟨9, _⟩ => ⟨S1x1x4096, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_call0_v0 : Ref sig .tc := ⟨.hbm, 2, rfl⟩
abbrev main_call0_call0_cst : Ref sig .tc := ⟨.hbm, 3, rfl⟩
abbrev main_call0_call0_v1 : Ref sig .tc := ⟨.hbm, 4, rfl⟩
abbrev main_call0_call0_v2 : Ref sig .tc := ⟨.hbm, 5, rfl⟩
abbrev main_call0_v0 : Ref sig .tc := ⟨.hbm, 6, rfl⟩
abbrev main_call0_cst : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_call1_v0 : Ref sig .tc := ⟨.hbm, 12, rfl⟩
abbrev main_call0_call1_cst : Ref sig .tc := ⟨.hbm, 13, rfl⟩
abbrev main_call0_call1_v1 : Ref sig .tc := ⟨.hbm, 14, rfl⟩
abbrev main_call0_call1_v2 : Ref sig .tc := ⟨.hbm, 15, rfl⟩
abbrev main_call0_v5 : Ref sig .tc := ⟨.hbm, 16, rfl⟩
abbrev main_call0_cst_0 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_cst_1 : Ref sig .tc := ⟨.hbm, 23, rfl⟩
abbrev main_call0_v11 : Ref sig .tc := ⟨.hbm, 24, rfl⟩
abbrev main_call0_v12 : Ref sig .tc := ⟨.hbm, 25, rfl⟩
abbrev main_call0_v13 : Ref sig .tc := ⟨.hbm, 26, rfl⟩
abbrev main_call0_v14_0 : Ref sig .tc := ⟨.hbm, 27, rfl⟩
abbrev main_call0_v14_1 : Ref sig .tc := ⟨.hbm, 28, rfl⟩
abbrev main_call0_v15 : Ref sig .tc := ⟨.hbm, 29, rfl⟩
abbrev main_call0_v16 : Ref sig .tc := ⟨.hbm, 30, rfl⟩
abbrev main_call0_cst_2 : Ref sig .tc := ⟨.hbm, 31, rfl⟩
abbrev main_call0_v17 : Ref sig .tc := ⟨.hbm, 32, rfl⟩
abbrev main_call0_v18 : Ref sig .tc := ⟨.hbm, 33, rfl⟩
abbrev main_call0_cst_3 : Ref sig .tc := ⟨.hbm, 34, rfl⟩
abbrev main_call0_v19 : Ref sig .tc := ⟨.hbm, 35, rfl⟩
abbrev main_call0_v20 : Ref sig .tc := ⟨.hbm, 36, rfl⟩
abbrev main_call0_v21 : Ref sig .tc := ⟨.hbm, 37, rfl⟩
abbrev main_call0_v22 : Ref sig .tc := ⟨.hbm, 38, rfl⟩
abbrev main_call0_v23 : Ref sig .tc := ⟨.hbm, 39, rfl⟩
abbrev main_call0_cst_4 : Ref sig .tc := ⟨.hbm, 40, rfl⟩
abbrev main_call0_v24 : Ref sig .tc := ⟨.hbm, 41, rfl⟩
abbrev main_call0_v25 : Ref sig .tc := ⟨.hbm, 42, rfl⟩
abbrev main_call0_v26 : Ref sig .tc := ⟨.hbm, 43, rfl⟩
abbrev main_call0_v27 : Ref sig .tc := ⟨.hbm, 44, rfl⟩
abbrev main_call0_v28 : Ref sig .tc := ⟨.hbm, 45, rfl⟩
abbrev main_call0_cst_5 : Ref sig .tc := ⟨.hbm, 46, rfl⟩
abbrev main_call0_v29 : Ref sig .tc := ⟨.hbm, 47, rfl⟩
abbrev main_call0_cst_6 : Ref sig .tc := ⟨.hbm, 48, rfl⟩
abbrev main_v0 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def k0_mult1 (i : grid0.Coords) : BitVec 32 :=
  let arg1 : BitVec 32 := BitVec.ofNat 32 (i 1).val
  let c1024_i32 : BitVec 32 := 1024#32
  let v18 : BitVec 32 := Scalar.muli arg1 c1024_i32
  v18
def k0_off1 (i : grid0.Coords) : Fin 3 → Nat :=
  let c0_11 : Index := 0#32
  let c0_12 : Index := 0#32
  let arg1 : BitVec 32 := BitVec.ofNat 32 (i 1).val
  let c1024_i32 : BitVec 32 := 1024#32
  let v18 : BitVec 32 := Scalar.muli arg1 c1024_i32
  let v19 : BitVec 32 := v18
  let v23 : Index := Scalar.indexCast v19
  ![0, 0, v23.toNat]
def k0_cond2 (i : grid0.Coords) : BitVec 1 :=
  let arg1 : BitVec 32 := BitVec.ofNat 32 (i 1).val
  let c3_i32 : BitVec 32 := 3#32
  let v30 : BitVec 1 := Scalar.cmpi .eq arg1 c3_i32
  let v31 : BitVec 32 := Scalar.extui v30
  let c0_i32_15 : BitVec 32 := 0#32
  let v32 : BitVec 1 := Scalar.cmpi .ne v31 c0_i32_15
  v32

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  reducesTo_S4096x128_S4096_d1 : S4096x128.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x128_0_1 : S4096x1.BroadcastsInDim S4096x128 (![0, 1] : Fin 2 → Fin S4096x128.rank)
  bitsLt_bf16_f32 : FTy.bits .bf16 < FTy.bits .f32
  shapeCasts_S4096x1_S4096 : S4096x1.ShapeCasts S4096
  shapeCasts_S4x1x4096_S4x4096 : S4x1x4096.ShapeCasts S4x4096
  reducesTo_S4x4096_S4096_d0 : S4x4096.ReducesTo [0] S4096
  bcast_S_S4096 : S_.BroadcastsInDim S4096 (![] : Fin 0 → Fin S4096.rank)
  reducesTo_S4096_S_d0 : S4096.ReducesTo [0] S_
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S1x1x4096 : S1x1x4096.ShapeCasts S1x1x4096
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  reduces_S1024x1024_S1024 : S1024x1024.Reduces [1] S1024
  shapeCasts_S1024_S1024x1 : S1024.ShapeCasts S1024x1
  reduces_S1024x1024_S1024_2 : S1024x1024.Reduces [0] S1024
  shapeCasts_S1024_S1x1024 : S1024.ShapeCasts S1x1024
  shapeCasts_S1x1024_S1x1x1024 : S1x1024.ShapeCasts S1x1x1024
  h_S1x1x1024 : 0 < S1x1x1024.numel
  shapeCasts_S1x1x1024_S1x1x1024 : S1x1x1024.ShapeCasts S1x1x1024
  dot_S1024x128_S1024x128_S1024x1024_1_1_0_0_n_n_wf : DotDims.WF S1024x128 S1024x128 S1024x1024 [1] [1] [0] [0] [] []
  hrank0 : 0 < grid0.rank
  k0_mult1_dvd : ∀ i : grid0.Coords, 1024 ∣ (k0_mult1 i).toNat
  k0_off1_inb : ∀ i : grid0.Coords, ∀ a, (k0_off1 i) a + S1x1x1024.size a ≤ S1x1x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S4096x128.size a
  hwx0_0 : ∀ i : grid0.Coords, EltTy.bits .bf16 = 32 ∨ (Rect.block (s := S4096x128) S1024x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S4096x128.size a
  hwx0_1 : ∀ i : grid0.Coords, EltTy.bits .bf16 = 32 ∨ (Rect.block (s := S4096x128) S1024x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S4096x1.size a
  hwx0_2 : ∀ i : grid0.Coords, EltTy.bits .f32 = 32 ∨ (Rect.block (s := S4096x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x4096.size a ≤ S4x1x4096.size a
  hwx0_3 : ∀ i : grid0.Coords, EltTy.bits .f32 = 32 ∨ (Rect.block (s := S4x1x4096) S1x1x4096.size (cc0_transform_3 i) (hinb0_3 i)).WholeWords (EltTy.packing .f32)

variable [Facts₀]

def dot_S1024x128_S1024x128_S1024x1024_1_1_0_0_n_n : DotDims S1024x128 S1024x128 S1024x1024 where
  lhsContracting := [1]
  rhsContracting := [1]
  lhsNonContracting := [0]
  rhsNonContracting := [0]
  lhsBatch := []
  rhsBatch := []
  wf := dot_S1024x128_S1024x128_S1024x1024_1_1_0_0_n_n_wf

abbrev win0_0 : Pipeline.Window sig grid0 :=
  Pipeline.Window.ofSpec (Memref.whole main_call0_v12) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v13) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v14_0) S1024x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v14_1) S1x1x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4096x128 : Shape := ⟨2, ![4096, 128]⟩
abbrev S_ : Shape := ⟨0, ![]⟩
abbrev S4096 : Shape := ⟨1, ![4096]⟩
abbrev S4096x1 : Shape := ⟨2, ![4096, 1]⟩
abbrev S8192x128 : Shape := ⟨2, ![8192, 128]⟩
abbrev S128x8192 : Shape := ⟨2, ![128, 8192]⟩
abbrev S8192x8192 : Shape := ⟨2, ![8192, 8192]⟩
abbrev S4096x2 : Shape := ⟨2, ![4096, 2]⟩
abbrev S8192 : Shape := ⟨1, ![8192]⟩
abbrev S1 : Shape := ⟨1, ![1]⟩
abbrev S2 : Shape := ⟨1, ![2]⟩
abbrev S4096x4096 : Shape := ⟨2, ![4096, 4096]⟩

abbrev nBuf : Space → Nat
  | .hbm => 108
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096x128, .f32⟩
  | .hbm, ⟨2, _⟩ => ⟨S4096x128, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x128, .f32⟩
  | .hbm, ⟨11, _⟩ => ⟨S4096x128, .f32⟩
  | .hbm, ⟨12, _⟩ => ⟨S4096x128, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x128, .f32⟩
  | .hbm, ⟨21, _⟩ => ⟨S4096x128, .f32⟩
  | .hbm, ⟨22, _⟩ => ⟨S8192x128, .f32⟩
  | .hbm, ⟨23, _⟩ => ⟨S128x8192, .f32⟩
  | .hbm, ⟨24, _⟩ => ⟨S8192x8192, .f32⟩
  | .hbm, ⟨25, _⟩ => ⟨S4096, .i32⟩
  | .hbm, ⟨26, _⟩ => ⟨S4096, .i32⟩
  | .hbm, ⟨27, _⟩ => ⟨S_, .i32⟩
  | .hbm, ⟨28, _⟩ => ⟨S4096, .i32⟩
  | .hbm, ⟨29, _⟩ => ⟨S4096, .i32⟩
  | .hbm, ⟨30, _⟩ => ⟨S_, .i32⟩
  | .hbm, ⟨31, _⟩ => ⟨S4096, .i32⟩
  | .hbm, ⟨32, _⟩ => ⟨S4096, .i1⟩
  | .hbm, ⟨33, _⟩ => ⟨S_, .i32⟩
  | .hbm, ⟨34, _⟩ => ⟨S4096, .i32⟩
  | .hbm, ⟨35, _⟩ => ⟨S4096, .i32⟩
  | .hbm, ⟨36, _⟩ => ⟨S4096, .i32⟩
  | .hbm, ⟨37, _⟩ => ⟨S_, .i32⟩
  | .hbm, ⟨38, _⟩ => ⟨S4096, .i32⟩
  | .hbm, ⟨39, _⟩ => ⟨S4096, .i1⟩
  | .hbm, ⟨40, _⟩ => ⟨S_, .i32⟩
  | .hbm, ⟨41, _⟩ => ⟨S4096, .i32⟩
  | .hbm, ⟨42, _⟩ => ⟨S4096, .i32⟩
  | .hbm, ⟨43, _⟩ => ⟨S4096, .i32⟩
  | .hbm, ⟨44, _⟩ => ⟨S4096x1, .i32⟩
  | .hbm, ⟨45, _⟩ => ⟨S4096x1, .i32⟩
  | .hbm, ⟨46, _⟩ => ⟨S4096x2, .i32⟩
  | .hbm, ⟨47, _⟩ => ⟨S4096, .f32⟩
  | .hbm, ⟨48, _⟩ => ⟨S4096, .i32⟩
  | .hbm, ⟨49, _⟩ => ⟨S4096, .i32⟩
  | .hbm, ⟨50, _⟩ => ⟨S_, .i32⟩
  | .hbm, ⟨51, _⟩ => ⟨S4096, .i32⟩
  | .hbm, ⟨52, _⟩ => ⟨S4096, .i32⟩
  | .hbm, ⟨53, _⟩ => ⟨S_, .i32⟩
  | .hbm, ⟨54, _⟩ => ⟨S4096, .i32⟩
  | .hbm, ⟨55, _⟩ => ⟨S4096, .i1⟩
  | .hbm, ⟨56, _⟩ => ⟨S_, .i32⟩
  | .hbm, ⟨57, _⟩ => ⟨S4096, .i32⟩
  | .hbm, ⟨58, _⟩ => ⟨S4096, .i32⟩
  | .hbm, ⟨59, _⟩ => ⟨S4096, .i32⟩
  | .hbm, ⟨60, _⟩ => ⟨S_, .i32⟩
  | .hbm, ⟨61, _⟩ => ⟨S4096, .i32⟩
  | .hbm, ⟨62, _⟩ => ⟨S4096, .i1⟩
  | .hbm, ⟨63, _⟩ => ⟨S_, .i32⟩
  | .hbm, ⟨64, _⟩ => ⟨S4096, .i32⟩
  | .hbm, ⟨65, _⟩ => ⟨S4096, .i32⟩
  | .hbm, ⟨66, _⟩ => ⟨S4096, .i32⟩
  | .hbm, ⟨67, _⟩ => ⟨S4096x1, .i32⟩
  | .hbm, ⟨68, _⟩ => ⟨S4096x1, .i32⟩
  | .hbm, ⟨69, _⟩ => ⟨S4096x2, .i32⟩
  | .hbm, ⟨70, _⟩ => ⟨S4096, .f32⟩
  | .hbm, ⟨71, _⟩ => ⟨S8192, .f32⟩
  | .hbm, ⟨72, _⟩ => ⟨S_, .f32⟩
  | .hbm, ⟨73, _⟩ => ⟨S8192x8192, .f32⟩
  | .hbm, ⟨74, _⟩ => ⟨S_, .i32⟩
  | .hbm, ⟨75, _⟩ => ⟨S1, .i32⟩
  | .hbm, ⟨76, _⟩ => ⟨S_, .i32⟩
  | .hbm, ⟨77, _⟩ => ⟨S1, .i32⟩
  | .hbm, ⟨78, _⟩ => ⟨S2, .i32⟩
  | .hbm, ⟨79, _⟩ => ⟨S_, .f32⟩
  | .hbm, ⟨80, _⟩ => ⟨S4096x4096, .f32⟩
  | .hbm, ⟨81, _⟩ => ⟨S8192x8192, .f32⟩
  | .hbm, ⟨82, _⟩ => ⟨S_, .i32⟩
  | .hbm, ⟨83, _⟩ => ⟨S1, .i32⟩
  | .hbm, ⟨84, _⟩ => ⟨S_, .i32⟩
  | .hbm, ⟨85, _⟩ => ⟨S1, .i32⟩
  | .hbm, ⟨86, _⟩ => ⟨S2, .i32⟩
  | .hbm, ⟨87, _⟩ => ⟨S_, .f32⟩
  | .hbm, ⟨88, _⟩ => ⟨S4096x4096, .f32⟩
  | .hbm, ⟨89, _⟩ => ⟨S8192x8192, .f32⟩
  | .hbm, ⟨90, _⟩ => ⟨S_, .f32⟩
  | .hbm, ⟨91, _⟩ => ⟨S8192x8192, .f32⟩
  | .hbm, ⟨92, _⟩ => ⟨S8192x8192, .f32⟩
  | .hbm, ⟨93, _⟩ => ⟨S8192x8192, .f32⟩
  | .hbm, ⟨94, _⟩ => ⟨S8192x8192, .f32⟩
  | .hbm, ⟨95, _⟩ => ⟨S_, .f32⟩
  | .hbm, ⟨96, _⟩ => ⟨S8192, .f32⟩
  | .hbm, ⟨97, _⟩ => ⟨S_, .f32⟩
  | .hbm, ⟨98, _⟩ => ⟨S8192, .f32⟩
  | .hbm, ⟨99, _⟩ => ⟨S8192, .f32⟩
  | .hbm, ⟨100, _⟩ => ⟨S8192, .f32⟩
  | .hbm, ⟨101, _⟩ => ⟨S8192, .f32⟩
  | .hbm, ⟨102, _⟩ => ⟨S8192, .f32⟩
  | .hbm, ⟨103, _⟩ => ⟨S8192, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S_, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call1_v0 : Ref sig .tc := ⟨.hbm, 12, rfl⟩
abbrev main_call1_cst : Ref sig .tc := ⟨.hbm, 13, rfl⟩
abbrev main_call1_v1 : Ref sig .tc := ⟨.hbm, 14, rfl⟩
abbrev main_call1_v2 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_call2_v0 : Ref sig .tc := ⟨.hbm, 25, rfl⟩
abbrev main_call2_v1 : Ref sig .tc := ⟨.hbm, 26, rfl⟩
abbrev main_call2_c : Ref sig .tc := ⟨.hbm, 27, rfl⟩
abbrev main_call2_v2 : Ref sig .tc := ⟨.hbm, 28, rfl⟩
abbrev main_call2_v3 : Ref sig .tc := ⟨.hbm, 29, rfl⟩
abbrev main_call2_c_0 : Ref sig .tc := ⟨.hbm, 30, rfl⟩
abbrev main_call2_v4 : Ref sig .tc := ⟨.hbm, 31, rfl⟩
abbrev main_call2_v5 : Ref sig .tc := ⟨.hbm, 32, rfl⟩
abbrev main_call2_c_1 : Ref sig .tc := ⟨.hbm, 33, rfl⟩
abbrev main_call2_v6 : Ref sig .tc := ⟨.hbm, 34, rfl⟩
abbrev main_call2_v7 : Ref sig .tc := ⟨.hbm, 35, rfl⟩
abbrev main_call2_v8 : Ref sig .tc := ⟨.hbm, 36, rfl⟩
abbrev main_call2_c_2 : Ref sig .tc := ⟨.hbm, 37, rfl⟩
abbrev main_call2_v9 : Ref sig .tc := ⟨.hbm, 38, rfl⟩
abbrev main_call2_v10 : Ref sig .tc := ⟨.hbm, 39, rfl⟩
abbrev main_call2_c_3 : Ref sig .tc := ⟨.hbm, 40, rfl⟩
abbrev main_call2_v11 : Ref sig .tc := ⟨.hbm, 41, rfl⟩
abbrev main_call2_v12 : Ref sig .tc := ⟨.hbm, 42, rfl⟩
abbrev main_call2_v13 : Ref sig .tc := ⟨.hbm, 43, rfl⟩
abbrev main_call2_v14 : Ref sig .tc := ⟨.hbm, 44, rfl⟩
abbrev main_call2_v15 : Ref sig .tc := ⟨.hbm, 45, rfl⟩
abbrev main_call2_v16 : Ref sig .tc := ⟨.hbm, 46, rfl⟩
abbrev main_v13 : Ref sig .tc := ⟨.hbm, 47, rfl⟩
abbrev main_call3_v0 : Ref sig .tc := ⟨.hbm, 48, rfl⟩
abbrev main_call3_v1 : Ref sig .tc := ⟨.hbm, 49, rfl⟩
abbrev main_call3_c : Ref sig .tc := ⟨.hbm, 50, rfl⟩
abbrev main_call3_v2 : Ref sig .tc := ⟨.hbm, 51, rfl⟩
abbrev main_call3_v3 : Ref sig .tc := ⟨.hbm, 52, rfl⟩
abbrev main_call3_c_0 : Ref sig .tc := ⟨.hbm, 53, rfl⟩
abbrev main_call3_v4 : Ref sig .tc := ⟨.hbm, 54, rfl⟩
abbrev main_call3_v5 : Ref sig .tc := ⟨.hbm, 55, rfl⟩
abbrev main_call3_c_1 : Ref sig .tc := ⟨.hbm, 56, rfl⟩
abbrev main_call3_v6 : Ref sig .tc := ⟨.hbm, 57, rfl⟩
abbrev main_call3_v7 : Ref sig .tc := ⟨.hbm, 58, rfl⟩
abbrev main_call3_v8 : Ref sig .tc := ⟨.hbm, 59, rfl⟩
abbrev main_call3_c_2 : Ref sig .tc := ⟨.hbm, 60, rfl⟩
abbrev main_call3_v9 : Ref sig .tc := ⟨.hbm, 61, rfl⟩
abbrev main_call3_v10 : Ref sig .tc := ⟨.hbm, 62, rfl⟩
abbrev main_call3_c_3 : Ref sig .tc := ⟨.hbm, 63, rfl⟩
abbrev main_call3_v11 : Ref sig .tc := ⟨.hbm, 64, rfl⟩
abbrev main_call3_v12 : Ref sig .tc := ⟨.hbm, 65, rfl⟩
abbrev main_call3_v13 : Ref sig .tc := ⟨.hbm, 66, rfl⟩
abbrev main_call3_v14 : Ref sig .tc := ⟨.hbm, 67, rfl⟩
abbrev main_call3_v15 : Ref sig .tc := ⟨.hbm, 68, rfl⟩
abbrev main_call3_v16 : Ref sig .tc := ⟨.hbm, 69, rfl⟩
abbrev main_v14 : Ref sig .tc := ⟨.hbm, 70, rfl⟩
abbrev main_v15 : Ref sig .tc := ⟨.hbm, 71, rfl⟩
abbrev main_cst_1 : Ref sig .tc := ⟨.hbm, 72, rfl⟩
abbrev main_v16 : Ref sig .tc := ⟨.hbm, 73, rfl⟩
abbrev main_c : Ref sig .tc := ⟨.hbm, 74, rfl⟩
abbrev main_v17 : Ref sig .tc := ⟨.hbm, 75, rfl⟩
abbrev main_c_2 : Ref sig .tc := ⟨.hbm, 76, rfl⟩
abbrev main_v18 : Ref sig .tc := ⟨.hbm, 77, rfl⟩
abbrev main_v19 : Ref sig .tc := ⟨.hbm, 78, rfl⟩
abbrev main_cst_3 : Ref sig .tc := ⟨.hbm, 79, rfl⟩
abbrev main_v20 : Ref sig .tc := ⟨.hbm, 80, rfl⟩
abbrev main_v21 : Ref sig .tc := ⟨.hbm, 81, rfl⟩
abbrev main_c_4 : Ref sig .tc := ⟨.hbm, 82, rfl⟩
abbrev main_v22 : Ref sig .tc := ⟨.hbm, 83, rfl⟩
abbrev main_c_5 : Ref sig .tc := ⟨.hbm, 84, rfl⟩
abbrev main_v23 : Ref sig .tc := ⟨.hbm, 85, rfl⟩
abbrev main_v24 : Ref sig .tc := ⟨.hbm, 86, rfl⟩
abbrev main_cst_6 : Ref sig .tc := ⟨.hbm, 87, rfl⟩
abbrev main_v25 : Ref sig .tc := ⟨.hbm, 88, rfl⟩
abbrev main_v26 : Ref sig .tc := ⟨.hbm, 89, rfl⟩
abbrev main_cst_7 : Ref sig .tc := ⟨.hbm, 90, rfl⟩
abbrev main_v27 : Ref sig .tc := ⟨.hbm, 91, rfl⟩
abbrev main_v28 : Ref sig .tc := ⟨.hbm, 92, rfl⟩
abbrev main_v29 : Ref sig .tc := ⟨.hbm, 93, rfl⟩
abbrev main_v30 : Ref sig .tc := ⟨.hbm, 94, rfl⟩
abbrev main_cst_8 : Ref sig .tc := ⟨.hbm, 95, rfl⟩
abbrev main_v31 : Ref sig .tc := ⟨.hbm, 96, rfl⟩
abbrev main_cst_9 : Ref sig .tc := ⟨.hbm, 97, rfl⟩
abbrev main_v32 : Ref sig .tc := ⟨.hbm, 98, rfl⟩
abbrev main_v33 : Ref sig .tc := ⟨.hbm, 99, rfl⟩
abbrev main_v34 : Ref sig .tc := ⟨.hbm, 100, rfl⟩
abbrev main_v35 : Ref sig .tc := ⟨.hbm, 101, rfl⟩
abbrev main_v36 : Ref sig .tc := ⟨.hbm, 102, rfl⟩
abbrev main_v37 : Ref sig .tc := ⟨.hbm, 103, rfl⟩
abbrev main_cst_10 : Ref sig .tc := ⟨.hbm, 104, rfl⟩
abbrev main_v38 : Ref sig .tc := ⟨.hbm, 105, rfl⟩
abbrev main_cst_11 : Ref sig .tc := ⟨.hbm, 106, rfl⟩
abbrev main_v39 : Ref sig .tc := ⟨.hbm, 107, rfl⟩

abbrev nD : Nat := 1
abbrev τ : Topo := Topo.v7x

variable {F : FTy → Type} [FloatOps F]

class Facts₀ : Prop where
  reducesTo_S4096x128_S4096_d1 : S4096x128.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x128_0_1 : S4096x1.BroadcastsInDim S4096x128 (![0, 1] : Fin 2 → Fin S4096x128.rank)
  concatenates_S4096x128_S4096x128_S8192x128_d0 : Shape.Concatenates [S4096x128, S4096x128] S8192x128 0
  transposes_S8192x128_S128x8192_1_0 : S8192x128.Transposes [1, 0] S128x8192
  bcast_S_S4096 : S_.BroadcastsInDim S4096 (![] : Fin 0 → Fin S4096.rank)
  concatenates_S4096x1_S4096x1_S4096x2_d1 : Shape.Concatenates [S4096x1, S4096x1] S4096x2 1
  concatenates_S4096_S4096_S8192_d0 : Shape.Concatenates [S4096, S4096] S8192 0
  bcast_S_S8192x8192 : S_.BroadcastsInDim S8192x8192 (![] : Fin 0 → Fin S8192x8192.rank)
  bcast_S_S1 : S_.BroadcastsInDim S1 (![] : Fin 0 → Fin S1.rank)
  concatenates_S1_S1_S2_d0 : Shape.Concatenates [S1, S1] S2 0
  bcast_S_S4096x4096 : S_.BroadcastsInDim S4096x4096 (![] : Fin 0 → Fin S4096x4096.rank)
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_
  dot_S8192x128_S128x8192_S8192x8192_1_0_0_1_n_n_wf : DotDims.WF S8192x128 S128x8192 S8192x8192 [1] [0] [0] [1] [] []
  gather_S8192x8192_S4096x2_S4096_n_01_n_n_01_1_11_wf : GatherDims.WF S8192x8192 S4096x2 S4096 [] [0, 1] [] [0, 1] [] 1 ![1, 1]
  scatter_S8192x8192_S2_S4096x4096_01_n_01_0_wf : ScatterDims.WF S8192x8192 S2 S4096x4096 [0, 1] [] [0, 1] 0

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf
def gather_S8192x8192_S4096x2_S4096_n_01_n_n_01_1_11 : GatherDims S8192x8192 S4096x2 S4096 where
  offsetDims := []
  collapsedSliceDims := [0, 1]
  operandBatchingDims := []
  startIndicesBatchingDims := []
  startIndexMap := [0, 1]
  indexVectorDim := 1
  sliceSizes := ![1, 1]
  wf := gather_S8192x8192_S4096x2_S4096_n_01_n_n_01_1_11_wf
def scatter_S8192x8192_S2_S4096x4096_01_n_01_0 : ScatterDims S8192x8192 S2 S4096x4096 where
  updateWindowDims := [0, 1]
  insertedWindowDims := []
  scatterDimsToOperandDims := [0, 1]
  indexVectorDim := 0
  wf := scatter_S8192x8192_S2_S4096x4096_01_n_01_0_wf

class Facts : Prop extends Facts₀ where

variable [Facts]
-- ==== Proof.Spec.lean ====
/-
  The two losses as functions of the two embedding matrices, over the extended reals.

  Both programs first scale every row of each input to unit length, `z = x / max(‖x‖, ε)`, and then combine the scaled rows
  `zi`, `zj` (4096 rows of 128 entries each) into one number.

  The tiled program forms, for every pair of rows, `E p q = exp (4 · ⟨zi p, zj q⟩)`; the sum of `E p ·` over the four
  column tiles (added tile after tile to a zero start) is the first denominator of row `p`, the sum over the four row tiles of
  the per-tile column sums of `E · q` is the second denominator of row `q`, and the loss is the mean over the 8192 terms
  `-⟨zi p, zj p⟩ / ¼ + log (denominator)`.

  The plain program stacks the scaled rows into 8192 rows, takes all pairwise inner products `sim`, reads the two off-diagonals
  at distance 4096 as the positives, sums `mask · exp (sim / ¼)` along each row where `mask` is one exactly on the two
  off-diagonal 4096 × 4096 quadrants, and averages `-log (exp (positive / ¼) / denominator)`.
-/
import Idealize.ShloMosaic.PureOps.Ideal
import Idealize.ShloMosaic.Lib.ValueIdx

noncomputable section

namespace Cert.Spec

open Idealize.ShloMosaic

/-- A 4096 × 128 matrix of extended reals, by row and column. -/
abbrev Mat := Fin 4096 → Fin 128 → EReal

/-! ## The float literals the programs spell -/

def zero : EReal := Ideal.ofBits .f32 0x00000000#32
/-- The row-norm floor (the binary32 nearest 10⁻¹²). -/
def eps : EReal := Ideal.ofBits .f32 0x2B8CBCCC#32
def four : EReal := Ideal.ofBits .f32 0x40800000#32
def quarter : EReal := Ideal.ofBits .f32 0x3E800000#32
def one : EReal := Ideal.ofBits .f32 0x3F800000#32
/-- The number of loss terms, 8192. -/
def count : EReal := Ideal.ofBits .f32 0x46000000#32

/-! ## Rows scaled to unit length -/

/-- `x p k / max (√(0 + ∑ d, x p d · x p d)) ε`. -/
def unitRows (x : Mat) : Mat :=
  fun p k => Ideal.div (x p k) (max (Ideal.sqrt (zero + ∑ d : Fin 128, x p d * x p d)) eps)

/-- The inner product of row `p` of `u` with row `q` of `v`. -/
def dot (u v : Mat) (p q : Fin 4096) : EReal := ∑ k : Fin 128, u p k * v q k

/-! ## The tiled program's loss -/

/-- Row or column `r` of tile `a`: index `1024 · a + r`. -/
def tileIx (a : Fin 4) (r : Fin 1024) : Fin 4096 := ⟨1024 * a.val + r.val, by have := a.isLt; have := r.isLt; omega⟩

/-- `exp (⟨zi p, zj q⟩ · 4)`. -/
def E (zi zj : Mat) (p q : Fin 4096) : EReal := Ideal.exp (dot zi zj p q * four)

/-- The first denominator of row `p`: the four column tiles' sums added one after the other to zero. -/
def rowDen (zi zj : Mat) (p : Fin 4096) : EReal :=
  (((zero + ∑ c : Fin 1024, E zi zj p (tileIx 0 c)) + ∑ c : Fin 1024, E zi zj p (tileIx 1 c))
    + ∑ c : Fin 1024, E zi zj p (tileIx 2 c)) + ∑ c : Fin 1024, E zi zj p (tileIx 3 c)

/-- The second denominator of row `q`: zero plus the four row tiles' column sums, each added to zero. -/
def colDen (zi zj : Mat) (q : Fin 4096) : EReal :=
  zero + ∑ a : Fin 4, (zero + ∑ r : Fin 1024, E zi zj (tileIx a r) q)

/-- The positive of row `p`: `0 + ⟨zi p, zj p⟩`. -/
def diag (zi zj : Mat) (p : Fin 4096) : EReal := zero + ∑ k : Fin 128, zi p k * zj p k

def kernelLoss (zi zj : Mat) : EReal :=
  Ideal.div (zero + ∑ p : Fin 4096,
    ((Ideal.div (-(diag zi zj p)) quarter + Ideal.log (rowDen zi zj p))
      + (Ideal.div (-(diag zi zj p)) quarter + Ideal.log (colDen zi zj p)))) count

/-! ## The plain program's loss -/

/-- The scaled rows stacked: `zi` above `zj`. -/
def reps (zi zj : Mat) : Fin 8192 → Fin 128 → EReal :=
  fun a k => if h : a.val < 4096 then zi ⟨a.val, h⟩ k else zj ⟨a.val - 4096, by have := a.isLt; omega⟩ k

def sim (zi zj : Mat) (a b : Fin 8192) : EReal := ∑ k : Fin 128, reps zi zj a k * reps zi zj b k

/-- The entry at distance 4096 from the diagonal in row `r`. -/
def pos (zi zj : Mat) (r : Fin 8192) : EReal :=
  if h : r.val < 4096 then sim zi zj r ⟨r.val + 4096, by omega⟩
  else sim zi zj r ⟨r.val - 4096, by have := r.isLt; omega⟩

/-- One on the two off-diagonal quadrants, zero on the two diagonal ones. -/
def mask (r c : Fin 8192) : EReal :=
  if (r.val < 4096 ∧ 4096 ≤ c.val) ∨ (4096 ≤ r.val ∧ c.val < 4096) then one else zero

def refDen (zi zj : Mat) (r : Fin 8192) : EReal :=
  zero + ∑ c : Fin 8192, mask r c * Ideal.exp (Ideal.div (sim zi zj r c) quarter)

def refLoss (zi zj : Mat) : EReal :=
  Ideal.div (zero + ∑ r : Fin 8192,
    -(Ideal.log (Ideal.div (Ideal.exp (Ideal.div (pos zi zj r) quarter)) (refDen zi zj r)))) count

end Cert.Spec

end
-- ==== Proof.LibBlockSum.lean ====
/-
  Regrouping a finite sum into consecutive blocks.

  A sum over the `a * b` indices `0 … a*b - 1` is the sum, over the `a` blocks, of the sum of the `b` consecutive
  entries of each block: entry `j` of block `k` is index `k * b + j`. Only commutativity and associativity of the
  addition are used, so the law holds in every additive commutative monoid — in particular on the extended reals,
  where no finiteness of the summands is needed.
-/
import Mathlib.Algebra.BigOperators.Fin
import Mathlib.Logic.Equiv.Fin.Basic

namespace Cert.LibBlockSum

open Finset

/-- Index `k * b + j` of entry `j` in block `k`, as an index below `a * b`. -/
def blockIx (a b : ℕ) (k : Fin a) (j : Fin b) : Fin (a * b) :=
  ⟨k.val * b + j.val, by
    have hk : k.val + 1 ≤ a := k.isLt
    have hj := j.isLt
    calc k.val * b + j.val < k.val * b + b := Nat.add_lt_add_left hj _
      _ = (k.val + 1) * b := (Nat.succ_mul _ _).symm
      _ ≤ a * b := Nat.mul_le_mul_right b hk⟩

@[simp] theorem blockIx_val (a b : ℕ) (k : Fin a) (j : Fin b) : (blockIx a b k j).val = k.val * b + j.val := rfl

/-- A sum over `a * b` consecutive indices is the sum over the `a` blocks of the `b` entries of each. -/
theorem sum_blocks {M : Type*} [AddCommMonoid M] (a b : ℕ) (f : Fin (a * b) → M) :
    ∑ i : Fin (a * b), f i = ∑ k : Fin a, ∑ j : Fin b, f (blockIx a b k j) := by
  rw [← Fintype.sum_prod_type' (f := fun k j => f (blockIx a b k j))]
  refine (Equiv.sum_comp (finProdFinEquiv (m := a) (n := b)) f).symm.trans ?_
  refine Finset.sum_congr rfl fun p _ => congrArg f (Fin.ext ?_)
  simp [finProdFinEquiv, blockIx_val, Nat.mul_comm, Nat.add_comm]

/-- The same with the blocks enumerated by a range of naturals — the form a fold over consecutive steps produces. `g` is
    the per-block summand as a function of every natural; only its values at the `a` block numbers matter. -/
theorem sum_range_blocks {M : Type*} [AddCommMonoid M] (a b : ℕ) (f : Fin (a * b) → M) (g : ℕ → M)
    (hg : ∀ k : Fin a, g k.val = ∑ j : Fin b, f (blockIx a b k j)) :
    ∑ s ∈ Finset.range a, g s = ∑ i : Fin (a * b), f i := by
  rw [Finset.sum_range, sum_blocks]
  exact Finset.sum_congr rfl fun k _ => hg k

/-- The same for an index type `Fin n` whose length is given as a number with `a * b = n` (so that a literal length such as
    16384 need not be rewritten as a product): entry `j` of block `k` is index `k * b + j`. -/
theorem sum_range_blocks_of_eq {M : Type*} [AddCommMonoid M] (a b n : ℕ) (hn : a * b = n) (f : Fin n → M) (g : ℕ → M)
    (hg : ∀ k : Fin a, g k.val = ∑ j : Fin b, f ⟨k.val * b + j.val, hn ▸ (blockIx a b k j).isLt⟩) :
    ∑ s ∈ Finset.range a, g s = ∑ i : Fin n, f i := by
  subst hn
  exact sum_range_blocks a b f g hg

end Cert.LibBlockSum
-- ==== Proof.LossAlgebra.lean ====
/-
  The two losses agree on matrices of real entries.

  Both losses are built from the inner products d p q = ⟨zi p, zj q⟩ of the scaled rows. With e p q = exp (4 · d p q),
  R p = ∑ q, e p q and C q = ∑ p, e p q, the tiled loss is the mean over 8192 of the terms
  -d p p / ¼ + log (R p) and -d p p / ¼ + log (C p); its two denominators are R and C because a sum over 4096 indices
  is the sum over four blocks of 1024 consecutive ones. The plain loss runs over the 8192 stacked rows: in the first half
  (row p) the positive is d p p and the masked row sum is R p, in the second half (row 4096 + q) the positive is
  d q q and the masked row sum is C q, because the mask is zero on the two diagonal quadrants and one on the other two.
  For a real s and a real D > 0, -log (exp (s / ¼) / D) = -s / ¼ + log D, so the two sums have the same terms.
-/
import Mathlib
import Idealize.ShloMosaic.PureOps.Ideal
import proofs.«108457_j47528108098354_2_alg».proof.Proof.Spec
import proofs.«108457_j47528108098354_2_alg».proof.Proof.LibBlockSum

noncomputable section

namespace Cert.LossAlgebra

open Idealize.ShloMosaic Cert.Spec

/-! ## The literals -/

theorem zero_eq : Cert.Spec.zero = 0 := by
  simp [Cert.Spec.zero, Ideal.ofBits, Ideal.ieee]

theorem one_eq : Cert.Spec.one = 1 := by
  simp [Cert.Spec.one, Ideal.ofBits, Ideal.ieee, -EReal.coe_mul]; norm_num

theorem four_eq : Cert.Spec.four = ((4 : ℝ) : EReal) := by
  simp [Cert.Spec.four, Ideal.ofBits, Ideal.ieee, -EReal.coe_mul]; norm_num

theorem quarter_eq : Cert.Spec.quarter = ((1 / 4 : ℝ) : EReal) := by
  simp [Cert.Spec.quarter, Ideal.ofBits, Ideal.ieee, -EReal.coe_mul]; norm_num

theorem count_eq : Cert.Spec.count = ((8192 : ℝ) : EReal) := by
  simp [Cert.Spec.count, Ideal.ofBits, Ideal.ieee, -EReal.coe_mul]; norm_num

/-! ## Regrouping sums over 4096 and 8192 indices -/

/-- A sum over 4096 indices is the sum over the four tiles of the 1024 entries of each. -/
theorem sum_tiles {M : Type*} [AddCommMonoid M] (f : Fin 4096 → M) :
    ∑ i : Fin 4096, f i = ∑ a : Fin 4, ∑ r : Fin 1024, f (tileIx a r) := by
  have h : 4 * 1024 = 4096 := by norm_num
  rw [← Equiv.sum_comp (finCongr h) f, Cert.LibBlockSum.sum_blocks 4 1024]
  refine Finset.sum_congr rfl fun a _ => Finset.sum_congr rfl fun r _ => congrArg f (Fin.ext ?_)
  simp [tileIx, Nat.mul_comm]

/-- Index `p` of the first half of the 8192 stacked rows. -/
def lo (p : Fin 4096) : Fin 8192 := ⟨p.val, by have := p.isLt; omega⟩

/-- Index `4096 + p` of the second half of the 8192 stacked rows. -/
def hi (p : Fin 4096) : Fin 8192 := ⟨p.val + 4096, by have := p.isLt; omega⟩

/-- A sum over 8192 indices is the sum over the first 4096 plus the sum over the last 4096. -/
theorem sum_halves {M : Type*} [AddCommMonoid M] (f : Fin 8192 → M) :
    ∑ r : Fin 8192, f r = ∑ p : Fin 4096, f (lo p) + ∑ p : Fin 4096, f (hi p) := by
  have h : 4096 + 4096 = 8192 := by norm_num
  rw [← Equiv.sum_comp (finCongr h) f, Fin.sum_univ_add]
  have e1 : ∀ p : Fin 4096, finCongr h (Fin.castAdd 4096 p) = lo p := fun p => Fin.ext (by simp [lo])
  have e2 : ∀ p : Fin 4096, finCongr h (Fin.natAdd 4096 p) = hi p := fun p => Fin.ext (by simp [hi, Nat.add_comm])
  simp only [e1, e2]

/-! ## The tiled side: its denominators are full row and column sums -/

theorem rowDen_eq (zi zj : Mat) (p : Fin 4096) : rowDen zi zj p = ∑ q : Fin 4096, E zi zj p q := by
  rw [sum_tiles, Fin.sum_univ_four, rowDen, zero_eq, zero_add]

theorem colDen_eq (zi zj : Mat) (q : Fin 4096) : colDen zi zj q = ∑ p : Fin 4096, E zi zj p q := by
  rw [sum_tiles (fun p => E zi zj p q), colDen, zero_eq]
  simp only [zero_add]

theorem diag_eq (zi zj : Mat) (p : Fin 4096) : diag zi zj p = dot zi zj p p := by
  rw [diag, zero_eq, zero_add, dot]

/-! ## The plain side: stacked rows, positives, mask and denominators by halves -/

theorem reps_lo (zi zj : Mat) (p : Fin 4096) : reps zi zj (lo p) = zi p := by
  funext k
  have h : (lo p).val < 4096 := p.isLt
  simp only [reps, dif_pos h]
  rfl

theorem reps_hi (zi zj : Mat) (q : Fin 4096) : reps zi zj (hi q) = zj q := by
  funext k
  have h : ¬ (hi q).val < 4096 := by simp [hi]
  have e : ∀ h', (⟨(hi q).val - 4096, h'⟩ : Fin 4096) = q := fun h' => Fin.ext (by simp [hi])
  simp only [reps, dif_neg h, e]

theorem sim_lo_hi (zi zj : Mat) (p q : Fin 4096) : sim zi zj (lo p) (hi q) = dot zi zj p q := by
  simp only [sim, reps_lo, reps_hi, dot]

theorem sim_hi_lo (zi zj : Mat) (p q : Fin 4096) : sim zi zj (hi q) (lo p) = dot zi zj p q := by
  simp only [sim, reps_lo, reps_hi, dot]
  exact Finset.sum_congr rfl fun k _ => mul_comm _ _

theorem pos_lo (zi zj : Mat) (p : Fin 4096) : pos zi zj (lo p) = dot zi zj p p := by
  have h : (lo p).val < 4096 := p.isLt
  rw [pos, dif_pos h]
  exact sim_lo_hi zi zj p p

theorem pos_hi (zi zj : Mat) (q : Fin 4096) : pos zi zj (hi q) = dot zi zj q q := by
  have h : ¬ (hi q).val < 4096 := by simp [hi]
  have e : ∀ h', (⟨(hi q).val - 4096, h'⟩ : Fin 8192) = lo q := fun h' => Fin.ext (by simp [hi, lo])
  rw [pos, dif_neg h, e]
  exact sim_hi_lo zi zj q q

theorem mask_lo_lo (p p' : Fin 4096) : mask (lo p) (lo p') = 0 := by
  have hp := p.isLt; have hp' := p'.isLt
  rw [mask, if_neg (by simp only [lo]; omega), zero_eq]

theorem mask_hi_hi (q q' : Fin 4096) : mask (hi q) (hi q') = 0 := by
  have hq := q.isLt; have hq' := q'.isLt
  rw [mask, if_neg (by simp only [hi]; omega), zero_eq]

theorem mask_lo_hi (p q : Fin 4096) : mask (lo p) (hi q) = 1 := by
  have hp := p.isLt; have hq := q.isLt
  rw [mask, if_pos (by simp only [lo, hi]; omega), one_eq]

theorem mask_hi_lo (q p : Fin 4096) : mask (hi q) (lo p) = 1 := by
  have hp := p.isLt; have hq := q.isLt
  rw [mask, if_pos (by simp only [lo, hi]; omega), one_eq]

theorem refDen_lo (zi zj : Mat) (p : Fin 4096) :
    refDen zi zj (lo p) = ∑ q : Fin 4096, Ideal.exp (Ideal.div (dot zi zj p q) quarter) := by
  rw [refDen, sum_halves]
  simp only [mask_lo_lo, mask_lo_hi, sim_lo_hi, zero_eq, zero_mul, one_mul, Finset.sum_const_zero, zero_add]

theorem refDen_hi (zi zj : Mat) (q : Fin 4096) :
    refDen zi zj (hi q) = ∑ p : Fin 4096, Ideal.exp (Ideal.div (dot zi zj p q) quarter) := by
  rw [refDen, sum_halves]
  simp only [mask_hi_hi, mask_hi_lo, sim_hi_lo, zero_eq, zero_mul, one_mul, Finset.sum_const_zero, zero_add, add_zero]

/-! ## Real entries: every quantity is the image of a real number -/

/-- The image of a finite sum of reals is the sum of the images. -/
theorem coe_sum {ι : Type*} (s : Finset ι) (f : ι → ℝ) :
    ((∑ i ∈ s, f i : ℝ) : EReal) = ∑ i ∈ s, (f i : EReal) := by
  classical
  refine Finset.induction_on s (by simp) ?_
  intro i t hi ih
  rw [Finset.sum_insert hi, Finset.sum_insert hi, EReal.coe_add, ih]

/-- A real matrix as a matrix of extended reals. -/
def cm (a : Fin 4096 → Fin 128 → ℝ) : Mat := fun p k => (a p k : EReal)

/-- The real inner product of row `p` of `a` with row `q` of `b`. -/
def rdot (a b : Fin 4096 → Fin 128 → ℝ) (p q : Fin 4096) : ℝ := ∑ k : Fin 128, a p k * b q k

/-- `exp (4 · ⟨a p, b q⟩)` as a real. -/
def rE (a b : Fin 4096 → Fin 128 → ℝ) (p q : Fin 4096) : ℝ := Real.exp (rdot a b p q * 4)

/-- The row sum of `rE`. -/
def rR (a b : Fin 4096 → Fin 128 → ℝ) (p : Fin 4096) : ℝ := ∑ q : Fin 4096, rE a b p q

/-- The column sum of `rE`. -/
def rC (a b : Fin 4096 → Fin 128 → ℝ) (q : Fin 4096) : ℝ := ∑ p : Fin 4096, rE a b p q

theorem rR_pos (a b : Fin 4096 → Fin 128 → ℝ) (p : Fin 4096) : 0 < rR a b p :=
  Finset.sum_pos (fun _ _ => Real.exp_pos _) ⟨p, Finset.mem_univ _⟩

theorem rC_pos (a b : Fin 4096 → Fin 128 → ℝ) (q : Fin 4096) : 0 < rC a b q :=
  Finset.sum_pos (fun _ _ => Real.exp_pos _) ⟨q, Finset.mem_univ _⟩

theorem dot_coe (a b : Fin 4096 → Fin 128 → ℝ) (p q : Fin 4096) :
    dot (cm a) (cm b) p q = ((rdot a b p q : ℝ) : EReal) := by
  simp only [dot, cm, rdot, coe_sum, EReal.coe_mul]

/-- Division by the literal ¼ is multiplication by 4. -/
theorem div_quarter (x : ℝ) : Ideal.div (x : EReal) quarter = ((x * 4 : ℝ) : EReal) := by
  rw [quarter_eq, Ideal.div_coe (by norm_num), ← EReal.coe_mul]
  norm_num

theorem E_coe (a b : Fin 4096 → Fin 128 → ℝ) (p q : Fin 4096) :
    E (cm a) (cm b) p q = ((rE a b p q : ℝ) : EReal) := by
  rw [E, dot_coe, four_eq, ← EReal.coe_mul, Ideal.exp_coe, rE]

theorem exp_div_quarter (a b : Fin 4096 → Fin 128 → ℝ) (p q : Fin 4096) :
    Ideal.exp (Ideal.div (dot (cm a) (cm b) p q) quarter) = ((rE a b p q : ℝ) : EReal) := by
  rw [dot_coe, div_quarter, Ideal.exp_coe, rE]

theorem rowDen_coe (a b : Fin 4096 → Fin 128 → ℝ) (p : Fin 4096) :
    rowDen (cm a) (cm b) p = ((rR a b p : ℝ) : EReal) := by
  simp only [rowDen_eq, E_coe, rR, coe_sum]

theorem colDen_coe (a b : Fin 4096 → Fin 128 → ℝ) (q : Fin 4096) :
    colDen (cm a) (cm b) q = ((rC a b q : ℝ) : EReal) := by
  simp only [colDen_eq, E_coe, rC, coe_sum]

theorem refDen_lo_coe (a b : Fin 4096 → Fin 128 → ℝ) (p : Fin 4096) :
    refDen (cm a) (cm b) (lo p) = ((rR a b p : ℝ) : EReal) := by
  simp only [refDen_lo, exp_div_quarter, rR, coe_sum]

theorem refDen_hi_coe (a b : Fin 4096 → Fin 128 → ℝ) (q : Fin 4096) :
    refDen (cm a) (cm b) (hi q) = ((rC a b q : ℝ) : EReal) := by
  simp only [refDen_hi, exp_div_quarter, rC, coe_sum]

/-! ## The scalar law joining the two sides -/

/-- A term of the tiled loss: `-s / ¼ + log D` for a real `s` and a real `D > 0`. -/
theorem kernel_term (s D : ℝ) (hD : 0 < D) :
    Ideal.div (-(s : EReal)) quarter + Ideal.log (D : EReal) = ((-s * 4 + Real.log D : ℝ) : EReal) := by
  rw [← EReal.coe_neg, div_quarter, Ideal.log_coe, if_neg (not_le.mpr hD), ← EReal.coe_add]

/-- A term of the plain loss: `-log (exp (s / ¼) / D) = -s / ¼ + log D` for a real `s` and a real `D > 0`. -/
theorem ref_term (s D : ℝ) (hD : 0 < D) :
    -(Ideal.log (Ideal.div (Ideal.exp (Ideal.div (s : EReal) quarter)) (D : EReal)))
      = ((-s * 4 + Real.log D : ℝ) : EReal) := by
  have hpos : 0 < Real.exp (s * 4) * (1 / D) := mul_pos (Real.exp_pos _) (one_div_pos.mpr hD)
  rw [div_quarter, Ideal.exp_coe, Ideal.div_coe hD.ne', ← EReal.coe_mul, Ideal.log_coe, if_neg (not_le.mpr hpos),
    ← EReal.coe_neg]
  congr 1
  rw [Real.log_mul (Real.exp_pos _).ne' (one_div_pos.mpr hD).ne', Real.log_exp, one_div, Real.log_inv]
  ring

/-! ## The two losses -/

/-- The two losses agree on matrices with real entries, stated for the images of real matrices. -/
theorem loss_eq_cm (a b : Fin 4096 → Fin 128 → ℝ) : kernelLoss (cm a) (cm b) = refLoss (cm a) (cm b) := by
  have hk : ∀ p : Fin 4096,
      (Ideal.div (-(diag (cm a) (cm b) p)) quarter + Ideal.log (rowDen (cm a) (cm b) p))
        + (Ideal.div (-(diag (cm a) (cm b) p)) quarter + Ideal.log (colDen (cm a) (cm b) p))
      = ((-(rdot a b p p) * 4 + Real.log (rR a b p) : ℝ) : EReal)
        + ((-(rdot a b p p) * 4 + Real.log (rC a b p) : ℝ) : EReal) := by
    intro p
    rw [diag_eq, dot_coe, rowDen_coe, colDen_coe, kernel_term _ _ (rR_pos a b p), kernel_term _ _ (rC_pos a b p)]
  have hlo : ∀ p : Fin 4096,
      -(Ideal.log (Ideal.div (Ideal.exp (Ideal.div (pos (cm a) (cm b) (lo p)) quarter)) (refDen (cm a) (cm b) (lo p))))
      = ((-(rdot a b p p) * 4 + Real.log (rR a b p) : ℝ) : EReal) := by
    intro p
    rw [pos_lo, dot_coe, refDen_lo_coe, ref_term _ _ (rR_pos a b p)]
  have hhi : ∀ q : Fin 4096,
      -(Ideal.log (Ideal.div (Ideal.exp (Ideal.div (pos (cm a) (cm b) (hi q)) quarter)) (refDen (cm a) (cm b) (hi q))))
      = ((-(rdot a b q q) * 4 + Real.log (rC a b q) : ℝ) : EReal) := by
    intro q
    rw [pos_hi, dot_coe, refDen_hi_coe, ref_term _ _ (rC_pos a b q)]
  rw [kernelLoss, refLoss, sum_halves]
  simp only [hk, hlo, hhi, Finset.sum_add_distrib]

/-- The tiled loss and the plain loss are the same extended real whenever every entry of the two scaled matrices is a
    real number. -/
theorem loss_eq (zi zj : Cert.Spec.Mat) (hi : ∀ p k, ∃ r : ℝ, zi p k = (r : EReal))
    (hj : ∀ p k, ∃ r : ℝ, zj p k = (r : EReal)) :
    Cert.Spec.kernelLoss zi zj = Cert.Spec.refLoss zi zj := by
  choose a ha using hi
  choose b hb using hj
  have ea : zi = cm a := funext fun p => funext fun k => ha p k
  have eb : zj = cm b := funext fun p => funext fun k => hb p k
  rw [ea, eb]
  exact loss_eq_cm a b

end Cert.LossAlgebra

end
-- ==== Proof.UnitRowsReal.lean ====
/-
  Scaling rows of real numbers to unit length gives real numbers.

  For a row of reals the sum of squares S is a real number ≥ 0, its square root is the real √S, the floor ε is a positive
  real e, so the maximum of the two is the real max (√S) e ≥ e > 0, and dividing a real entry by it is multiplying by a
  real reciprocal: every entry of the scaled matrix is a real number.
-/
import Mathlib
import Idealize.ShloMosaic.PureOps.Ideal
import proofs.«108457_j47528108098354_2_alg».proof.Proof.Spec

noncomputable section

namespace Cert.UnitRowsReal

open Idealize.ShloMosaic Cert.Spec

theorem zero_eq : Cert.Spec.zero = 0 := by
  simp [Cert.Spec.zero, Ideal.ofBits, Ideal.ieee]

/-- Sign 0, exponent 87 - 127 = -40, significand (2²³ + 834764) / 2²³: the value 9223372 · 2⁻⁶³. -/
theorem eps_eq : Cert.Spec.eps = (((9223372 : ℝ) * (2 : ℝ) ^ (-63 : ℤ) : ℝ) : EReal) := by
  simp [Cert.Spec.eps, Ideal.ofBits, Ideal.ieee, -EReal.coe_mul]

/-- The row-norm floor is a positive real number. -/
theorem eps_pos : ∃ e : ℝ, 0 < e ∧ Cert.Spec.eps = (e : EReal) :=
  ⟨_, by positivity, eps_eq⟩

/-- The image of a finite sum of reals is the sum of the images. -/
theorem coe_sum {ι : Type*} (s : Finset ι) (f : ι → ℝ) :
    ((∑ i ∈ s, f i : ℝ) : EReal) = ∑ i ∈ s, (f i : EReal) := by
  classical
  refine Finset.induction_on s (by simp) ?_
  intro i t hi ih
  rw [Finset.sum_insert hi, Finset.sum_insert hi, EReal.coe_add, ih]

/-- Every entry of the row-scaled matrix of a matrix of real numbers is a real number. -/
theorem unitRows_real (x : Cert.Spec.Mat) (hx : ∀ p k, ∃ r : ℝ, x p k = (r : EReal)) :
    ∀ p k, ∃ r : ℝ, Cert.Spec.unitRows x p k = (r : EReal) := by
  choose a ha using hx
  obtain ⟨e, he, hee⟩ := eps_pos
  intro p k
  have hS : (0 : ℝ) ≤ ∑ d : Fin 128, a p d * a p d := Finset.sum_nonneg fun d _ => mul_self_nonneg _
  have hsum : Cert.Spec.zero + ∑ d : Fin 128, x p d * x p d = ((∑ d : Fin 128, a p d * a p d : ℝ) : EReal) := by
    rw [zero_eq, zero_add, coe_sum]
    exact Finset.sum_congr rfl fun d _ => by rw [ha p d, EReal.coe_mul]
  have hm : 0 < max (Real.sqrt (∑ d : Fin 128, a p d * a p d)) e := lt_max_of_lt_right he
  have hmax : max ((Real.sqrt (∑ d : Fin 128, a p d * a p d) : ℝ) : EReal) (e : EReal)
      = ((max (Real.sqrt (∑ d : Fin 128, a p d * a p d)) e : ℝ) : EReal) :=
    (EReal.coe_strictMono.monotone.map_max).symm
  refine ⟨a p k * (1 / max (Real.sqrt (∑ d : Fin 128, a p d * a p d)) e), ?_⟩
  rw [unitRows, hsum, Ideal.sqrt_coe, if_neg (not_lt.mpr hS), hee, hmax, Ideal.div_coe hm.ne', ha p k,
    ← EReal.coe_mul]

end Cert.UnitRowsReal

end
-- ==== Proof.PreFinite.lean ====
/-
  From the finiteness precondition to real entries.

  The precondition is the conjunction of two tests "every entry has absolute value below +∞", one per input matrix,
  each an and-reduction over all entries from the start value one. If the conjunction is one, both reductions are one, so
  every comparison is one; and an extended real x with max x (-x) < ⊤ is neither ⊤ nor ⊥, hence a real number.
-/
import Mathlib.Data.EReal.Basic
import Idealize.ShloMosaic.PureOps.Ideal
import Idealize.ShloMosaic.Lib.ReduceAll
import Idealize.ShloMosaic.Lib.IdealHost
import Idealize.ShloMosaic.Lib.ValueIdx
import proofs.«108457_j47528108098354_2_alg».proof.Pre_finite_inputs

noncomputable section

namespace Cert.PreFinite

open Idealize.ShloMosaic Cert.Pre_finite_inputs

/-- The pattern of +∞ denotes ⊤. -/
theorem ofBits_inf : Ideal.ofBits .f32 0x7F800000#32 = ⊤ := by
  simp [Ideal.ofBits, Ideal.ieee]

/-- An extended real whose absolute value compares below +∞ is a real number. -/
theorem real_of_abs_lt_inf (x : EReal)
    (h : Ideal.cmp .olt (max x (-x)) (Ideal.ofBits .f32 0x7F800000#32) = 1#1) : ∃ r : ℝ, x = (r : EReal) := by
  rw [ofBits_inf] at h
  induction x using EReal.rec with
  | bot => exfalso; simp [Ideal.cmp] at h
  | coe r => exact ⟨r, rfl⟩
  | top => exfalso; simp [Ideal.cmp] at h

instance : Subsingleton S_.Idx := ⟨fun a b => funext fun d => d.elim0⟩

variable [Cert.Pre_finite_inputs.Facts]

/-- If the finiteness precondition holds of two input matrices, every entry of each is a real number. -/
theorem real_of_pre (x0 x1 : (⟨S4096x128, .f32⟩ : BufTy).Contents (Elt Ideal))
    (h : Cert.Pre_finite_inputs.fn (F := Ideal) x0 x1 = fun _ => 1#1) :
    (∀ i, ∃ r : ℝ, x0 i = (r : EReal)) ∧ (∀ i, ∃ r : ℝ, x1 i = (r : EReal)) := by
  have h0 := congrFun h ValueIdx.ix0
  dsimp only [Cert.Pre_finite_inputs.fn] at h0
  change IntOp.andi _ _ = 1#1 at h0
  obtain ⟨ha, hb⟩ := IntOp.andi_eq_one.1 h0
  refine ⟨fun i => ?_, fun i => ?_⟩
  · have e := Host.reduce_andi_all _ _ _ _ _ ha i
    rw [ValueIdx.cmpf_apply, ValueIdx.broadcastInDim_scalar_apply] at e
    exact real_of_abs_lt_inf (x0 i) e
  · have e := Host.reduce_andi_all _ _ _ _ _ hb i
    rw [ValueIdx.cmpf_apply, ValueIdx.broadcastInDim_scalar_apply] at e
    exact real_of_abs_lt_inf (x1 i) e

end Cert.PreFinite

end
-- ==== Proof.RefValue.lean ====
/-
  The value of the plain NT-Xent program, stage by stage, as the specification's `refLoss` of the two inputs' unit-length rows.

  Each row of an input is divided by the larger of its Euclidean length and a small floor; the two scaled matrices are stacked
  into 8192 rows; all pairwise inner products of the stacked rows are taken; the entry at distance 4096 from the diagonal in
  each row is the row's positive; a matrix that is one on the two off-diagonal 4096 × 4096 quadrants and zero elsewhere
  (zeros overwritten by two blocks of ones) multiplies the exponentials of the inner products over ¼, whose row sums are the
  denominators; the result is the mean over the rows of minus the logarithm of exp(positive / ¼) over the denominator.

  The file first reads a two-piece stacking, a block overwrite and a pointwise pick at an index in general, then each stage
  of the program at an index, and last composes the stages.
-/
import proofs.«108457_j47528108098354_2_alg».proof.Proof.Spec
import proofs.«108457_j47528108098354_2_alg».proof.Proof.Gen.ReferenceIdeal.Read

noncomputable section

open scoped BigOperators

namespace Cert.RefValue

open Cert.ReferenceIdeal Cert.ReferenceIdeal.Gen Cert.ReferenceIdeal.Read Idealize.ShloMosaic Idealize.ShloMosaic.ValueIdx
  Idealize.ShloMosaic.StableHlo

/-- An input array as a matrix by row and column. -/
abbrev mat (x : (⟨S4096x128, .f32⟩ : BufTy).Contents (Elt Ideal)) : Cert.Spec.Mat := fun p k => x (ix2 p k)

/-! ## Index words -/

/-- A small number as a 32-bit word reads back, signed, as itself. -/
theorem toInt_ofNat_small (n : Nat) (h : n < 2147483648) : (BitVec.ofNat 32 n).toInt = (n : Int) := by
  have h1 : (BitVec.ofNat 32 n).toNat = n := by rw [BitVec.toNat_ofNat]; exact Nat.mod_eq_of_lt (by omega)
  rw [BitVec.toInt_eq_toNat_of_lt (by rw [h1]; omega), h1]

/-- 4096 plus a small number, added as 32-bit words, is the sum as a word. -/
theorem add_ofNat_small (n : Nat) : 4096#32 + BitVec.ofNat 32 n = BitVec.ofNat 32 (4096 + n) := by
  apply BitVec.eq_of_toNat_eq
  rw [BitVec.toNat_add, BitVec.toNat_ofNat, BitVec.toNat_ofNat, BitVec.toNat_ofNat]
  omega

/-- A small number as a 32-bit word is not below zero as a signed word. -/
theorem cmpi_slt_zero_small (n : Nat) (h : n < 2147483648) : IntOp.cmpi .slt (BitVec.ofNat 32 n) 0#32 = 0#1 := by
  unfold IntOp.cmpi
  have : (BitVec.ofNat 32 n).slt 0#32 = false := by
    rw [BitVec.slt_eq_decide, toInt_ofNat_small n h]
    have : (0#32 : BitVec 32).toInt = 0 := rfl
    rw [this]
    exact decide_eq_false (by omega)
  rw [this]; rfl

/-- The pick "if the word is negative add 8192, else keep it" keeps a small number. -/
theorem select_wrap_small (n : Nat) (h : n < 2147483648) (alt : BitVec 32) :
    Scalar.select (IntOp.cmpi .slt (BitVec.ofNat 32 n) 0#32) alt (BitVec.ofNat 32 n) = BitVec.ofNat 32 n := by
  rw [cmpi_slt_zero_small n h, select_zero]

/-! ## The scaled rows -/

/-- The first input's scaled rows at an index: the specification's unit rows. -/
theorem v4_apply (x0 : (⟨S4096x128, .f32⟩ : BufTy).Contents (Elt Ideal)) (p : Fin 4096) (k : Fin 128) :
    val_main_v4 (F := Ideal) x0 (ix2 p k) = Cert.Spec.unitRows (mat x0) p k := by
  have e : ∀ d : Fin 128, idx_main_call0_v1 (idx_main_call0_v2 (idx_main_v3 (ix2 p k))) d = ix2 p d := fun d =>
    funext fun a => Fin.ext (by match a with | ⟨0, _⟩ => rfl | ⟨1, _⟩ => rfl)
  rw [val_main_v4_apply, val_main_v3_apply, val_main_v2_apply, val_main_v0_apply, val_main_call0_v2_apply,
    val_main_call0_v1_apply, val_main_call0_cst_apply, val_main_v1_apply, val_main_cst_apply]
  simp only [val_main_call0_v0_apply, e, Ideal.hostDivf_def, Ideal.maximumf_def, Ideal.hostUnary_sqrt_def, Ideal.mulf_def,
    Ideal.ofBits_def]
  rfl

/-- The second input's scaled rows at an index: the specification's unit rows. -/
theorem v9_apply (x1 : (⟨S4096x128, .f32⟩ : BufTy).Contents (Elt Ideal)) (p : Fin 4096) (k : Fin 128) :
    val_main_v9 (F := Ideal) x1 (ix2 p k) = Cert.Spec.unitRows (mat x1) p k := by
  have e : ∀ d : Fin 128, idx_main_call1_v1 (idx_main_call1_v2 (idx_main_v8 (ix2 p k))) d = ix2 p d := fun d =>
    funext fun a => Fin.ext (by match a with | ⟨0, _⟩ => rfl | ⟨1, _⟩ => rfl)
  rw [val_main_v9_apply, val_main_v8_apply, val_main_v7_apply, val_main_v5_apply, val_main_call1_v2_apply,
    val_main_call1_v1_apply, val_main_call1_cst_apply, val_main_v6_apply, val_main_cst_0_apply]
  simp only [val_main_call1_v0_apply, e, Ideal.hostDivf_def, Ideal.maximumf_def, Ideal.hostUnary_sqrt_def, Ideal.mulf_def,
    Ideal.ofBits_def]
  rfl

/-! ## The stacked rows and their inner products -/

/-- The stacked scaled rows at an index. -/
theorem v10_apply (x0 x1 : (⟨S4096x128, .f32⟩ : BufTy).Contents (Elt Ideal)) (a : Fin 8192) (k : Fin 128) :
    val_main_v10 (F := Ideal) x0 x1 (ix2 a k)
      = Cert.Spec.reps (Cert.Spec.unitRows (mat x0)) (Cert.Spec.unitRows (mat x1)) a k := by
  unfold val_main_v10 Cert.Spec.reps
  by_cases h : a.val < 4096
  · rw [dif_pos h, ← v4_apply]
    exact concatenate_pair_apply_left (t := S8192x128) (s₁ := S4096x128) (s₂ := S4096x128) (0 : Fin 2)
      (val_main_v4 (F := Ideal) x0) (val_main_v9 (F := Ideal) x1) _ (ix2 a k) rfl (ix2 (⟨a.val, h⟩ : Fin 4096) k)
      (fun b => by match b with | ⟨0, _⟩ => rfl | ⟨1, _⟩ => rfl)
  · rw [dif_neg h, ← v9_apply]
    exact concatenate_pair_apply_right (t := S8192x128) (s₁ := S4096x128) (s₂ := S4096x128) (0 : Fin 2)
      (val_main_v4 (F := Ideal) x0) (val_main_v9 (F := Ideal) x1) _ (ix2 a k) rfl rfl
      (ix2 (⟨a.val - 4096, by have := a.isLt; omega⟩ : Fin 4096) k)
      (fun b hb => by match b with | ⟨0, _⟩ => exact absurd rfl hb | ⟨1, _⟩ => rfl)
      (by show a.val - 4096 + 4096 = a.val; omega)

/-- The matrix of inner products at an index. -/
theorem v12_apply (x0 x1 : (⟨S4096x128, .f32⟩ : BufTy).Contents (Elt Ideal)) (a b : Fin 8192) :
    val_main_v12 (F := Ideal) x0 x1 (ix2 a b)
      = Cert.Spec.sim (Cert.Spec.unitRows (mat x0)) (Cert.Spec.unitRows (mat x1)) a b := by
  have el : ∀ k : Fin 128, lidx_main_v12 (ix2 a b) k = ix2 a k := fun k =>
    funext fun c => Fin.ext (by match c with | ⟨0, _⟩ => rfl | ⟨1, _⟩ => rfl)
  have er : ∀ k : Fin 128, idx_main_v11 (ridx_main_v12 (ix2 a b) k) = ix2 b k := fun k =>
    funext fun c => Fin.ext (by match c with | ⟨0, _⟩ => rfl | ⟨1, _⟩ => rfl)
  rw [val_main_v12_apply]
  simp only [val_main_v11_apply, el, er, v10_apply]
  rfl

/-! ## A block overwrite read at an index -/

section Fold
variable {N : Nat} {I A : Type}

/-- A left fold of steps, each of which keeps an entry that already holds `c` and sets it to `c` at a marked position,
    ends with `c` in that entry when it starts with it or some listed position is marked. -/
theorem foldl_const_at (step : (I → A) → Fin N → (I → A)) (i' : I) (c : A) (hit : Fin N → Prop)
    (h1 : ∀ r n, r i' = c → step r n i' = c) (h2 : ∀ r n, hit n → step r n i' = c) :
    ∀ (l : List (Fin N)) (x : I → A), (x i' = c ∨ ∃ n ∈ l, hit n) → List.foldl step x l i' = c := by
  intro l
  induction l with
  | nil =>
    intro x h
    rcases h with h | ⟨n, hn, _⟩
    · exact h
    · exact absurd hn List.not_mem_nil
  | cons n l ih =>
    intro x h
    rw [List.foldl_cons]
    refine ih _ ?_
    rcases h with h | ⟨m, hm, hh⟩
    · exact Or.inl (h1 x n h)
    · rcases List.mem_cons.1 hm with rfl | hm
      · exact Or.inl (h2 x m hh)
      · exact Or.inr ⟨m, hm, hh⟩

end Fold

/-- An overwriting scatter read at an index where every update that lands there carries the value `c`, and the operand
    holds `c` there or some update lands there: `c`. -/
theorem scatter_set_apply {s si u : Shape} {w : Nat} {α : Type} (d : ScatterDims s si u) (x : s.Idx → α) (idx : IVec si w)
    (upd : u.Idx → α) (i' : s.Idx) (c : α)
    (hc : ∀ j, d.resultIdx? j idx = some i' → upd j = c)
    (h : x i' = c ∨ ∃ j, d.resultIdx? j idx = some i') :
    Host.scatter d (fun _ b => b) x idx upd i' = c := by
  unfold Host.scatter
  refine foldl_const_at _ i' c (fun n => d.resultIdx? (u.rowMajor.symm n) idx = some i') ?_ ?_ _ x ?_
  · intro r n hr
    dsimp only
    generalize hres : d.resultIdx? (u.rowMajor.symm n) idx = o
    cases o with
    | none => exact hr
    | some i =>
      dsimp only
      by_cases e : i' = i
      · rw [if_pos e]; exact hc _ (hres.trans (congrArg some e.symm))
      · rw [if_neg e]; exact hr
  · intro r n hn
    dsimp only
    rw [hn]
    dsimp only
    rw [if_pos rfl]; exact hc _ hn
  · rcases h with h | ⟨j, hj⟩
    · exact Or.inl h
    · exact Or.inr ⟨u.rowMajor j, List.mem_finRange _, by rw [Equiv.symm_apply_apply]; exact hj⟩

/-! The program's block overwrite: one start index (row, column), a 4096 × 4096 window into 8192 × 8192. -/

/-- The window's start on the row axis: the start index's first word, read signed. -/
theorem scatter_start0 (j : S4096x4096.Idx) (idx : IVec S2 32) :
    scatter_S8192x8192_S2_S4096x4096_01_n_01_0.start j idx 0 = (idx (ix1 (0 : Fin 2))).toInt := by
  unfold ScatterDims.start
  rw [dif_pos (show (0 : Fin 2) ∈ scatter_S8192x8192_S2_S4096x4096_01_n_01_0.scatterDimsToOperandDims by decide)]
  have hsi : scatter_S8192x8192_S2_S4096x4096_01_n_01_0.siIdx j
      ⟨List.idxOf (0 : Fin 2) scatter_S8192x8192_S2_S4096x4096_01_n_01_0.scatterDimsToOperandDims,
        List.idxOf_lt_length_iff.2 (by decide)⟩ = ix1 (0 : Fin 2) := by
    funext b; refine Fin.ext ?_
    match b with
    | ⟨0, _⟩ => rfl
  rw [hsi]

/-- The window's start on the column axis: the start index's second word, read signed. -/
theorem scatter_start1 (j : S4096x4096.Idx) (idx : IVec S2 32) :
    scatter_S8192x8192_S2_S4096x4096_01_n_01_0.start j idx 1 = (idx (ix1 (1 : Fin 2))).toInt := by
  unfold ScatterDims.start
  rw [dif_pos (show (1 : Fin 2) ∈ scatter_S8192x8192_S2_S4096x4096_01_n_01_0.scatterDimsToOperandDims by decide)]
  have hsi : scatter_S8192x8192_S2_S4096x4096_01_n_01_0.siIdx j
      ⟨List.idxOf (1 : Fin 2) scatter_S8192x8192_S2_S4096x4096_01_n_01_0.scatterDimsToOperandDims,
        List.idxOf_lt_length_iff.2 (by decide)⟩ = ix1 (1 : Fin 2) := by
    funext b; refine Fin.ext ?_
    match b with
    | ⟨0, _⟩ => rfl
  rw [hsi]

/-- The window's coordinate on the row axis is the update index's. -/
theorem scatter_window0 (j : S4096x4096.Idx) : scatter_S8192x8192_S2_S4096x4096_01_n_01_0.window j 0 = (j 0).val := rfl
/-- The window's coordinate on the column axis is the update index's. -/
theorem scatter_window1 (j : S4096x4096.Idx) : scatter_S8192x8192_S2_S4096x4096_01_n_01_0.window j 1 = (j 1).val := rfl

/-- The reading of where an update lands: the start index's two words plus the window's coordinates. -/
theorem scatter_result_iff (idx : IVec S2 32) (r0 c0 : Nat) (h0 : (idx (ix1 (0 : Fin 2))).toInt = (r0 : Int))
    (h1 : (idx (ix1 (1 : Fin 2))).toInt = (c0 : Int)) (j : S4096x4096.Idx) (i : S8192x8192.Idx) :
    scatter_S8192x8192_S2_S4096x4096_01_n_01_0.resultIdx? j idx = some i
      ↔ (i 0).val = r0 + (j 0).val ∧ (i 1).val = c0 + (j 1).val := by
  have e0 : scatter_S8192x8192_S2_S4096x4096_01_n_01_0.start j idx 0
      + (scatter_S8192x8192_S2_S4096x4096_01_n_01_0.window j 0 : Int) = ((r0 + (j 0).val : Nat) : Int) := by
    rw [scatter_start0, scatter_window0, h0]; push_cast; rfl
  have e1 : scatter_S8192x8192_S2_S4096x4096_01_n_01_0.start j idx 1
      + (scatter_S8192x8192_S2_S4096x4096_01_n_01_0.window j 1 : Int) = ((c0 + (j 1).val : Nat) : Int) := by
    rw [scatter_start1, scatter_window1, h1]; push_cast; rfl
  unfold ScatterDims.resultIdx?
  constructor
  · intro h
    split at h
    · have hi := Option.some.inj h
      constructor
      · rw [← hi]
        show (scatter_S8192x8192_S2_S4096x4096_01_n_01_0.start j idx 0
          + (scatter_S8192x8192_S2_S4096x4096_01_n_01_0.window j 0 : Int)).toNat = _
        rw [e0, Int.toNat_natCast]
      · rw [← hi]
        show (scatter_S8192x8192_S2_S4096x4096_01_n_01_0.start j idx 1
          + (scatter_S8192x8192_S2_S4096x4096_01_n_01_0.window j 1 : Int)).toNat = _
        rw [e1, Int.toNat_natCast]
    · exact absurd h (by simp)
  · rintro ⟨g0, g1⟩
    have l0 : (i 0).val < 8192 := idx2_lt0 i
    have l1 : (i 1).val < 8192 := idx2_lt1 i
    rw [dif_pos (Fin.forall_fin_two.2 ⟨by rw [e0]; exact ⟨Int.natCast_nonneg _, by rw [← g0]; exact_mod_cast l0⟩,
      by rw [e1]; exact ⟨Int.natCast_nonneg _, by rw [← g1]; exact_mod_cast l1⟩⟩)]
    refine congrArg some (funext fun a => Fin.ext ?_)
    match a with
    | ⟨0, _⟩ =>
      show (scatter_S8192x8192_S2_S4096x4096_01_n_01_0.start j idx 0
        + (scatter_S8192x8192_S2_S4096x4096_01_n_01_0.window j 0 : Int)).toNat = (i 0).val
      rw [e0, Int.toNat_natCast, g0]
    | ⟨1, _⟩ =>
      show (scatter_S8192x8192_S2_S4096x4096_01_n_01_0.start j idx 1
        + (scatter_S8192x8192_S2_S4096x4096_01_n_01_0.window j 1 : Int)).toNat = (i 1).val
      rw [e1, Int.toNat_natCast, g1]

/-! ## The mask -/

/-- The first block's start index: row 0 … -/
theorem v19_0 : val_main_v19 (F := Ideal) (ix1 (0 : Fin 2)) = 0#32 := by
  unfold val_main_v19
  rw [concatenate_pair_apply_left (t := S2) (s₁ := S1) (s₂ := S1) (0 : Fin 1) (val_main_v17 (F := Ideal))
    (val_main_v18 (F := Ideal)) _ (ix1 (0 : Fin 2)) rfl (ix1 (0 : Fin 1)) (fun b => by match b with | ⟨0, _⟩ => rfl),
    val_main_v17_apply, val_main_c_apply]
/-- … column 4096. -/
theorem v19_1 : val_main_v19 (F := Ideal) (ix1 (1 : Fin 2)) = 4096#32 := by
  unfold val_main_v19
  rw [concatenate_pair_apply_right (t := S2) (s₁ := S1) (s₂ := S1) (0 : Fin 1) (val_main_v17 (F := Ideal))
    (val_main_v18 (F := Ideal)) _ (ix1 (1 : Fin 2)) rfl rfl (ix1 (0 : Fin 1))
    (fun b hb => by match b with | ⟨0, _⟩ => exact absurd rfl hb) rfl,
    val_main_v18_apply, val_main_c_2_apply]
/-- The second block's start index: row 4096 … -/
theorem v24_0 : val_main_v24 (F := Ideal) (ix1 (0 : Fin 2)) = 4096#32 := by
  unfold val_main_v24
  rw [concatenate_pair_apply_left (t := S2) (s₁ := S1) (s₂ := S1) (0 : Fin 1) (val_main_v22 (F := Ideal))
    (val_main_v23 (F := Ideal)) _ (ix1 (0 : Fin 2)) rfl (ix1 (0 : Fin 1)) (fun b => by match b with | ⟨0, _⟩ => rfl),
    val_main_v22_apply, val_main_c_4_apply]
/-- … column 0. -/
theorem v24_1 : val_main_v24 (F := Ideal) (ix1 (1 : Fin 2)) = 0#32 := by
  unfold val_main_v24
  rw [concatenate_pair_apply_right (t := S2) (s₁ := S1) (s₂ := S1) (0 : Fin 1) (val_main_v22 (F := Ideal))
    (val_main_v23 (F := Ideal)) _ (ix1 (1 : Fin 2)) rfl rfl (ix1 (0 : Fin 1))
    (fun b hb => by match b with | ⟨0, _⟩ => exact absurd rfl hb) rfl,
    val_main_v23_apply, val_main_c_5_apply]

/-- After the first overwrite: one on the upper right quadrant, zero elsewhere. -/
theorem v21_apply (r c : Fin 8192) :
    val_main_v21 (F := Ideal) (ix2 r c) = if r.val < 4096 ∧ 4096 ≤ c.val then Cert.Spec.one else Cert.Spec.zero := by
  unfold val_main_v21
  have hres := scatter_result_iff (val_main_v19 (F := Ideal)) 0 4096 (by rw [v19_0]; rfl)
    (by rw [v19_1]; exact toInt_ofNat_small 4096 (by omega))
  by_cases h : r.val < 4096 ∧ 4096 ≤ c.val
  · rw [if_pos h]
    refine scatter_set_apply _ _ _ _ _ _ (fun j _ => ?_)
      (Or.inr ⟨ix2 (⟨r.val, h.1⟩ : Fin 4096) (⟨c.val - 4096, by have := c.isLt; omega⟩ : Fin 4096), (hres _ _).2
        ⟨by show r.val = 0 + r.val; omega, by show c.val = 4096 + (c.val - 4096); omega⟩⟩)
    rw [val_main_v20_apply, val_main_cst_3_apply]; rfl
  · rw [if_neg h]
    refine scatter_set_apply _ _ _ _ _ _ (fun j hj => ?_) (Or.inl ?_)
    · exfalso
      have hh := (hres j _).1 hj
      have h0 : r.val = 0 + (j 0).val := hh.1
      have h1 : c.val = 4096 + (j 1).val := hh.2
      have := idx2_lt0 j
      exact h ⟨by omega, by omega⟩
    · rw [val_main_v16_apply, val_main_cst_1_apply]; rfl

/-- The mask at an index: one on the two off-diagonal quadrants, zero on the diagonal ones. -/
theorem v26_apply (r c : Fin 8192) : val_main_v26 (F := Ideal) (ix2 r c) = Cert.Spec.mask r c := by
  unfold val_main_v26 Cert.Spec.mask
  have hres := scatter_result_iff (val_main_v24 (F := Ideal)) 4096 0
    (by rw [v24_0]; exact toInt_ofNat_small 4096 (by omega)) (by rw [v24_1]; rfl)
  by_cases h : 4096 ≤ r.val ∧ c.val < 4096
  · rw [if_pos (Or.inr h)]
    refine scatter_set_apply _ _ _ _ _ _ (fun j _ => ?_)
      (Or.inr ⟨ix2 (⟨r.val - 4096, by have := r.isLt; omega⟩ : Fin 4096) (⟨c.val, h.2⟩ : Fin 4096), (hres _ _).2
        ⟨by show r.val = 4096 + (r.val - 4096); omega, by show c.val = 0 + c.val; omega⟩⟩)
    rw [val_main_v25_apply, val_main_cst_6_apply]; rfl
  · have hmiss : ∀ j, scatter_S8192x8192_S2_S4096x4096_01_n_01_0.resultIdx? j (val_main_v24 (F := Ideal)) = some (ix2 r c)
        → False := fun j hj => by
      have hh := (hres j _).1 hj
      have h0 : r.val = 4096 + (j 0).val := hh.1
      have h1 : c.val = 0 + (j 1).val := hh.2
      have := idx2_lt1 j
      exact h ⟨by omega, by omega⟩
    by_cases h' : r.val < 4096 ∧ 4096 ≤ c.val
    · rw [if_pos (Or.inl h')]
      exact scatter_set_apply _ _ _ _ _ _ (fun j hj => (hmiss j hj).elim) (Or.inl (by rw [v21_apply, if_pos h']))
    · rw [if_neg (not_or.2 ⟨h', h⟩)]
      exact scatter_set_apply _ _ _ _ _ _ (fun j hj => (hmiss j hj).elim) (Or.inl (by rw [v21_apply, if_neg h']))

/-! ## The positives -/

/-- The program's pick of one entry per row of start indices: the operand at the (row, column) the two words name,
    when both are inside the operand. -/
theorem gather_apply {α : Type} (x : S8192x8192.Idx → α) (idx : IVec S4096x2 32) (r : Fin 4096) (a b : Fin 8192)
    (ha : (idx (ix2 r (0 : Fin 2))).toInt.toNat = a.val) (hb : (idx (ix2 r (1 : Fin 2))).toInt.toNat = b.val) :
    Host.gather gather_S8192x8192_S4096x2_S4096_n_01_n_n_01_1_11 x idx (ix1 r) = x (ix2 a b) := by
  unfold Host.gather
  congr 1
  funext c
  refine Fin.ext ?_
  match c with
  | ⟨0, _⟩ =>
    show gather_S8192x8192_S4096x2_S4096_n_01_n_n_01_1_11.start (ix1 r) idx 0
      + gather_S8192x8192_S4096x2_S4096_n_01_n_n_01_1_11.batchCoord (ix1 r) 0
      + gather_S8192x8192_S4096x2_S4096_n_01_n_n_01_1_11.offCoord (ix1 r) 0 = a.val
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (0 : Fin 2) ∈ gather_S8192x8192_S4096x2_S4096_n_01_n_n_01_1_11.startIndexMap by decide)]
    have hsi : gather_S8192x8192_S4096x2_S4096_n_01_n_n_01_1_11.siIdx (ix1 r)
        ⟨List.idxOf (0 : Fin 2) gather_S8192x8192_S4096x2_S4096_n_01_n_n_01_1_11.startIndexMap,
          List.idxOf_lt_length_iff.2 (by decide)⟩ = ix2 r (0 : Fin 2) := by
      funext b; refine Fin.ext ?_
      match b with
      | ⟨0, _⟩ => rfl
      | ⟨1, _⟩ => rfl
    rw [hsi, ha]
    exact Nat.min_eq_left (by have := a.isLt; show a.val ≤ 8192 - 1; omega)
  | ⟨1, _⟩ =>
    show gather_S8192x8192_S4096x2_S4096_n_01_n_n_01_1_11.start (ix1 r) idx 1
      + gather_S8192x8192_S4096x2_S4096_n_01_n_n_01_1_11.batchCoord (ix1 r) 1
      + gather_S8192x8192_S4096x2_S4096_n_01_n_n_01_1_11.offCoord (ix1 r) 1 = b.val
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (1 : Fin 2) ∈ gather_S8192x8192_S4096x2_S4096_n_01_n_n_01_1_11.startIndexMap by decide)]
    have hsi : gather_S8192x8192_S4096x2_S4096_n_01_n_n_01_1_11.siIdx (ix1 r)
        ⟨List.idxOf (1 : Fin 2) gather_S8192x8192_S4096x2_S4096_n_01_n_n_01_1_11.startIndexMap,
          List.idxOf_lt_length_iff.2 (by decide)⟩ = ix2 r (1 : Fin 2) := by
      funext b; refine Fin.ext ?_
      match b with
      | ⟨0, _⟩ => rfl
      | ⟨1, _⟩ => rfl
    rw [hsi, hb]
    exact Nat.min_eq_left (by have := b.isLt; show b.val ≤ 8192 - 1; omega)

/-- The first pick's start indices: row `r` … -/
theorem call2_v16_0 (r : Fin 4096) : val_main_call2_v16 (F := Ideal) (ix2 r (0 : Fin 2)) = BitVec.ofNat 32 r.val := by
  unfold val_main_call2_v16
  rw [concatenate_pair_apply_left (t := S4096x2) (s₁ := S4096x1) (s₂ := S4096x1) (1 : Fin 2) (val_main_call2_v14 (F := Ideal))
    (val_main_call2_v15 (F := Ideal)) _ (ix2 r (0 : Fin 2)) rfl (ix2 r (0 : Fin 1))
    (fun b => by match b with | ⟨0, _⟩ => rfl | ⟨1, _⟩ => rfl),
    val_main_call2_v14_apply, val_main_call2_v8_apply, val_main_call2_v5_apply, val_main_call2_v0_apply,
    val_main_call2_v4_apply, val_main_call2_c_0_apply]
  exact select_wrap_small r.val (by have := r.isLt; omega) _
/-- … column `4096 + r`. -/
theorem call2_v16_1 (r : Fin 4096) : val_main_call2_v16 (F := Ideal) (ix2 r (1 : Fin 2)) = BitVec.ofNat 32 (4096 + r.val) := by
  unfold val_main_call2_v16
  rw [concatenate_pair_apply_right (t := S4096x2) (s₁ := S4096x1) (s₂ := S4096x1) (1 : Fin 2) (val_main_call2_v14 (F := Ideal))
    (val_main_call2_v15 (F := Ideal)) _ (ix2 r (1 : Fin 2)) rfl rfl (ix2 r (0 : Fin 1))
    (fun b hb => by match b with | ⟨0, _⟩ => rfl | ⟨1, _⟩ => exact absurd rfl hb) rfl,
    val_main_call2_v15_apply, val_main_call2_v13_apply, val_main_call2_v10_apply, val_main_call2_v3_apply,
    val_main_call2_v2_apply, val_main_call2_c_apply, val_main_call2_v1_apply, val_main_call2_v9_apply,
    val_main_call2_c_2_apply]
  show Scalar.select (IntOp.cmpi .slt (4096#32 + BitVec.ofNat 32 r.val) 0#32) _ (4096#32 + BitVec.ofNat 32 r.val) = _
  rw [add_ofNat_small]
  exact select_wrap_small _ (by have := r.isLt; omega) _
/-- The second pick's start indices: row `4096 + r` … -/
theorem call3_v16_0 (r : Fin 4096) : val_main_call3_v16 (F := Ideal) (ix2 r (0 : Fin 2)) = BitVec.ofNat 32 (4096 + r.val) := by
  unfold val_main_call3_v16
  rw [concatenate_pair_apply_left (t := S4096x2) (s₁ := S4096x1) (s₂ := S4096x1) (1 : Fin 2) (val_main_call3_v14 (F := Ideal))
    (val_main_call3_v15 (F := Ideal)) _ (ix2 r (0 : Fin 2)) rfl (ix2 r (0 : Fin 1))
    (fun b => by match b with | ⟨0, _⟩ => rfl | ⟨1, _⟩ => rfl),
    val_main_call3_v14_apply, val_main_call3_v8_apply, val_main_call3_v5_apply, val_main_call3_v3_apply,
    val_main_call3_v2_apply, val_main_call3_c_apply, val_main_call3_v1_apply, val_main_call3_v4_apply,
    val_main_call3_c_0_apply]
  show Scalar.select (IntOp.cmpi .slt (4096#32 + BitVec.ofNat 32 r.val) 0#32) _ (4096#32 + BitVec.ofNat 32 r.val) = _
  rw [add_ofNat_small]
  exact select_wrap_small _ (by have := r.isLt; omega) _
/-- … column `r`. -/
theorem call3_v16_1 (r : Fin 4096) : val_main_call3_v16 (F := Ideal) (ix2 r (1 : Fin 2)) = BitVec.ofNat 32 r.val := by
  unfold val_main_call3_v16
  rw [concatenate_pair_apply_right (t := S4096x2) (s₁ := S4096x1) (s₂ := S4096x1) (1 : Fin 2) (val_main_call3_v14 (F := Ideal))
    (val_main_call3_v15 (F := Ideal)) _ (ix2 r (1 : Fin 2)) rfl rfl (ix2 r (0 : Fin 1))
    (fun b hb => by match b with | ⟨0, _⟩ => rfl | ⟨1, _⟩ => exact absurd rfl hb) rfl,
    val_main_call3_v15_apply, val_main_call3_v13_apply, val_main_call3_v10_apply, val_main_call3_v0_apply,
    val_main_call3_v9_apply, val_main_call3_c_2_apply]
  exact select_wrap_small r.val (by have := r.isLt; omega) _

/-- The upper off-diagonal: entry `(r, r + 4096)` of the inner products. -/
theorem v13_apply (x0 x1 : (⟨S4096x128, .f32⟩ : BufTy).Contents (Elt Ideal)) (r : Fin 4096) :
    val_main_v13 (F := Ideal) x0 x1 (ix1 r)
      = Cert.Spec.sim (Cert.Spec.unitRows (mat x0)) (Cert.Spec.unitRows (mat x1))
          ⟨r.val, by have := r.isLt; omega⟩ ⟨r.val + 4096, by have := r.isLt; omega⟩ := by
  unfold val_main_v13
  rw [gather_apply _ _ r ⟨r.val, by have := r.isLt; omega⟩ ⟨r.val + 4096, by have := r.isLt; omega⟩
    (by rw [call2_v16_0, toInt_ofNat_small _ (by have := r.isLt; omega)]; rfl)
    (by rw [call2_v16_1, toInt_ofNat_small _ (by have := r.isLt; omega)]; exact Nat.add_comm _ _), v12_apply]

/-- The lower off-diagonal: entry `(r + 4096, r)` of the inner products. -/
theorem v14_apply (x0 x1 : (⟨S4096x128, .f32⟩ : BufTy).Contents (Elt Ideal)) (r : Fin 4096) :
    val_main_v14 (F := Ideal) x0 x1 (ix1 r)
      = Cert.Spec.sim (Cert.Spec.unitRows (mat x0)) (Cert.Spec.unitRows (mat x1))
          ⟨r.val + 4096, by have := r.isLt; omega⟩ ⟨r.val, by have := r.isLt; omega⟩ := by
  unfold val_main_v14
  rw [gather_apply _ _ r ⟨r.val + 4096, by have := r.isLt; omega⟩ ⟨r.val, by have := r.isLt; omega⟩
    (by rw [call3_v16_0, toInt_ofNat_small _ (by have := r.isLt; omega)]; exact Nat.add_comm _ _)
    (by rw [call3_v16_1, toInt_ofNat_small _ (by have := r.isLt; omega)]; rfl), v12_apply]

/-- The positives at an index: the inner product at distance 4096 from the diagonal. -/
theorem v15_apply (x0 x1 : (⟨S4096x128, .f32⟩ : BufTy).Contents (Elt Ideal)) (r : Fin 8192) :
    val_main_v15 (F := Ideal) x0 x1 (ix1 r)
      = Cert.Spec.pos (Cert.Spec.unitRows (mat x0)) (Cert.Spec.unitRows (mat x1)) r := by
  unfold val_main_v15 Cert.Spec.pos
  by_cases h : r.val < 4096
  · rw [dif_pos h, concatenate_pair_apply_left (t := S8192) (s₁ := S4096) (s₂ := S4096) (0 : Fin 1)
      (val_main_v13 (F := Ideal) x0 x1) (val_main_v14 (F := Ideal) x0 x1) _ (ix1 r) rfl (ix1 (⟨r.val, h⟩ : Fin 4096))
      (fun b => by match b with | ⟨0, _⟩ => rfl), v13_apply]
  · have hr : (⟨r.val - 4096 + 4096, by have := r.isLt; omega⟩ : Fin 8192) = r := Fin.ext (by show r.val - 4096 + 4096 = r.val; omega)
    rw [dif_neg h, concatenate_pair_apply_right (t := S8192) (s₁ := S4096) (s₂ := S4096) (0 : Fin 1)
      (val_main_v13 (F := Ideal) x0 x1) (val_main_v14 (F := Ideal) x0 x1) _ (ix1 r) rfl rfl
      (ix1 (⟨r.val - 4096, by have := r.isLt; omega⟩ : Fin 4096))
      (fun b hb => by match b with | ⟨0, _⟩ => exact absurd rfl hb) (by show r.val - 4096 + 4096 = r.val; omega), v14_apply, hr]

/-! ## The denominators and the loss -/

/-- A sum over a rank-1 index set is the sum over its coordinate. -/
theorem sum_idx1 {M : Type*} [AddCommMonoid M] {n : Nat} (f : (⟨1, ![n]⟩ : Shape).Idx → M) :
    ∑ i, f i = ∑ a : Fin n, f (ix1 a) := by
  let e : (⟨1, ![n]⟩ : Shape).Idx ≃ Fin n :=
    { toFun := fun i => i 0, invFun := fun a => ix1 a, left_inv := fun i => (eq_ix1 i).symm, right_inv := fun _ => rfl }
  rw [← Equiv.sum_comp e.symm f]
  rfl

/-- One term of a denominator: the mask times the exponential of the inner product over ¼. -/
theorem v30_apply (x0 x1 : (⟨S4096x128, .f32⟩ : BufTy).Contents (Elt Ideal)) (r c : Fin 8192) :
    val_main_v30 (F := Ideal) x0 x1 (ix2 r c)
      = Cert.Spec.mask r c * Ideal.exp (Ideal.div
          (Cert.Spec.sim (Cert.Spec.unitRows (mat x0)) (Cert.Spec.unitRows (mat x1)) r c) Cert.Spec.quarter) := by
  rw [val_main_v30_apply, val_main_v29_apply, val_main_v28_apply, val_main_v27_apply, val_main_cst_7_apply, v26_apply,
    v12_apply]
  rfl

/-- The denominators at an index: the masked row sums of the exponentials. -/
theorem v31_apply (x0 x1 : (⟨S4096x128, .f32⟩ : BufTy).Contents (Elt Ideal)) (r : Fin 8192) :
    val_main_v31 (F := Ideal) x0 x1 (ix1 r)
      = Cert.Spec.refDen (Cert.Spec.unitRows (mat x0)) (Cert.Spec.unitRows (mat x1)) r := by
  have e : ∀ k : Fin 8192, idx_main_v31 (ix1 r) k = ix2 r k := fun k =>
    funext fun a => Fin.ext (by match a with | ⟨0, _⟩ => rfl | ⟨1, _⟩ => rfl)
  rw [val_main_v31_apply, val_main_cst_8_apply]
  unfold Cert.Spec.refDen
  refine congrArg (Cert.Spec.zero + ·) (Finset.sum_congr rfl fun k _ => ?_)
  rw [e k, v30_apply]

/-- One term of the loss: minus the logarithm of exp(positive / ¼) over the denominator. -/
theorem v37_apply (x0 x1 : (⟨S4096x128, .f32⟩ : BufTy).Contents (Elt Ideal)) (r : Fin 8192) :
    val_main_v37 (F := Ideal) x0 x1 (ix1 r)
      = -(Ideal.log (Ideal.div
          (Ideal.exp (Ideal.div (Cert.Spec.pos (Cert.Spec.unitRows (mat x0)) (Cert.Spec.unitRows (mat x1)) r) Cert.Spec.quarter))
          (Cert.Spec.refDen (Cert.Spec.unitRows (mat x0)) (Cert.Spec.unitRows (mat x1)) r))) := by
  rw [val_main_v37_apply, val_main_v36_apply, val_main_v35_apply, val_main_v34_apply, val_main_v33_apply,
    val_main_v32_apply, val_main_cst_9_apply, v15_apply, v31_apply]
  rfl

/-- THE PLAIN PROGRAM'S RESULT: the specification's loss of the two inputs' unit-length rows. -/
theorem ref_eq (x0 x1 : (⟨S4096x128, .f32⟩ : BufTy).Contents (Elt Ideal)) :
    val_main_v39 (F := Ideal) x0 x1
      = fun _ => Cert.Spec.refLoss (Cert.Spec.unitRows fun p k => x0 (ix2 p k)) (Cert.Spec.unitRows fun p k => x1 (ix2 p k)) := by
  funext i
  rw [val_main_v39_apply, val_main_v38_apply, val_main_cst_10_apply, val_main_cst_11_apply, sum_idx1]
  unfold Cert.Spec.refLoss
  refine congrArg (fun s => Ideal.div (Cert.Spec.zero + s) Cert.Spec.count) (Finset.sum_congr rfl fun r _ => ?_)
  exact v37_apply x0 x1 r

end Cert.RefValue

end
-- ==== Proof.KernelHost.lean ====
/-
  The tiled program's host operations around its tiled region, read as mathematics over the extended reals.

  Before the region the host scales each row of the two inputs to unit length (sum of squares along the row from zero,
  square root, maximum with the floor, division) and changes the format of the results, which over the extended reals
  changes nothing; it also forms the row-wise inner products of the scaled rows. After the region it reshapes the two
  arrays the region produced, sums the second over its four tiles from zero, and averages over 8192 the terms
  -d / ¼ + log (first) and -d / ¼ + log (second).
-/
import proofs.«108457_j47528108098354_2_alg».proof.Proof.Gen.KernelIdeal.Frame
import proofs.«108457_j47528108098354_2_alg».proof.Proof.Spec
import Idealize.ShloMosaic.Lib.Pipeline.Value
import Idealize.ShloMosaic.Lib.StableHlo.Run
import Idealize.ShloMosaic.Lib.ValueIdx
import Idealize.ShloMosaic.Lib.ValueLayout
import Idealize.ShloMosaic.Lib.IdealHost
import Idealize.ShloMosaic.PureOps.Ideal.Laws
import Idealize.ShloMosaic.Lib.Tactic

noncomputable section

namespace Cert.KernelIdeal.Host

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The host's row scaling of a 4096 × 128 array: `x / broadcast (max (sqrt (broadcast (0 + ∑ x·x))) ε)`. -/
def scaledV (x : FVec Ideal S4096x128 .f32) : FVec Ideal S4096x128 .f32 :=
  Host.divf (F := Ideal) x (broadcastInDim S4096x128 ![0, 1] Gen.bcast_S4096x1_S4096x128_0_1
    (maximumf (F := Ideal) (Host.sqrt (F := Ideal) (broadcastInDim S4096x1 ![0] Gen.bcast_S4096_S4096x1_0
      (Host.reduceAdd (F := Ideal) (mulf (F := Ideal) x x) (constant (F := Ideal) S_ .f32 0x00000000#32)
        Gen.reducesTo_S4096x128_S4096_d1 Gen.h_S_)))
      (broadcastInDim S4096x1 ![] Gen.bcast_S_S4096x1 (constant (F := Ideal) S_ .f32 0x2B8CBCCC#32))))

theorem V_v12_eq (c : Dev nD) :
    V m c main_call0_v12 = truncf (F := Ideal) .bf16 (scaledV (m ((c : Thread nD τ).loc main_arg0))) Gen.bitsLt_bf16_f32 := by
  show StableHlo.after hostOps0 (fun b => m (c, b)) (Proc.devRef .tc main_call0_v12) = _
  after_results
  rfl

/-- The host's sum along axis 1 of a 4096 × 128 array from an initial scalar, read at row `p`. -/
theorem rowSum_apply (y : FVec Ideal S4096x128 .f32) (init : FVec Ideal S_ .f32) (p : Fin 4096) :
    Host.reduceAdd (F := Ideal) y init Gen.reducesTo_S4096x128_S4096_d1 Gen.h_S_ (ix1 p)
      = init (Shape.Idx.first Gen.h_S_) + ∑ k : Fin 128, y (ix2 p k) := by
  simp only [Host.reduceAdd, Ideal.hostReduceAdd_def]
  rw [Ideal.hostReduceAdd_single Gen.reducesTo_S4096x128_S4096_d1 (by decide)]
  refine congrArg (_ + ·) (Finset.sum_congr rfl fun k _ => ?_)
  exact congrArg y (funext fun a => Fin.ext (by match a with | ⟨0, _⟩ => rfl | ⟨1, _⟩ => rfl))

/-- The host's row scaling read at an entry is the specification's. -/
theorem scaledV_apply (x : FVec Ideal S4096x128 .f32) (p : Fin 4096) (k : Fin 128) :
    scaledV x (ix2 p k) = Cert.Spec.unitRows (fun p k => x (ix2 p k)) p k := by
  unfold scaledV Cert.Spec.unitRows
  show Ideal.div (x (ix2 p k)) _ = Ideal.div (x (ix2 p k)) _
  refine congrArg (Ideal.div _) ?_
  rw [broadcastInDim_apply _ Gen.bcast_S4096x1_S4096x128_0_1 _ (ix2 p k) (ix2 p (0 : Fin 1)) (fun a => match a with
    | ⟨0, _⟩ => by show p.val = if (4096 : Nat) = 1 then 0 else p.val; rw [if_neg (by decide)]
    | ⟨1, _⟩ => by show 0 = if (1 : Nat) = 1 then 0 else k.val; rw [if_pos rfl])]
  show max (Ideal.sqrt (broadcastInDim (s := S4096) S4096x1 ![0] Gen.bcast_S4096_S4096x1_0 _ (ix2 p (0 : Fin 1))))
      (broadcastInDim (s := S_) S4096x1 ![] Gen.bcast_S_S4096x1 _ (ix2 p (0 : Fin 1))) = _
  rw [broadcastInDim_apply _ Gen.bcast_S4096_S4096x1_0 _ (ix2 p (0 : Fin 1)) (ix1 p) (fun a => match a with
    | ⟨0, _⟩ => by show p.val = if (4096 : Nat) = 1 then 0 else p.val; rw [if_neg (by decide)]),
    broadcastInDim_scalar_apply, rowSum_apply]
  rfl

theorem V_v13_eq (c : Dev nD) :
    V m c main_call0_v13 = truncf (F := Ideal) .bf16 (scaledV (m ((c : Thread nD τ).loc main_arg1))) Gen.bitsLt_bf16_f32 := by
  show StableHlo.after hostOps0 (fun b => m (c, b)) (Proc.devRef .tc main_call0_v13) = _
  after_results
  rfl

/-- The first scaled matrix: the rows of the first input scaled to unit length. -/
abbrev ZI (c : Dev nD) : Cert.Spec.Mat :=
  Cert.Spec.unitRows (fun p k => m ((c : Thread nD τ).loc main_arg0) (ix2 p k))

/-- The second scaled matrix: the rows of the second input scaled to unit length. -/
abbrev ZJ (c : Dev nD) : Cert.Spec.Mat :=
  Cert.Spec.unitRows (fun p k => m ((c : Thread nD τ).loc main_arg1) (ix2 p k))

/-- The region's first input array is the first input's rows scaled to unit length. -/
theorem V_v12 (c : Dev nD) (p : Fin 4096) (k : Fin 128) :
    (V m c main_call0_v12 : S4096x128.Idx → EReal) (ix2 p k) = ZI m c p k := by
  rw [V_v12_eq]
  exact scaledV_apply _ p k

/-- The region's second input array is the second input's rows scaled to unit length. -/
theorem V_v13 (c : Dev nD) (p : Fin 4096) (k : Fin 128) :
    (V m c main_call0_v13 : S4096x128.Idx → EReal) (ix2 p k) = ZJ m c p k := by
  rw [V_v13_eq]
  exact scaledV_apply _ p k

/-! ## The row-wise inner products, written before the region -/

theorem V_v11_eq (c : Dev nD) :
    V m c main_call0_v11 = Host.reduceAdd (F := Ideal)
      (mulf (F := Ideal) (scaledV (m ((c : Thread nD τ).loc main_arg0))) (scaledV (m ((c : Thread nD τ).loc main_arg1))))
      (constant (F := Ideal) S_ .f32 0x00000000#32) Gen.reducesTo_S4096x128_S4096_d1 Gen.h_S_ := by
  show StableHlo.after hostOps0 (fun b => m (c, b)) (Proc.devRef .tc main_call0_v11) = _
  after_results
  rfl

/-- The host's row-wise inner products of the two scaled matrices are the specification's positives. -/
theorem V_v11 (c : Dev nD) (p : Fin 4096) :
    (V m c main_call0_v11 : S4096.Idx → EReal) (ix1 p) = Cert.Spec.diag (ZI m c) (ZJ m c) p := by
  rw [V_v11_eq, rowSum_apply]
  show Cert.Spec.zero + _ = Cert.Spec.zero + _
  refine congrArg (_ + ·) (Finset.sum_congr rfl fun k _ => ?_)
  rw [mulf_apply, scaledV_apply, scaledV_apply]

/-! ## After the region -/

/-- A rank-1 index set is its coordinate range. -/
def idxEquiv1 {n : Nat} : (⟨1, ![n]⟩ : Shape).Idx ≃ Fin n where
  toFun i := i 0
  invFun p := ix1 p
  left_inv i := (eq_ix1 i).symm
  right_inv _ := rfl

/-- A sum over a rank-1 index set is the sum over its coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The host's sum along axis 0 of a 4 × 4096 array from an initial scalar, read at column `p`. -/
theorem colSum_apply (y : FVec Ideal S4x4096 .f32) (init : FVec Ideal S_ .f32) (p : Fin 4096) :
    Host.reduceAdd (F := Ideal) y init Gen.reducesTo_S4x4096_S4096_d0 Gen.h_S_ (ix1 p)
      = init (Shape.Idx.first Gen.h_S_) + ∑ a : Fin 4, y (ix2 a p) := by
  simp only [Host.reduceAdd, Ideal.hostReduceAdd_def]
  rw [Ideal.hostReduceAdd_single Gen.reducesTo_S4x4096_S4096_d0 (by decide)]
  refine congrArg (_ + ·) (Finset.sum_congr rfl fun a _ => ?_)
  exact congrArg y (funext fun b => Fin.ext (by match b with | ⟨0, _⟩ => rfl | ⟨1, _⟩ => rfl))

/-- The host's sum of all 4096 entries of a vector from an initial scalar. -/
theorem totalSum_apply (y : FVec Ideal S4096 .f32) (init : FVec Ideal S_ .f32) (i : S_.Idx) :
    Host.reduceAdd (F := Ideal) y init Gen.reducesTo_S4096_S_d0 Gen.h_S_ i
      = init (Shape.Idx.first Gen.h_S_) + ∑ p : Fin 4096, y (ix1 p) := by
  simp only [Host.reduceAdd, Ideal.hostReduceAdd_def]
  rw [Ideal.hostReduceAdd_total Gen.reducesTo_S4096_S_d0 (fun b => b.elim0), sum_idx1]

/-- The 4096 × 1 array viewed as a vector reads entry `(p, 0)` at `p`. -/
theorem reshapeR_apply (R : FVec Ideal S4096x1 .f32) (p : Fin 4096) :
    shapeCast S4096 R Gen.shapeCasts_S4096x1_S4096 (ix1 p) = R (ix2 p 0) :=
  shapeCast_apply R _ (ix1 p) (ix2 p 0) (by
    rw [Shape.rowMajor_val_two, Shape.rowMajor_val_one]
    show p.val * 1 + 0 = p.val
    omega)

/-- The 4 × 1 × 4096 array viewed as 4 × 4096 reads entry `(a, 0, p)` at `(a, p)`. -/
theorem reshapeC_apply (C : FVec Ideal S4x1x4096 .f32) (a : Fin 4) (p : Fin 4096) :
    shapeCast S4x4096 C Gen.shapeCasts_S4x1x4096_S4x4096 (ix2 a p) = C (ix3 a 0 p) :=
  shapeCast_apply C _ (ix2 a p) (ix3 a 0 p) (by
    rw [Shape.rowMajor_val_three, Shape.rowMajor_val_two]
    show (a.val * 1 + 0) * 4096 + p.val = a.val * 4096 + p.val
    omega)

/-- The host operations after the region, as a function of the row-wise inner products `d` and of the two arrays the
    region produced. -/
def tailV (d : FVec Ideal S4096 .f32) (R : FVec Ideal S4096x1 .f32) (C : FVec Ideal S4x1x4096 .f32) : FVec Ideal S_ .f32 :=
  Host.divf (F := Ideal)
    (Host.reduceAdd (F := Ideal)
      (addf (F := Ideal)
        (addf (F := Ideal)
          (Host.divf (F := Ideal) (Host.negf (F := Ideal) d)
            (broadcastInDim (s := S_) S4096 ![] Gen.bcast_S_S4096 (constant (F := Ideal) S_ .f32 0x3E800000#32)))
          (Host.log (F := Ideal) (shapeCast S4096 R Gen.shapeCasts_S4096x1_S4096)))
        (addf (F := Ideal)
          (Host.divf (F := Ideal) (Host.negf (F := Ideal) d)
            (broadcastInDim (s := S_) S4096 ![] Gen.bcast_S_S4096 (constant (F := Ideal) S_ .f32 0x3E800000#32)))
          (Host.log (F := Ideal) (Host.reduceAdd (F := Ideal) (shapeCast S4x4096 C Gen.shapeCasts_S4x1x4096_S4x4096)
            (constant (F := Ideal) S_ .f32 0x00000000#32) Gen.reducesTo_S4x4096_S4096_d0 Gen.h_S_))))
      (constant (F := Ideal) S_ .f32 0x00000000#32) Gen.reducesTo_S4096_S_d0 Gen.h_S_)
    (constant (F := Ideal) S_ .f32 0x46000000#32)

/-- The host operations after the region, read as the mean over 8192 of the 2 · 4096 loss terms. -/
theorem tailV_apply (d : FVec Ideal S4096 .f32) (R : FVec Ideal S4096x1 .f32) (C : FVec Ideal S4x1x4096 .f32) (i : S_.Idx) :
    tailV d R C i = Ideal.div (Cert.Spec.zero + ∑ p : Fin 4096,
      ((Ideal.div (-(d (ix1 p))) Cert.Spec.quarter + Ideal.log (R (ix2 p 0)))
        + (Ideal.div (-(d (ix1 p))) Cert.Spec.quarter + Ideal.log (Cert.Spec.zero + ∑ a : Fin 4, C (ix3 a 0 p)))))
      Cert.Spec.count := by
  unfold tailV
  show Ideal.div (Host.reduceAdd (F := Ideal) _ _ Gen.reducesTo_S4096_S_d0 Gen.h_S_ i) Cert.Spec.count = _
  refine congrArg (Ideal.div · Cert.Spec.count) ?_
  rw [totalSum_apply]
  show Cert.Spec.zero + _ = Cert.Spec.zero + _
  refine congrArg (_ + ·) (Finset.sum_congr rfl fun p _ => ?_)
  show (Ideal.div (-(d (ix1 p))) (broadcastInDim (s := S_) S4096 ![] Gen.bcast_S_S4096 _ (ix1 p))
        + Ideal.log (shapeCast S4096 R Gen.shapeCasts_S4096x1_S4096 (ix1 p)))
      + (Ideal.div (-(d (ix1 p))) (broadcastInDim (s := S_) S4096 ![] Gen.bcast_S_S4096 _ (ix1 p))
        + Ideal.log (Host.reduceAdd (F := Ideal) (shapeCast S4x4096 C Gen.shapeCasts_S4x1x4096_S4x4096) _
            Gen.reducesTo_S4x4096_S4096_d0 Gen.h_S_ (ix1 p))) = _
  rw [broadcastInDim_scalar_apply, reshapeR_apply, colSum_apply]
  simp only [reshapeC_apply]
  rfl

/-- The result of the host operations after the region, from what the region's two output arrays end at. -/
theorem afterTail_eq (c : Dev nD) :
    Pipeline.afterTail₀ cfgs (dats (F := Ideal) m) 0 (V0 m) [hostOps1] c main_v0
      = tailV (V m c main_call0_v11) ((dats (F := Ideal) m 0 c).arrAt 2 cfg0.N) ((dats (F := Ideal) m 0 c).arrAt 3 cfg0.N) := by
  obtain ⟨W, hW⟩ : ∃ W, W = Pipeline.withArrays spec0 c (V0 m c) (fun w => (dats (F := Ideal) m 0 c).arrAt w cfg0.N) :=
    ⟨_, rfl⟩
  have e0 : W (Proc.devRef .tc main_call0_v14_0) = (dats (F := Ideal) m 0 c).arrAt 2 cfg0.N := by
    rw [hW]; exact Pipeline.withArrays_arr spec0 launch0.win.arr_inj c _ _ 2
  have e1 : W (Proc.devRef .tc main_call0_v14_1) = (dats (F := Ideal) m 0 c).arrAt 3 cfg0.N := by
    rw [hW]; exact Pipeline.withArrays_arr spec0 launch0.win.arr_inj c _ _ 3
  have e2 : W (Proc.devRef .tc main_call0_v11) = V m c main_call0_v11 := by
    rw [hW]; exact Pipeline.withArrays_of_ne spec0 c (V0 m c) _ main_call0_v11 (by decide)
  have key : StableHlo.after hostOps1 W (Proc.devRef .tc main_v0)
      = tailV (W (Proc.devRef .tc main_call0_v11)) (W (Proc.devRef .tc main_call0_v14_0)) (W (Proc.devRef .tc main_call0_v14_1)) := by
    after_results
    rfl
  rw [e0, e1, e2] at key
  unfold Pipeline.afterTail₀
  show StableHlo.after hostOps1 (Pipeline.withArrays spec0 c (V0 m c) (fun w => (dats (F := Ideal) m 0 c).arrAt w cfg0.N))
    (Proc.devRef .tc main_v0) = _
  rw [← hW]
  exact key

/-- The tiled program's result: the mean over 8192 of the loss terms formed from the specification's positives and the
    logarithms of the region's first output and of the sum over the four tiles of its second output. -/
theorem tail_eq (c : Dev nD) (R : S4096x1.Idx → EReal) (C : S4x1x4096.Idx → EReal)
    (hR : (dats (F := Ideal) m 0 c).arrAt 2 cfg0.N = R) (hC : (dats (F := Ideal) m 0 c).arrAt 3 cfg0.N = C) :
    Pipeline.afterTail₀ cfgs (dats (F := Ideal) m) 0 (V0 m) [hostOps1] c main_v0
      = fun _ => Ideal.div (Cert.Spec.zero + ∑ p : Fin 4096,
          ((Ideal.div (-(Cert.Spec.diag (ZI m c) (ZJ m c) p)) Cert.Spec.quarter + Ideal.log (R (ix2 p 0)))
            + (Ideal.div (-(Cert.Spec.diag (ZI m c) (ZJ m c) p)) Cert.Spec.quarter
              + Ideal.log (Cert.Spec.zero + ∑ a : Fin 4, C (ix3 a 0 p))))) Cert.Spec.count := by
  rw [afterTail_eq, hR, hC]
  funext i
  rw [tailV_apply]
  refine congrArg (Ideal.div · Cert.Spec.count) (congrArg (_ + ·) (Finset.sum_congr rfl fun p _ => ?_))
  rw [V_v11]

end Cert.KernelIdeal.Host

end
-- ==== Proof.KernelPieces.lean ====
/-
  What one grid step of the tiled program leaves in its two running accumulators and, on the last column tile of a row of
  tiles, in its two output blocks — as pure functions of the two input blocks and of what the step before left.

  The row accumulator (a [1024, 1] column) is replaced whole by "what it held, plus the row sums of E", where on the first
  column tile "what it held" is the zero column stored just before. The column accumulator (a [1, 1, 4096] row) keeps
  everything outside the 1024 lanes of the current column tile and, inside them, holds "what it held there, plus the
  column sums of E"; on the first column tile it is first zeroed whole. On the last column tile both accumulators are
  copied out unchanged.
-/
import proofs.«108457_j47528108098354_2_alg».proof.Proof.Gen.KernelIdeal.Frame
import Idealize.ShloMosaic.Lib.Pipeline.Value
import Idealize.ShloMosaic.Lib.WritesUnit
import Idealize.ShloMosaic.Lib.Tactic

set_option maxRecDepth 16384

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The 1024 lanes of the column accumulator that the step at grid point `i` updates. -/
abbrev colRect (i : grid0.Coords) : Rect S1x1x4096 := Rect.unit (s := S1x1x4096) (k0_off1 i) S1x1x1024.size (k0_off1_inb i)

/-- A [1, 1, 4096] row with the lanes of `colRect i` replaced by `w`. -/
def colUpd (i : grid0.Coords) (old : Vec F S1x1x4096 .f32) (w : Vec F S1x1x1024 .f32) : Vec F S1x1x4096 .f32 :=
  fun y => if h : ∀ a, k0_off1 i a ≤ (y a).val ∧ (y a).val < k0_off1 i a + S1x1x1024.size a then
      w (Rect.unitLocal (s := S1x1x4096) (off := k0_off1 i) (size := S1x1x1024.size) y h)
    else old y

/-! ## A middle column tile: both accumulators carried -/

theorem rowAcc_B (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1x1x4096 .f32) (harg5 : arg5.IsWhole) (arg6 : Memref sig .tc .vmem S1024x1 .f32) (harg6 : arg6.IsWhole) (arg7 : Memref sig .tc .vmem S1x1x4096 .f32) (harg7 : arg7.IsWhole) (hc0 : ¬cond0_0 i) (hc1 : ¬cond0_1 i)
    (x0 : Vec F S1024x128 .bf16) (x1 : Vec F S1024x128 .bf16) (xs0 : Vec F S1024x1 .f32) (xs1 : Vec F S1x1x4096 .f32) :
    sout0_B_0 c i arg2 harg2 arg3 harg3 arg4 harg4 arg5 harg5 arg6 harg6 arg7 harg7 hc0 hc1 x0 x1 xs0 xs1 = k0_pay4 x0 x1 xs0 := by
  unfold sout0_B_0
  rw [View.read_writes_eq_canon _ _ _ (scover0_B_0 c i arg2 harg2 arg3 harg3 arg4 harg4 arg5 harg5 arg6 harg6 arg7 harg7 hc0 hc1 x0 x1 xs0 xs1)]
  unfold kernelRun0_B
  dsimp only
  rw [View.canon_unit_zero hz2]
  simp only [View.readAt_eq_ld, harg2.read_unread, harg3.read_unread, harg6.read_unread,
    View.ld_unit_zero (S := S1024x128) hz2, View.ld_unit_zero (S := S1024x1) hz2]

theorem colAcc_B (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1x1x4096 .f32) (harg5 : arg5.IsWhole) (arg6 : Memref sig .tc .vmem S1024x1 .f32) (harg6 : arg6.IsWhole) (arg7 : Memref sig .tc .vmem S1x1x4096 .f32) (harg7 : arg7.IsWhole) (hc0 : ¬cond0_0 i) (hc1 : ¬cond0_1 i)
    (x0 : Vec F S1024x128 .bf16) (x1 : Vec F S1024x128 .bf16) (xs0 : Vec F S1024x1 .f32) (xs1 : Vec F S1x1x4096 .f32) :
    sout0_B_1 c i arg2 harg2 arg3 harg3 arg4 harg4 arg5 harg5 arg6 harg6 arg7 harg7 hc0 hc1 x0 x1 xs0 xs1 = colUpd i xs1 (k0_pay5 x0 x1 (View.ld xs1 (colRect i))) := by
  unfold sout0_B_1
  unfold kernelRun0_B
  dsimp only
  funext y
  rw [View.read_writes_cons_unit arg7.view _ (k0_off1_inb i) _ [] y rfl]
  have e7 : View.read (Elt F) arg7.view (arg7.view.writes (Elt F) (harg7.unread xs1) []) = xs1 := harg7.read_unread xs1
  unfold colUpd
  simp only [View.readAt_eq_ld, harg2.read_unread, harg3.read_unread, harg7.read_unread,
    View.ld_unit_zero (S := S1024x128) hz2, e7]

/-! ## The first column tile: both accumulators zeroed, then updated -/

theorem rowAcc_A (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1x1x4096 .f32) (harg5 : arg5.IsWhole) (arg6 : Memref sig .tc .vmem S1024x1 .f32) (harg6 : arg6.IsWhole) (arg7 : Memref sig .tc .vmem S1x1x4096 .f32) (harg7 : arg7.IsWhole) (hc0 : cond0_0 i) (hc1 : ¬cond0_1 i)
    (x0 : Vec F S1024x128 .bf16) (x1 : Vec F S1024x128 .bf16) :
    sout0_A_0 c i arg2 harg2 arg3 harg3 arg4 harg4 arg5 harg5 arg6 harg6 arg7 harg7 hc0 hc1 x0 x1 = k0_pay4 x0 x1 k0_pay1 := by
  unfold sout0_A_0
  rw [View.read_writes_eq_canon _ _ _ (scover0_A_0 c i arg2 harg2 arg3 harg3 arg4 harg4 arg5 harg5 arg6 harg6 arg7 harg7 hc0 hc1 x0 x1)]
  unfold kernelRun0_A
  dsimp only
  sl_unfold_words
  rw [View.canon_cons_unit_zero (S := S1024x1) hz2, View.readCov_unit_zero (S := S1024x1) _ hz2]
  simp only [View.readAt_eq_ld, harg2.read_unread, harg3.read_unread,
    View.ld_unit_zero (S := S1024x128) hz2]

/-- A buffer zeroed whole reads the zero row, through any view of it. -/
theorem read_zeroed (v : View sig .tc .vmem S1x1x4096 .f32) :
    v.read (Elt F) (v.writes (Elt F) v.junk
      [⟨Rect.unit (s := S1x1x4096) ![0, 0, 0] S1x1x4096.size inb_S1x1x4096_S1x1x4096_0_0_0, k0_pay2⟩]) = k0_pay2 := by
  rw [View.read_writes_eq_canon _ _ _ (fun y => ⟨_, List.mem_singleton_self _, View.mem_set_unit_zero hz3 inb_S1x1x4096_S1x1x4096_0_0_0 y⟩),
    View.canon_unit_zero hz3]

theorem colAcc_A (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1x1x4096 .f32) (harg5 : arg5.IsWhole) (arg6 : Memref sig .tc .vmem S1024x1 .f32) (harg6 : arg6.IsWhole) (arg7 : Memref sig .tc .vmem S1x1x4096 .f32) (harg7 : arg7.IsWhole) (hc0 : cond0_0 i) (hc1 : ¬cond0_1 i)
    (x0 : Vec F S1024x128 .bf16) (x1 : Vec F S1024x128 .bf16) :
    sout0_A_1 c i arg2 harg2 arg3 harg3 arg4 harg4 arg5 harg5 arg6 harg6 arg7 harg7 hc0 hc1 x0 x1 = colUpd i k0_pay2 (k0_pay5 x0 x1 (View.ld k0_pay2 (colRect i))) := by
  unfold sout0_A_1
  unfold kernelRun0_A
  dsimp only
  sl_unfold_words
  funext y
  show View.read (Elt F) VS0_1 (VS0_1.writes (Elt F) VS0_1.junk
    (⟨Rect.unit (s := S1x1x4096) (k0_off1 i) S1x1x1024.size (k0_off1_inb i), _⟩ :: _)) y = _
  rw [View.read_writes_cons_unit VS0_1 _ (k0_off1_inb i) _ _ y rfl]
  have e1 : View.read (Elt F) arg7.view (arg7.view.writes (Elt F) arg7.view.junk
      [⟨Rect.unit (s := S1x1x4096) ![0, 0, 0] ![1, 1, 4096] inb_S1x1x4096_S1x1x4096_0_0_0, k0_pay2⟩]) = k0_pay2 :=
    read_zeroed arg7.view
  have e2 : View.read (Elt F) VS0_1 (VS0_1.writes (Elt F) VS0_1.junk
      [⟨Rect.unit (s := S1x1x4096) ![0, 0, 0] ![1, 1, 4096] inb_S1x1x4096_S1x1x4096_0_0_0, k0_pay2⟩]) = k0_pay2 :=
    read_zeroed VS0_1
  unfold colUpd
  simp only [View.readAt_eq_ld, harg2.read_unread, harg3.read_unread, View.ld_unit_zero (S := S1024x128) hz2, e1, e2]
  rfl

/-! ## The last column tile: the accumulators copied out -/

theorem rowOut_C (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1x1x4096 .f32) (harg5 : arg5.IsWhole) (arg6 : Memref sig .tc .vmem S1024x1 .f32) (harg6 : arg6.IsWhole) (arg7 : Memref sig .tc .vmem S1x1x4096 .f32) (harg7 : arg7.IsWhole) (hc0 : ¬cond0_0 i) (hc1 : cond0_1 i)
    (x0 : Vec F S1024x128 .bf16) (x1 : Vec F S1024x128 .bf16) (xs0 : Vec F S1024x1 .f32) (xs1 : Vec F S1x1x4096 .f32) :
    out0_C_2 c i arg2 harg2 arg3 harg3 arg4 harg4 arg5 harg5 arg6 harg6 arg7 harg7 hc0 hc1 x0 x1 xs0 xs1 = k0_pay4 x0 x1 xs0 := by
  unfold out0_C_2
  rw [View.read_writes_eq_canon _ _ _ (cover0_C_2 c i arg2 harg2 arg3 harg3 arg4 harg4 arg5 harg5 arg6 harg6 arg7 harg7 hc0 hc1 x0 x1 xs0 xs1)]
  unfold kernelRun0_C
  dsimp only
  sl_unfold_words
  rw [View.canon_unit_zero hz2, View.readCov_unit_zero (S := S1024x1) _ hz2]
  simp only [View.readAt_eq_ld, harg2.read_unread, harg3.read_unread, harg6.read_unread,
    View.ld_unit_zero (S := S1024x128) hz2, View.ld_unit_zero (S := S1024x1) hz2]

theorem colOut_C (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1x1x4096 .f32) (harg5 : arg5.IsWhole) (arg6 : Memref sig .tc .vmem S1024x1 .f32) (harg6 : arg6.IsWhole) (arg7 : Memref sig .tc .vmem S1x1x4096 .f32) (harg7 : arg7.IsWhole) (hc0 : ¬cond0_0 i) (hc1 : cond0_1 i)
    (x0 : Vec F S1024x128 .bf16) (x1 : Vec F S1024x128 .bf16) (xs0 : Vec F S1024x1 .f32) (xs1 : Vec F S1x1x4096 .f32) :
    out0_C_3 c i arg2 harg2 arg3 harg3 arg4 harg4 arg5 harg5 arg6 harg6 arg7 harg7 hc0 hc1 x0 x1 xs0 xs1 = colUpd i xs1 (k0_pay5 x0 x1 (View.ld xs1 (colRect i))) := by
  unfold out0_C_3
  rw [View.read_writes_eq_canon _ _ _ (cover0_C_3 c i arg2 harg2 arg3 harg3 arg4 harg4 arg5 harg5 arg6 harg6 arg7 harg7 hc0 hc1 x0 x1 xs0 xs1)]
  unfold kernelRun0_C
  dsimp only
  sl_unfold_words
  rw [View.canon_unit_zero hz3, View.readAt_eq_ld, View.ld_unit_zero (S := S1x1x4096) hz3]
  funext y
  show View.read (Elt F) arg7.view (arg7.view.writes (Elt F) (harg7.unread xs1)
    [⟨Rect.unit (s := S1x1x4096) (k0_off1 i) S1x1x1024.size (k0_off1_inb i), _⟩]) y = _
  rw [View.read_writes_cons_unit arg7.view _ (k0_off1_inb i) _ [] y rfl]
  have e7 : View.read (Elt F) arg7.view (arg7.view.writes (Elt F) (harg7.unread xs1) []) = xs1 := harg7.read_unread xs1
  unfold colUpd
  simp only [View.readAt_eq_ld, harg2.read_unread, harg3.read_unread, harg7.read_unread,
    View.ld_unit_zero (S := S1024x128) hz2, e7]
  rfl

end Cert.KernelIdeal.Pieces

end
-- ==== Proof.LibMatmulNT.lean ====
/-
  A matrix product against a transposed right operand, read at an entry.

  At the exact (extended-real) instance, the matrix unit's product of an [M, K] left operand with an [N, K] right operand,
  both contracted along their second axis, accumulated into zero, is at row `p` and column `q` the sum over `k` of
  `lhs(p, k) · rhs(q, k)`: the textbook `lhs · rhsᵀ`. For any extents, any operand formats, and any witness of the dimension
  numbers' side conditions.
-/
import Idealize.ShloMosaic.PureOps.Ideal.Laws
import Idealize.ShloMosaic.Lib.ValueIdx
import Idealize.ShloMosaic.Lib.Pipeline.Value

noncomputable section

namespace Idealize.ShloMosaic.MatmulNT

open Idealize.ShloMosaic Idealize.ShloMosaic.ValueIdx

variable {M K N : Nat} {φ₁ φ₂ : FTy}

/-- The dimension numbers of `lhs · rhsᵀ`: rows × contraction by columns × contraction, for any witness of their side
    conditions. -/
abbrev dims (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ :=
  ⟨[1], [1], [0], [0], [], [], wf⟩

/-- Over the extended reals `lhs · rhsᵀ` into a zero accumulator is, at row `p` and column `q`, the sum over the contracted
    coordinate `k` of the left operand at `(p, k)` times the right operand at `(q, k)`. -/
theorem matmul_zero_apply (wf : DotDims.WF ⟨2, ![M, K]⟩ ⟨2, ![N, K]⟩ ⟨2, ![M, N]⟩ [1] [1] [0] [0] [] [])
    (prec : Option ContractPrecision)
    (lhs : FVec Ideal ⟨2, ![M, K]⟩ φ₁) (rhs : FVec Ideal ⟨2, ![N, K]⟩ φ₂) (p : Fin M) (q : Fin N) :
    FloatOps.matmul (dims wf) prec lhs rhs (constant ⟨2, ![M, N]⟩ .f32 0x00000000#32) (ix2 p q)
      = ∑ k : Fin K, lhs (ix2 p k) * rhs (ix2 q k) := by
  rw [Ideal.matmul_constant_zero_apply, ← Equiv.sum_comp (contrEquiv1 (dims wf) K rfl rfl).symm]
  refine Finset.sum_congr rfl fun k _ => ?_
  have hk := contrEquiv1_symm_val (dims wf) K rfl rfl k
  have el : (dims wf).lhsIdx (ix2 p q) ((contrEquiv1 (dims wf) K rfl rfl).symm k) = ix2 p k := funext fun a => Fin.ext (by
    match a with
    | ⟨0, h0⟩ =>
      unfold DotDims.lhsIdx
      rw [dif_neg (List.not_mem_nil : ¬(⟨0, h0⟩ : Fin 2) ∈ (dims wf).lhsBatch),
        dif_pos (List.mem_singleton.mpr rfl : (⟨0, h0⟩ : Fin 2) ∈ (dims wf).lhsNonContracting)]
      rfl
    | ⟨1, _⟩ => exact ((dims wf).lhsIdx_val_of_single rfl _ _).trans hk)
  have er : (dims wf).rhsIdx (ix2 p q) ((contrEquiv1 (dims wf) K rfl rfl).symm k) = ix2 q k := funext fun a => Fin.ext (by
    match a with
    | ⟨0, h0⟩ =>
      unfold DotDims.rhsIdx
      rw [dif_neg (List.not_mem_nil : ¬(⟨0, h0⟩ : Fin 2) ∈ (dims wf).rhsBatch),
        dif_pos (List.mem_singleton.mpr rfl : (⟨0, h0⟩ : Fin 2) ∈ (dims wf).rhsNonContracting)]
      rfl
    | ⟨1, _⟩ => exact ((dims wf).rhsIdx_val_of_single rfl _ _).trans hk)
  rw [el, er]

end Idealize.ShloMosaic.MatmulNT

end
-- ==== Proof.LibRowReduce.lean ====
import Idealize.ShloMosaic.PureOps.Ideal.Laws
import Idealize.ShloMosaic.Lib.ValueIdx
import Idealize.ShloMosaic.Lib.ValueLayout
import Idealize.ShloMosaic.Lib.Pipeline.Value

noncomputable section

namespace Idealize.ShloMosaic.RowReduce

open Idealize.ShloMosaic Idealize.ShloMosaic.ValueIdx

variable {α : Type} {a b : Nat}

/-! ## A column kept as a unit axis -/

/-- A vector of length `a` cast to an `[a, 1]` column reads, at `(i, u)`, the vector at `i`. -/
theorem shapeCast_a_a1_apply (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast along the rows to `[a, b]` reads, at `(p, c)`, the column at row `p`. -/
theorem broadcastTo_a1_ab_apply (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- So a per-row value kept as a column and broadcast back over the row is, at `(p, c)`, the value of row `p`. -/
theorem keepdims_apply (x : (⟨1, ![a]⟩ : Shape).Idx → α) (hc : (⟨1, ![a]⟩ : Shape).ShapeCasts ⟨2, ![a, 1]⟩)
    (hb : (⟨2, ![a, 1]⟩ : Shape).Broadcasts ⟨2, ![a, b]⟩) (p : Fin a) (c : Fin b) :
    broadcastTo ⟨2, ![a, b]⟩ (shapeCast ⟨2, ![a, 1]⟩ x hc) hb (ix2 p c) = x (ix1 p) :=
  (broadcastTo_a1_ab_apply _ hb p c).trans (shapeCast_a_a1_apply x hc p 0)

/-! ## A reduction along the rows of a matrix -/

/-- The index of row `p` with the column `k` put back. -/
theorem lift_ix1 (h : (⟨2, ![a, b]⟩ : Shape).Reduces [1] ⟨1, ![a]⟩) (p : Fin a) (k : Fin b) :
    h.lift (ix1 p) k = ix2 p k :=
  funext fun c => Fin.ext (by
    match c with
    | ⟨0, _⟩ => rfl
    | ⟨1, _⟩ => rfl)

/-- Over the extended reals the sum along each row, at row `p`, is the sum of the row's entries. -/
theorem rowSum_apply {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_ix1 h p k))

/-- Over the extended reals the maximum along each row, at row `p`, is the fold of `max` over the row's entries from the
    value the reduction starts at. -/
theorem rowMax_apply {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ src acc h hφ hacc (ix1 p)
      = (Finset.univ : Finset (Fin b)).fold max (FloatOps.ofBits φ acc) (fun k => src (ix2 p k)) :=
  (Ideal.multiReduction_maximumf_single src acc h hφ hacc (ix1 p)).trans
    (congrArg (Finset.fold max (FloatOps.ofBits φ acc) · (Finset.univ : Finset (Fin b)))
      (funext fun k => congrArg src (lift_ix1 h p k)))

end Idealize.ShloMosaic.RowReduce

end
-- ==== Proof.LibAxisReduce.lean ====
/-
  Reductions along one axis of a matrix, a matrix product, and values kept on unit axes, read at an index — over the
  extended reals.

  A reduction of an `a × b` matrix along its rows (axis 1) or down its columns (axis 0) leaves a vector; read at a kept
  coordinate it is the sum, or the fold of `min` or `max` from the value the reduction starts at, over the reduced
  coordinate. The two float words of the infinities are `⊤` and `⊥`, so a minimum started at `+∞` and a maximum started at
  `−∞` are characterised by their bounds alone. A vector of per-column values kept as a `1 × b` row and spread down the
  columns reads the value of its column. The product of an `m × k` and a `k × n` matrix accumulated into the zero matrix
  reads, at `(a, b)`, the sum over the contracted coordinate of the products of the entries. A `1 × 1` value's square
  root given a third unit axis and spread over `n` lanes reads the root of the value in every lane.
-/
import Idealize.ShloMosaic.PureOps.Ideal.Laws
import Idealize.ShloMosaic.PureOps.Reduce
import Idealize.ShloMosaic.Lib.ValueIdx
import Idealize.ShloMosaic.Lib.ValueLayout
import Idealize.ShloMosaic.Lib.Pipeline.Value

noncomputable section

namespace Idealize.ShloMosaic.AxisReduce

open Idealize.ShloMosaic Idealize.ShloMosaic.ValueIdx

/-! ## The two infinities as float words -/

/-- The f32 word of `+∞` is the top of the extended reals. -/
theorem ofBits_pinf : Ideal.ofBits .f32 0x7F800000#32 = ⊤ := by simp [Ideal.ofBits, Ideal.ieee]

/-- The f32 word of `−∞` is the bottom of the extended reals. -/
theorem ofBits_ninf : Ideal.ofBits .f32 0xFF800000#32 = ⊥ := by simp [Ideal.ofBits, Ideal.ieee]

/-! ## Reductions along one axis of a matrix, read at the kept coordinate -/

section Reductions
variable {a b : Nat} {φ : FTy}

/-- The index of row `p` with the column `k` put back. -/
theorem lift_ix1 (h : (⟨2, ![a, b]⟩ : Shape).Reduces [1] ⟨1, ![a]⟩) (p : Fin a) (k : Fin b) :
    h.lift (ix1 p) k = ix2 p k :=
  funext fun d => Fin.ext (by
    match d with
    | ⟨0, _⟩ => rfl
    | ⟨1, _⟩ => rfl)

/-- The index of column `c` with the row `k` put back. -/
theorem lift_ix0 (h : (⟨2, ![a, b]⟩ : Shape).Reduces [0] ⟨1, ![b]⟩) (c : Fin b) (k : Fin a) :
    h.lift (ix1 c) k = ix2 k c :=
  funext fun d => Fin.ext (by
    match d with
    | ⟨0, _⟩ => rfl
    | ⟨1, _⟩ => rfl)

/-- Over the extended reals a minimum over one axis, at a kept index, is the fold of `min` over that axis's coordinates
    from the value the reduction starts at. -/
theorem multiReduction_minimumf_single {s t : Shape} {ax : Fin s.rank} (src : FVec Ideal s φ) (acc : BitVec φ.bits)
    (h : s.Reduces [ax] t) (hφ : FKind.Formats φ) (hacc : acc = FKind.minimumf.neutral φ hφ) (j : t.Idx) :
    multiReduction .minimumf [ax] t src acc h hφ hacc j
      = (Finset.univ : Finset (Fin (s.size ax))).fold min (FloatOps.ofBits φ acc) (src ∘ h.lift j) := by
  rw [multiReduction_minimumf_eq_fold]; exact h.fold_filter_drop_single _ _ src j

/-- The minimum along each row, at row `p`: the fold of `min` over the row's entries. -/
theorem rowMin_apply (src : FVec Ideal ⟨2, ![a, b]⟩ φ) (acc : BitVec φ.bits)
    (h : (⟨2, ![a, b]⟩ : Shape).Reduces [1] ⟨1, ![a]⟩) (hφ : FKind.Formats φ) (hacc : acc = FKind.minimumf.neutral φ hφ) (p : Fin a) :
    multiReduction .minimumf [1] ⟨1, ![a]⟩ src acc h hφ hacc (ix1 p)
      = (Finset.univ : Finset (Fin b)).fold min (FloatOps.ofBits φ acc) (fun k => src (ix2 p k)) :=
  (multiReduction_minimumf_single src acc h hφ hacc (ix1 p)).trans
    (congrArg (Finset.fold min (FloatOps.ofBits φ acc) · (Finset.univ : Finset (Fin b)))
      (funext fun k => congrArg src (lift_ix1 h p k)))

/-- The minimum down each column, at column `c`: the fold of `min` over the column's entries. -/
theorem colMin_apply (src : FVec Ideal ⟨2, ![a, b]⟩ φ) (acc : BitVec φ.bits)
    (h : (⟨2, ![a, b]⟩ : Shape).Reduces [0] ⟨1, ![b]⟩) (hφ : FKind.Formats φ) (hacc : acc = FKind.minimumf.neutral φ hφ) (c : Fin b) :
    multiReduction .minimumf [0] ⟨1, ![b]⟩ src acc h hφ hacc (ix1 c)
      = (Finset.univ : Finset (Fin a)).fold min (FloatOps.ofBits φ acc) (fun k => src (ix2 k c)) :=
  (multiReduction_minimumf_single src acc h hφ hacc (ix1 c)).trans
    (congrArg (Finset.fold min (FloatOps.ofBits φ acc) · (Finset.univ : Finset (Fin a)))
      (funext fun k => congrArg src (lift_ix0 h c k)))

/-- The maximum down each column, at column `c`: the fold of `max` over the column's entries. -/
theorem colMax_apply (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ) (c : Fin b) :
    multiReduction .maximumf [0] ⟨1, ![b]⟩ src acc h hφ hacc (ix1 c)
      = (Finset.univ : Finset (Fin a)).fold max (FloatOps.ofBits φ acc) (fun k => src (ix2 k c)) :=
  (Ideal.multiReduction_maximumf_single src acc h hφ hacc (ix1 c)).trans
    (congrArg (Finset.fold max (FloatOps.ofBits φ acc) · (Finset.univ : Finset (Fin a)))
      (funext fun k => congrArg src (lift_ix0 h c k)))

/-- The sum down each column, at column `c`: the sum of the column's entries. -/
theorem colSum_apply (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (c : Fin b) :
    multiReduction .add [0] ⟨1, ![b]⟩ src acc h hφ hacc (ix1 c) = ∑ k : Fin a, src (ix2 k c) :=
  (Ideal.multiReduction_add_single src acc h hφ hacc (ix1 c)).trans
    (Finset.sum_congr rfl fun k _ => congrArg src (lift_ix0 h c k))

end Reductions

/-! ## A row kept as a unit axis -/

/-- A per-column value kept as a `1 × b` row and spread down the columns of an `a × b` matrix is, at `(p, c)`, the value
    of column `c`. -/
theorem keepdims_row_apply {α : Type} {a b : Nat} (x : (⟨1, ![b]⟩ : Shape).Idx → α)
    (hc : (⟨1, ![b]⟩ : Shape).ShapeCasts ⟨2, ![1, b]⟩) (hb : (⟨2, ![1, b]⟩ : Shape).Broadcasts ⟨2, ![a, b]⟩)
    (p : Fin a) (c : Fin b) :
    broadcastTo ⟨2, ![a, b]⟩ (shapeCast ⟨2, ![1, b]⟩ x hc) hb (ix2 p c) = x (ix1 c) :=
  (broadcastTo_1b_ab_apply _ hb p c).trans (shapeCast_a_1a_apply x hc 0 c)

/-! ## A matrix product into the zero matrix -/

/-- The product of an `m × k` and a `k × n` matrix accumulated into the zero matrix reads, at `(a, b)`, the sum over the
    contracted coordinate of the products of the entries. `w` is the dimension numbers' well-formedness, which a program states. -/
theorem matmul_zero_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  refine (Ideal.matmul_constant_zero_apply _ prec A B (ix2 a b)).trans ?_
  rw [← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-! ## A square root read through unit axes -/

/-- A `[1, 1, 1]` value spread over `n` lanes reads its one entry in every lane. -/
theorem broadcastTo_111_11n_apply {α : Type} {n : Nat} (v : (⟨3, ![1, 1, 1]⟩ : Shape).Idx → α)
    (hb : (⟨3, ![1, 1, 1]⟩ : Shape).Broadcasts ⟨3, ![1, 1, n]⟩) (l : Fin n) :
    broadcastTo ⟨3, ![1, 1, n]⟩ v hb (ix3 (0 : Fin 1) (0 : Fin 1) l) = v (ix3 (0 : Fin 1) (0 : Fin 1) (0 : Fin 1)) := by
  refine broadcastTo_apply v hb (ix3 (0 : Fin 1) (0 : Fin 1) l) (ix3 (0 : Fin 1) (0 : Fin 1) (0 : Fin 1)) fun ax => ?_
  match ax with
  | ⟨0, _⟩ => rfl
  | ⟨1, _⟩ => rfl
  | ⟨2, _⟩ => rfl

/-- A `[1, 1]` value's square root, given a third unit axis (through a cast to its own shape) and spread over `n` lanes,
    reads the root of the value in every lane. -/
theorem sqrt_lanes_apply {n : Nat} {φ : FTy} (w : FVec Ideal ⟨2, ![1, 1]⟩ φ)
    (h1 : (⟨2, ![1, 1]⟩ : Shape).ShapeCasts ⟨3, ![1, 1, 1]⟩) (h2 : (⟨3, ![1, 1, 1]⟩ : Shape).ShapeCasts ⟨3, ![1, 1, 1]⟩)
    (hb : (⟨3, ![1, 1, 1]⟩ : Shape).Broadcasts ⟨3, ![1, 1, n]⟩) (l : Fin n) :
    broadcastTo ⟨3, ![1, 1, n]⟩ (shapeCast ⟨3, ![1, 1, 1]⟩ (shapeCast ⟨3, ![1, 1, 1]⟩ (sqrt w) h1) h2) hb (ix3 0 0 l)
      = Ideal.sqrt (w (ix2 0 0)) := by
  refine (broadcastTo_111_11n_apply _ hb l).trans ?_
  rw [shapeCast_self]
  exact shapeCast_ab_1ab_apply (sqrt w) h1 0 0 0

end Idealize.ShloMosaic.AxisReduce

end
-- ==== Proof.KernelPayload.lean ====
/-
  The arithmetic of one grid step over the extended reals, read at an entry.

  For input blocks `x0`, `x1` (1024 rows of 128 entries each) the step forms the 1024 × 1024 tile
  `tileE r c = exp (4 · ∑ k, x0 (r, k) · x1 (c, k))`. The row accumulator's new entry `r` is its old entry plus the sum of row
  `r` of the tile; the column accumulator's new entry at lane `c` of the current column tile is its old entry there plus the
  sum of column `c` of the tile.
-/
import proofs.«108457_j47528108098354_2_alg».proof.Proof.Gen.KernelIdeal.Skeleton
import proofs.«108457_j47528108098354_2_alg».proof.Proof.LibMatmulNT
import proofs.«108457_j47528108098354_2_alg».proof.Proof.LibRowReduce
import proofs.«108457_j47528108098354_2_alg».proof.Proof.LibAxisReduce
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx

namespace Cert.KernelIdeal.Payload

open Cert.KernelIdeal Cert.KernelIdeal.Gen

/-- `exp (⟨row r of x0, row c of x1⟩ · 4)`. -/
def tileE (x0 x1 : Vec Ideal S1024x128 .bf16) (r c : Fin 1024) : EReal :=
  Ideal.exp ((∑ k : Fin 128, x0 (ix2 r k) * x1 (ix2 c k)) * Ideal.ofBits .f32 0x40800000#32)

/-- The tile at row `r`, column `c`. -/
theorem pay3_apply (x0 x1 : Vec Ideal S1024x128 .bf16) (r c : Fin 1024) :
    k0_pay3 (F := Ideal) x0 x1 (ix2 r c) = tileE x0 x1 r c := by
  unfold k0_pay3 tileE
  rw [shapeCast_self, shapeCast_self]
  exact congrArg (fun s => Ideal.exp (s * Ideal.ofBits .f32 0x40800000#32))
    (MatmulNT.matmul_zero_apply dot_S1024x128_S1024x128_S1024x1024_1_1_0_0_n_n_wf none x0 x1 r c)

/-- The row accumulator's new entry: the old one plus the row's sum. -/
theorem pay4_apply (x0 x1 : Vec Ideal S1024x128 .bf16) (acc : Vec Ideal S1024x1 .f32) (r : Fin 1024) (u : Fin 1) :
    k0_pay4 (F := Ideal) x0 x1 acc (ix2 r u) = acc (ix2 r u) + ∑ c : Fin 1024, tileE x0 x1 r c := by
  unfold k0_pay4
  rw [shapeCast_self]
  refine congrArg (acc (ix2 r u) + ·) ?_
  refine (RowReduce.shapeCast_a_a1_apply _ _ r u).trans ?_
  refine (RowReduce.rowSum_apply _ _ _ _ _ r).trans ?_
  exact Finset.sum_congr rfl fun c _ => pay3_apply x0 x1 r c

/-- The column accumulator's new entry at lane `c` of the tile: the old one plus the column's sum. -/
theorem pay5_apply (x0 x1 : Vec Ideal S1024x128 .bf16) (acc : Vec Ideal S1x1x1024 .f32) (c : Fin 1024) :
    k0_pay5 (F := Ideal) x0 x1 acc (ix3 (0 : Fin 1) (0 : Fin 1) c)
      = acc (ix3 (0 : Fin 1) (0 : Fin 1) c) + ∑ r : Fin 1024, tileE x0 x1 r c := by
  unfold k0_pay5
  rw [shapeCast_self]
  refine congrArg (acc (ix3 (0 : Fin 1) (0 : Fin 1) c) + ·) ?_
  refine (shapeCast_ab_1ab_apply _ _ (0 : Fin 1) (0 : Fin 1) c).trans ?_
  refine (shapeCast_a_1a_apply _ _ (0 : Fin 1) c).trans ?_
  refine (AxisReduce.colSum_apply _ _ _ _ _ c).trans ?_
  exact Finset.sum_congr rfl fun r _ => pay3_apply x0 x1 r c

end Cert.KernelIdeal.Payload

end
-- ==== Proof.KernelAcc.lean ====
/-
  The tiled program's two running accumulators across the four column tiles of one row of tiles, over the extended reals.

  The grid is walked row tile by row tile: point `t` works on row tile `t / 4` and column tile `t % 4`, its input blocks being
  rows `1024 · (t / 4) + r` of the first scaled matrix and rows `1024 · (t % 4) + r` of the second. Writing
  `E p q = exp (4 · ⟨zi p, zj q⟩)`, after the last column tile of a row of tiles the row accumulator's entry `r` is
  `(((0 + ∑ E p ·tile 0) + ∑ E p ·tile 1) + ∑ E p ·tile 2) + ∑ E p ·tile 3` for `p = 1024 · (t / 4) + r`, and the column
  accumulator's lane `q` is `0 + ∑ r, E (1024 · (t / 4) + r) q`: each lane is updated exactly once, at the column tile that holds it.
-/
import proofs.«108457_j47528108098354_2_alg».proof.Proof.KernelPieces
import proofs.«108457_j47528108098354_2_alg».proof.Proof.KernelPayload
import proofs.«108457_j47528108098354_2_alg».proof.Proof.Spec

set_option maxRecDepth 16384

noncomputable section

open Idealize.ShloMosaic Idealize.ShloMosaic.TcCoe Idealize.SL.Sem Idealize.ShloMosaic.ValueIdx

namespace Cert.KernelIdeal.Acc

open Cert.KernelIdeal Cert.KernelIdeal.Gen Cert.KernelIdeal.Pieces Cert.KernelIdeal.Payload

variable (m : (ℓ : Loc nD τ sig) → Buf (Elt Ideal) ℓ)

/-- The two scaled matrices as the region finds them, by row and column. -/
def ZI (c : Dev nD) : Cert.Spec.Mat := fun p k => (V m c main_call0_v12 : S4096x128.Idx → EReal) (ix2 p k)
def ZJ (c : Dev nD) : Cert.Spec.Mat := fun p k => (V m c main_call0_v13 : S4096x128.Idx → EReal) (ix2 p k)

/-! ## The grid: which tiles a point works on -/

theorem idx_facts : ∀ t : Fin cfg0.N,
    win0_0.index t (0 : Fin 2) = t.val / 4 ∧ win0_0.index t (1 : Fin 2) = 0
    ∧ win0_1.index t (0 : Fin 2) = t.val % 4 ∧ win0_1.index t (1 : Fin 2) = 0
    ∧ win0_2.index t (0 : Fin 2) = t.val / 4 ∧ win0_2.index t (1 : Fin 2) = 0
    ∧ win0_3.index t (0 : Fin 3) = t.val / 4 ∧ win0_3.index t (1 : Fin 3) = 0 ∧ win0_3.index t (2 : Fin 3) = 0
    ∧ k0_off1 (grid0.coords t) = ![0, 0, 1024 * (t.val % 4)] :=
  (by decide +kernel : ∀ t : Fin grid0.N, _)

/-- The row tile and the column tile of grid point `t`. -/
def rowTile (t : Fin cfg0.N) : Fin 4 := ⟨t.val / 4, by have := t.isLt; have : cfg0.N = 16 := N_0; omega⟩
def colTile (t : Fin cfg0.N) : Fin 4 := ⟨t.val % 4, Nat.mod_lt _ (by decide)⟩

/-- The first input block at point `t` is the rows of row tile `t / 4` of the first scaled matrix. -/
theorem iblk0_apply (c : Dev nD) (t : Fin cfg0.N) (r : Fin 1024) (k : Fin 128) :
    (iblk m c 0 t : Vec Ideal S1024x128 .bf16) (ix2 r k) = ZI m c (Cert.Spec.tileIx (rowTile t) r) k := by
  obtain ⟨e0, e1, -⟩ := idx_facts t
  unfold iblk ZI
  show V m c main_call0_v12 (((cfg0.win 0).blk t).view.emb (ix2 r k)) = V m c main_call0_v12 _
  refine congrArg _ (funext fun a => Fin.ext ?_)
  match a with
  | ⟨0, _⟩ => show win0_0.index t (0 : Fin 2) * 1024 + 1 * r.val = 1024 * (t.val / 4) + r.val; omega
  | ⟨1, _⟩ => show win0_0.index t (1 : Fin 2) * 128 + 1 * k.val = k.val; omega

/-- The second input block at point `t` is the rows of column tile `t % 4` of the second scaled matrix. -/
theorem iblk1_apply (c : Dev nD) (t : Fin cfg0.N) (r : Fin 1024) (k : Fin 128) :
    (iblk m c 1 t : Vec Ideal S1024x128 .bf16) (ix2 r k) = ZJ m c (Cert.Spec.tileIx (colTile t) r) k := by
  obtain ⟨-, -, e0, e1, -⟩ := idx_facts t
  unfold iblk ZJ
  show V m c main_call0_v13 (((cfg0.win 1).blk t).view.emb (ix2 r k)) = V m c main_call0_v13 _
  refine congrArg _ (funext fun a => Fin.ext ?_)
  match a with
  | ⟨0, _⟩ => show win0_1.index t (0 : Fin 2) * 1024 + 1 * r.val = 1024 * (t.val % 4) + r.val; omega
  | ⟨1, _⟩ => show win0_1.index t (1 : Fin 2) * 128 + 1 * k.val = k.val; omega

/-! ## One step, over blocks known to be tiles of two matrices -/

section Step
variable (zi zj : Cert.Spec.Mat) (a b : Fin 4) (x0 x1 : Vec Ideal S1024x128 .bf16)
  (h0 : ∀ r k, x0 (ix2 r k) = zi (Cert.Spec.tileIx a r) k) (h1 : ∀ r k, x1 (ix2 r k) = zj (Cert.Spec.tileIx b r) k)

include h0 h1 in
theorem tileE_of (r cc : Fin 1024) :
    tileE x0 x1 r cc = Cert.Spec.E zi zj (Cert.Spec.tileIx a r) (Cert.Spec.tileIx b cc) := by
  unfold tileE Cert.Spec.E Cert.Spec.dot Cert.Spec.four
  simp only [h0, h1]

include h0 h1 in
/-- The row accumulator after the step: what it held plus the sum of `E p ·` over the column tile. -/
theorem rowStep (acc : Vec Ideal S1024x1 .f32) (r : Fin 1024) (u : Fin 1) :
    k0_pay4 (F := Ideal) x0 x1 acc (ix2 r u)
      = acc (ix2 r u) + ∑ cc : Fin 1024, Cert.Spec.E zi zj (Cert.Spec.tileIx a r) (Cert.Spec.tileIx b cc) := by
  rw [pay4_apply]
  exact congrArg (acc (ix2 r u) + ·) (Finset.sum_congr rfl fun cc _ => tileE_of zi zj a b x0 x1 h0 h1 r cc)

end Step

/-- The zero column stored on the first column tile. -/
theorem pay1_apply (y : S1024x1.Idx) : k0_pay1 (F := Ideal) y = Cert.Spec.zero := by
  unfold k0_pay1
  rw [shapeCast_self]
  rfl

/-- The zero row stored on the first column tile. -/
theorem pay2_apply (y : S1x1x4096.Idx) : k0_pay2 (F := Ideal) y = Cert.Spec.zero := by
  unfold k0_pay2
  rw [shapeCast_self]
  rfl

/-! ## A point's predecessor -/

/-- What a point found in the accumulators is what the point before left. -/
theorem outsAt0_congr (c : Dev nD) (n n' : ℕ) (hn : n < cfg0.N) (hn' : n' < cfg0.N) (e : n = n') :
    outsAt0 m c n hn = outsAt0 m c n' hn' := by subst e; rfl

/-! ## The column accumulator read at a lane -/

/-- A row with the 1024 lanes of column tile `j` replaced by `w`, read at lane `q`. -/
theorem colUpd_apply (i : grid0.Coords) (j : ℕ) (hj : k0_off1 i = ![0, 0, 1024 * j])
    (old : Vec Ideal S1x1x4096 .f32) (w : Vec Ideal S1x1x1024 .f32) (q : Fin 4096) :
    colUpd i old w (ix3 (0 : Fin 1) (0 : Fin 1) q)
      = if h : 1024 * j ≤ q.val ∧ q.val < 1024 * j + 1024 then
          w (ix3 (0 : Fin 1) (0 : Fin 1) ⟨q.val - 1024 * j, by omega⟩)
        else old (ix3 (0 : Fin 1) (0 : Fin 1) q) := by
  unfold colUpd
  by_cases h : 1024 * j ≤ q.val ∧ q.val < 1024 * j + 1024
  · have h' : ∀ a : Fin 3, k0_off1 i a ≤ ((ix3 (0 : Fin 1) (0 : Fin 1) q : S1x1x4096.Idx) a).val
        ∧ ((ix3 (0 : Fin 1) (0 : Fin 1) q : S1x1x4096.Idx) a).val < k0_off1 i a + S1x1x1024.size a := by
      rw [hj]
      intro a
      match a with
      | ⟨0, _⟩ => exact ⟨Nat.le_refl 0, Nat.one_pos⟩
      | ⟨1, _⟩ => exact ⟨Nat.le_refl 0, Nat.one_pos⟩
      | ⟨2, _⟩ => exact h
    rw [dif_pos h', dif_pos h]
    refine congrArg w (funext fun a => Fin.ext ?_)
    match a with
    | ⟨0, _⟩ => show 0 - k0_off1 i 0 = 0; exact Nat.zero_sub _
    | ⟨1, _⟩ => show 0 - k0_off1 i 1 = 0; exact Nat.zero_sub _
    | ⟨2, _⟩ => show q.val - k0_off1 i 2 = q.val - 1024 * j; rw [show k0_off1 i 2 = 1024 * j from congrFun hj 2]
  · rw [dif_neg h, dif_neg]
    intro h'
    have := h' 2
    rw [hj] at this
    exact h this

section ColStep
variable (zi zj : Cert.Spec.Mat) (a b : Fin 4) (x0 x1 : Vec Ideal S1024x128 .bf16)
  (h0 : ∀ r k, x0 (ix2 r k) = zi (Cert.Spec.tileIx a r) k) (h1 : ∀ r k, x1 (ix2 r k) = zj (Cert.Spec.tileIx b r) k)

include h0 h1 in
/-- The column accumulator after the step at column tile `b`: inside the tile what it held plus the sum of `E · q` over the
    row tile, outside the tile what it held. -/
theorem colStep (i : grid0.Coords) (hj : k0_off1 i = ![0, 0, 1024 * b.val]) (old : Vec Ideal S1x1x4096 .f32) (q : Fin 4096) :
    colUpd i old (k0_pay5 (F := Ideal) x0 x1 (View.ld old (colRect i))) (ix3 (0 : Fin 1) (0 : Fin 1) q)
      = if 1024 * b.val ≤ q.val ∧ q.val < 1024 * b.val + 1024 then
          old (ix3 (0 : Fin 1) (0 : Fin 1) q) + ∑ r : Fin 1024, Cert.Spec.E zi zj (Cert.Spec.tileIx a r) q
        else old (ix3 (0 : Fin 1) (0 : Fin 1) q) := by
  rw [colUpd_apply i b.val hj]
  by_cases h : 1024 * b.val ≤ q.val ∧ q.val < 1024 * b.val + 1024
  · rw [dif_pos h, if_pos h, pay5_apply]
    have eq : Cert.Spec.tileIx b ⟨q.val - 1024 * b.val, by omega⟩ = q := Fin.ext (by
      show 1024 * b.val + (q.val - 1024 * b.val) = q.val; omega)
    have eold : View.ld old (colRect i) (ix3 (0 : Fin 1) (0 : Fin 1) ⟨q.val - 1024 * b.val, by omega⟩)
        = old (ix3 (0 : Fin 1) (0 : Fin 1) q) := by
      show old ((colRect i).idx _) = _
      refine congrArg old (funext fun d => Fin.ext ?_)
      match d with
      | ⟨0, _⟩ => show k0_off1 i 0 + 1 * 0 = 0; rw [show k0_off1 i 0 = 0 from congrFun hj 0]
      | ⟨1, _⟩ => show k0_off1 i 1 + 1 * 0 = 0; rw [show k0_off1 i 1 = 0 from congrFun hj 1]
      | ⟨2, _⟩ => show k0_off1 i 2 + 1 * (q.val - 1024 * b.val) = q.val; rw [show k0_off1 i 2 = 1024 * b.val from congrFun hj 2]; omega
    rw [eold]
    refine congrArg (old (ix3 (0 : Fin 1) (0 : Fin 1) q) + ·) (Finset.sum_congr rfl fun r _ => ?_)
    rw [tileE_of zi zj a b x0 x1 h0 h1, eq]
  · rw [dif_neg h, if_neg h]

include h0 h1 in
/-- If before the step at column tile `b` the lanes of the earlier column tiles hold `0 + ∑ r, E (row tile a, r) q` and the
    others zero, after it the same is true with tile `b` among the earlier ones. -/
theorem colInv_step (i : grid0.Coords) (hj : k0_off1 i = ![0, 0, 1024 * b.val]) (old : Vec Ideal S1x1x4096 .f32)
    (hold : ∀ q : Fin 4096, old (ix3 (0 : Fin 1) (0 : Fin 1) q)
      = if q.val / 1024 < b.val then Cert.Spec.zero + ∑ r : Fin 1024, Cert.Spec.E zi zj (Cert.Spec.tileIx a r) q else Cert.Spec.zero)
    (q : Fin 4096) :
    colUpd i old (k0_pay5 (F := Ideal) x0 x1 (View.ld old (colRect i))) (ix3 (0 : Fin 1) (0 : Fin 1) q)
      = if q.val / 1024 < b.val + 1 then Cert.Spec.zero + ∑ r : Fin 1024, Cert.Spec.E zi zj (Cert.Spec.tileIx a r) q
        else Cert.Spec.zero := by
  rw [colStep zi zj a b x0 x1 h0 h1 i hj old q, hold q]
  by_cases hin : 1024 * b.val ≤ q.val ∧ q.val < 1024 * b.val + 1024
  · rw [if_pos hin, if_neg (by omega), if_pos (by omega)]
  · rw [if_neg hin]
    by_cases hlt : q.val / 1024 < b.val
    · rw [if_pos hlt, if_pos (by omega)]
    · rw [if_neg hlt, if_neg (by omega)]

end ColStep

/-! ## One step of the program's body, entry by entry, on any staging buffers -/

section Gen
variable (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1x1x4096 .f32) (harg5 : arg5.IsWhole) (arg6 : Memref sig .tc .vmem S1024x1 .f32) (harg6 : arg6.IsWhole) (arg7 : Memref sig .tc .vmem S1x1x4096 .f32) (harg7 : arg7.IsWhole)
  (zi zj : Cert.Spec.Mat) (a b : Fin 4) (x0 x1 : Vec Ideal S1024x128 .bf16)
  (h0 : ∀ r k, x0 (ix2 r k) = zi (Cert.Spec.tileIx a r) k) (h1 : ∀ r k, x1 (ix2 r k) = zj (Cert.Spec.tileIx b r) k)

include h0 h1 in
theorem rowFirst_gen (hc0 : cond0_0 i) (hc1 : ¬cond0_1 i) (r : Fin 1024) (u : Fin 1) :
    sout0_A_0 c i arg2 harg2 arg3 harg3 arg4 harg4 arg5 harg5 arg6 harg6 arg7 harg7 hc0 hc1 x0 x1 (ix2 r u) = Cert.Spec.zero + ∑ cc : Fin 1024, Cert.Spec.E zi zj (Cert.Spec.tileIx a r) (Cert.Spec.tileIx b cc) := by
  rw [rowAcc_A c i arg2 harg2 arg3 harg3 arg4 harg4 arg5 harg5 arg6 harg6 arg7 harg7 hc0 hc1 x0 x1, rowStep zi zj a b x0 x1 h0 h1, pay1_apply]

include h0 h1 in
theorem rowMid_gen (hc0 : ¬cond0_0 i) (hc1 : ¬cond0_1 i) (xs0 : Vec Ideal S1024x1 .f32) (xs1 : Vec Ideal S1x1x4096 .f32)
    (r : Fin 1024) (u : Fin 1) :
    sout0_B_0 c i arg2 harg2 arg3 harg3 arg4 harg4 arg5 harg5 arg6 harg6 arg7 harg7 hc0 hc1 x0 x1 xs0 xs1 (ix2 r u) = xs0 (ix2 r u) + ∑ cc : Fin 1024, Cert.Spec.E zi zj (Cert.Spec.tileIx a r) (Cert.Spec.tileIx b cc) := by
  rw [rowAcc_B c i arg2 harg2 arg3 harg3 arg4 harg4 arg5 harg5 arg6 harg6 arg7 harg7 hc0 hc1 x0 x1 xs0 xs1, rowStep zi zj a b x0 x1 h0 h1]

include h0 h1 in
theorem rowLast_gen (hc0 : ¬cond0_0 i) (hc1 : cond0_1 i) (xs0 : Vec Ideal S1024x1 .f32) (xs1 : Vec Ideal S1x1x4096 .f32)
    (r : Fin 1024) (u : Fin 1) :
    out0_C_2 c i arg2 harg2 arg3 harg3 arg4 harg4 arg5 harg5 arg6 harg6 arg7 harg7 hc0 hc1 x0 x1 xs0 xs1 (ix2 r u) = xs0 (ix2 r u) + ∑ cc : Fin 1024, Cert.Spec.E zi zj (Cert.Spec.tileIx a r) (Cert.Spec.tileIx b cc) := by
  rw [rowOut_C c i arg2 harg2 arg3 harg3 arg4 harg4 arg5 harg5 arg6 harg6 arg7 harg7 hc0 hc1 x0 x1 xs0 xs1, rowStep zi zj a b x0 x1 h0 h1]

include h0 h1 in
theorem colFirst_gen (hc0 : cond0_0 i) (hc1 : ¬cond0_1 i) (hj : k0_off1 i = ![0, 0, 1024 * b.val]) (hb : b.val = 0) (q : Fin 4096) :
    sout0_A_1 c i arg2 harg2 arg3 harg3 arg4 harg4 arg5 harg5 arg6 harg6 arg7 harg7 hc0 hc1 x0 x1 (ix3 (0 : Fin 1) (0 : Fin 1) q)
      = if q.val / 1024 < b.val + 1 then Cert.Spec.zero + ∑ r : Fin 1024, Cert.Spec.E zi zj (Cert.Spec.tileIx a r) q else Cert.Spec.zero := by
  rw [colAcc_A c i arg2 harg2 arg3 harg3 arg4 harg4 arg5 harg5 arg6 harg6 arg7 harg7 hc0 hc1 x0 x1]
  exact colInv_step zi zj a b x0 x1 h0 h1 i hj (k0_pay2 (F := Ideal))
    (fun q' => (pay2_apply _).trans (if_neg (by omega)).symm) q

include h0 h1 in
theorem colMid_gen (hc0 : ¬cond0_0 i) (hc1 : ¬cond0_1 i) (xs0 : Vec Ideal S1024x1 .f32) (xs1 : Vec Ideal S1x1x4096 .f32)
    (hj : k0_off1 i = ![0, 0, 1024 * b.val])
    (hold : ∀ q : Fin 4096, xs1 (ix3 (0 : Fin 1) (0 : Fin 1) q)
      = if q.val / 1024 < b.val then Cert.Spec.zero + ∑ r : Fin 1024, Cert.Spec.E zi zj (Cert.Spec.tileIx a r) q else Cert.Spec.zero) (q : Fin 4096) :
    sout0_B_1 c i arg2 harg2 arg3 harg3 arg4 harg4 arg5 harg5 arg6 harg6 arg7 harg7 hc0 hc1 x0 x1 xs0 xs1 (ix3 (0 : Fin 1) (0 : Fin 1) q)
      = if q.val / 1024 < b.val + 1 then Cert.Spec.zero + ∑ r : Fin 1024, Cert.Spec.E zi zj (Cert.Spec.tileIx a r) q else Cert.Spec.zero := by
  rw [colAcc_B c i arg2 harg2 arg3 harg3 arg4 harg4 arg5 harg5 arg6 harg6 arg7 harg7 hc0 hc1 x0 x1 xs0 xs1]
  exact colInv_step zi zj a b x0 x1 h0 h1 i hj xs1 hold q

include h0 h1 in
theorem colLast_gen (hc0 : ¬cond0_0 i) (hc1 : cond0_1 i) (xs0 : Vec Ideal S1024x1 .f32) (xs1 : Vec Ideal S1x1x4096 .f32)
    (hj : k0_off1 i = ![0, 0, 1024 * b.val])
    (hold : ∀ q : Fin 4096, xs1 (ix3 (0 : Fin 1) (0 : Fin 1) q)
      = if q.val / 1024 < b.val then Cert.Spec.zero + ∑ r : Fin 1024, Cert.Spec.E zi zj (Cert.Spec.tileIx a r) q else Cert.Spec.zero) (q : Fin 4096) :
    out0_C_3 c i arg2 harg2 arg3 harg3 arg4 harg4 arg5 harg5 arg6 harg6 arg7 harg7 hc0 hc1 x0 x1 xs0 xs1 (ix3 (0 : Fin 1) (0 : Fin 1) q)
      = if q.val / 1024 < b.val + 1 then Cert.Spec.zero + ∑ r : Fin 1024, Cert.Spec.E zi zj (Cert.Spec.tileIx a r) q else Cert.Spec.zero := by
  rw [colOut_C c i arg2 harg2 arg3 harg3 arg4 harg4 arg5 harg5 arg6 harg6 arg7 harg7 hc0 hc1 x0 x1 xs0 xs1]
  exact colInv_step zi zj a b x0 x1 h0 h1 i hj xs1 hold q

end Gen

end Cert.KernelIdeal.Acc

end
-- ==== Proof.KernelChain.lean ====
/-
  The two output blocks of the tiled program at the last column tile of a row of tiles, entry by entry.

  Unrolling the four steps of a row of tiles: the row output's entry `r` is the first denominator of row
  `p = 1024 · (t / 4) + r`, the four column tiles' sums of `E p ·` added one after the other to zero; the column output's lane
  `q` is `0 + ∑ r, E (1024 · (t / 4) + r) q`, because lane `q` is touched only at the step of the column tile that holds it.
-/
import proofs.«108457_j47528108098354_2_alg».proof.Proof.KernelAcc

set_option maxRecDepth 16384

noncomputable section

open Idealize.ShloMosaic Idealize.ShloMosaic.TcCoe Idealize.SL.Sem Idealize.ShloMosaic.ValueIdx

namespace Cert.KernelIdeal.Chain

open Cert.KernelIdeal Cert.KernelIdeal.Gen Cert.KernelIdeal.Pieces Cert.KernelIdeal.Payload Cert.KernelIdeal.Acc

variable (m : (ℓ : Loc nD τ sig) → Buf (Elt Ideal) ℓ)

theorem add_left_congr {a a' b : EReal} (h : a = a') : a + b = a' + b := h ▸ rfl

section Proj
variable {α β γ δ : Type} {x y : α × β × γ × δ}
theorem proj1 (h : x = y) : x.1 = y.1 := by subst h; rfl
theorem proj2 (h : x = y) : x.2.1 = y.2.1 := by subst h; rfl
theorem proj3 (h : x = y) : x.2.2.1 = y.2.2.1 := by subst h; rfl
theorem proj4 (h : x = y) : x.2.2.2 = y.2.2.2 := by subst h; rfl
end Proj

/-- The lanes the step at point `t` updates start at `1024 · (t % 4)`. -/
theorem off_eq (t : Fin cfg0.N) : k0_off1 (grid0.coords t) = ![0, 0, 1024 * (colTile t).val] :=
  (idx_facts t).2.2.2.2.2.2.2.2.2

/-! ## The row accumulator, step by step -/

theorem rowFirst_apply (c : Dev nD) (t : Fin cfg0.N) (h0 : t.val % 4 = 0) (h1 : ¬t.val % 4 = 3) (r : Fin 1024) (u : Fin 1) :
    (outsAt0 m c t.val t.isLt).2.2.1 (ix2 r u) = Cert.Spec.zero + ∑ cc : Fin 1024,
          Cert.Spec.E (ZI m c) (ZJ m c) (Cert.Spec.tileIx (rowTile t) r) (Cert.Spec.tileIx (colTile t) cc) := by
  have e1 := proj3 (outsAt0_A m c t h0 h1)
  dsimp only at e1
  have e2 := rowFirst_gen c (grid0.coords t) (ms0_0 t) (hs0_0 t) (ms0_1 t) (hs0_1 t) (ms0_2 t) (hs0_2 t) (ms0_3 t) (hs0_3 t) scM0_0 (Memref.isWhole_whole _) scM0_1 (Memref.isWhole_whole _) (ZI m c) (ZJ m c) (rowTile t) (colTile t) (iblk m c 0 t) (iblk m c 1 t) (iblk0_apply m c t) (iblk1_apply m c t) ((hcond0_0 t).mpr h0) (fun h => h1 ((hcond0_1 t).mp h)) r u
  exact (congrFun e1 (ix2 r u)).trans e2

theorem rowMid_apply (c : Dev nD) (t t' : Fin cfg0.N) (ht' : t'.val = t.val - 1) (h0 : ¬t.val % 4 = 0) (h1 : ¬t.val % 4 = 3)
    (r : Fin 1024) (u : Fin 1) :
    (outsAt0 m c t.val t.isLt).2.2.1 (ix2 r u) = (outsAt0 m c t'.val t'.isLt).2.2.1 (ix2 r u) + ∑ cc : Fin 1024,
          Cert.Spec.E (ZI m c) (ZJ m c) (Cert.Spec.tileIx (rowTile t) r) (Cert.Spec.tileIx (colTile t) cc) := by
  have e := outsAt0_B m c t h0 h1
  rw [outsAt0_congr m c (t.val - 1) t'.val _ t'.isLt ht'.symm] at e
  have e1 := proj3 e
  dsimp only at e1
  have e2 := rowMid_gen c (grid0.coords t) (ms0_0 t) (hs0_0 t) (ms0_1 t) (hs0_1 t) (ms0_2 t) (hs0_2 t) (ms0_3 t) (hs0_3 t) scM0_0 (Memref.isWhole_whole _) scM0_1 (Memref.isWhole_whole _) (ZI m c) (ZJ m c) (rowTile t) (colTile t) (iblk m c 0 t) (iblk m c 1 t) (iblk0_apply m c t) (iblk1_apply m c t) (fun h => h0 ((hcond0_0 t).mp h)) (fun h => h1 ((hcond0_1 t).mp h)) (outsAt0 m c t'.val t'.isLt).2.2.1 (outsAt0 m c t'.val t'.isLt).2.2.2 r u
  exact (congrFun e1 (ix2 r u)).trans e2

theorem rowLast_apply (c : Dev nD) (t t' : Fin cfg0.N) (ht' : t'.val = t.val - 1) (h0 : ¬t.val % 4 = 0) (h3 : t.val % 4 = 3)
    (r : Fin 1024) (u : Fin 1) :
    (outsAt0 m c t.val t.isLt).1 (ix2 r u) = (outsAt0 m c t'.val t'.isLt).2.2.1 (ix2 r u) + ∑ cc : Fin 1024,
          Cert.Spec.E (ZI m c) (ZJ m c) (Cert.Spec.tileIx (rowTile t) r) (Cert.Spec.tileIx (colTile t) cc) := by
  have e := outsAt0_C m c t h0 h3
  rw [outsAt0_congr m c (t.val - 1) t'.val _ t'.isLt ht'.symm] at e
  have e1 := proj1 e
  dsimp only at e1
  have e2 := rowLast_gen c (grid0.coords t) (ms0_0 t) (hs0_0 t) (ms0_1 t) (hs0_1 t) (ms0_2 t) (hs0_2 t) (ms0_3 t) (hs0_3 t) scM0_0 (Memref.isWhole_whole _) scM0_1 (Memref.isWhole_whole _) (ZI m c) (ZJ m c) (rowTile t) (colTile t) (iblk m c 0 t) (iblk m c 1 t) (iblk0_apply m c t) (iblk1_apply m c t) (fun h => h0 ((hcond0_0 t).mp h)) ((hcond0_1 t).mpr h3) (outsAt0 m c t'.val t'.isLt).2.2.1 (outsAt0 m c t'.val t'.isLt).2.2.2 r u
  exact (congrFun e1 (ix2 r u)).trans e2

/-- After the last column tile of a row of tiles, the row output block holds the first denominators of its rows. -/
theorem rowOut_apply (c : Dev nD) (t : Fin cfg0.N) (h3 : t.val % 4 = 3) (r : Fin 1024) (u : Fin 1) :
    (outsAt0 m c t.val t.isLt).1 (ix2 r u)
      = Cert.Spec.rowDen (ZI m c) (ZJ m c) (Cert.Spec.tileIx (rowTile t) r) := by
  have hN : cfg0.N = 16 := N_0
  have hlt := t.isLt
  obtain ⟨t1, e1⟩ : ∃ t1 : Fin cfg0.N, t1.val = t.val - 1 := ⟨⟨t.val - 1, by omega⟩, rfl⟩
  obtain ⟨t2, e2⟩ : ∃ t2 : Fin cfg0.N, t2.val = t1.val - 1 := ⟨⟨t1.val - 1, by omega⟩, rfl⟩
  obtain ⟨t3, e3⟩ : ∃ t3 : Fin cfg0.N, t3.val = t2.val - 1 := ⟨⟨t2.val - 1, by omega⟩, rfl⟩
  have a0 := rowLast_apply m c t t1 e1 (by omega) h3 r u
  have a1 := rowMid_apply m c t1 t2 e2 (by omega) (by omega) r u
  have a2 := rowMid_apply m c t2 t3 e3 (by omega) (by omega) r u
  have a3 := rowFirst_apply m c t3 (by omega) (by omega) r u
  have r1 : rowTile t1 = rowTile t := Fin.ext (by show t1.val / 4 = t.val / 4; omega)
  have r2 : rowTile t2 = rowTile t := Fin.ext (by show t2.val / 4 = t.val / 4; omega)
  have r3 : rowTile t3 = rowTile t := Fin.ext (by show t3.val / 4 = t.val / 4; omega)
  have c0 : colTile t = 3 := Fin.ext (by show t.val % 4 = 3; omega)
  have c1 : colTile t1 = 2 := Fin.ext (by show t1.val % 4 = 2; omega)
  have c2 : colTile t2 = 1 := Fin.ext (by show t2.val % 4 = 1; omega)
  have c3 : colTile t3 = 0 := Fin.ext (by show t3.val % 4 = 0; omega)
  rw [a0, a1, a2, a3, r1, r2, r3, c0, c1, c2, c3]
  rfl

/-! ## The column accumulator, step by step -/

theorem colFirst_inv (c : Dev nD) (t : Fin cfg0.N) (h0 : t.val % 4 = 0) (h1 : ¬t.val % 4 = 3) (q : Fin 4096) :
    (outsAt0 m c t.val t.isLt).2.2.2 (ix3 (0 : Fin 1) (0 : Fin 1) q)
      = if q.val / 1024 < (colTile t).val + 1 then
          Cert.Spec.zero + ∑ r : Fin 1024, Cert.Spec.E (ZI m c) (ZJ m c) (Cert.Spec.tileIx (rowTile t) r) q
        else Cert.Spec.zero := by
  have e1 := proj4 (outsAt0_A m c t h0 h1)
  dsimp only at e1
  have e2 := colFirst_gen c (grid0.coords t) (ms0_0 t) (hs0_0 t) (ms0_1 t) (hs0_1 t) (ms0_2 t) (hs0_2 t) (ms0_3 t) (hs0_3 t) scM0_0 (Memref.isWhole_whole _) scM0_1 (Memref.isWhole_whole _) (ZI m c) (ZJ m c) (rowTile t) (colTile t) (iblk m c 0 t) (iblk m c 1 t) (iblk0_apply m c t) (iblk1_apply m c t) ((hcond0_0 t).mpr h0) (fun h => h1 ((hcond0_1 t).mp h)) (off_eq t) h0 q
  exact (congrFun e1 (ix3 (0 : Fin 1) (0 : Fin 1) q)).trans e2

theorem colMid_inv (c : Dev nD) (t t' : Fin cfg0.N) (ht' : t'.val = t.val - 1) (h0 : ¬t.val % 4 = 0) (h1 : ¬t.val % 4 = 3)
    (hprev : ∀ q : Fin 4096, (outsAt0 m c t'.val t'.isLt).2.2.2 (ix3 (0 : Fin 1) (0 : Fin 1) q)
      = if q.val / 1024 < (colTile t).val then
          Cert.Spec.zero + ∑ r : Fin 1024, Cert.Spec.E (ZI m c) (ZJ m c) (Cert.Spec.tileIx (rowTile t) r) q
        else Cert.Spec.zero) (q : Fin 4096) :
    (outsAt0 m c t.val t.isLt).2.2.2 (ix3 (0 : Fin 1) (0 : Fin 1) q)
      = if q.val / 1024 < (colTile t).val + 1 then
          Cert.Spec.zero + ∑ r : Fin 1024, Cert.Spec.E (ZI m c) (ZJ m c) (Cert.Spec.tileIx (rowTile t) r) q
        else Cert.Spec.zero := by
  have e := outsAt0_B m c t h0 h1
  rw [outsAt0_congr m c (t.val - 1) t'.val _ t'.isLt ht'.symm] at e
  have e1 := proj4 e
  dsimp only at e1
  have e2 := colMid_gen c (grid0.coords t) (ms0_0 t) (hs0_0 t) (ms0_1 t) (hs0_1 t) (ms0_2 t) (hs0_2 t) (ms0_3 t) (hs0_3 t) scM0_0 (Memref.isWhole_whole _) scM0_1 (Memref.isWhole_whole _) (ZI m c) (ZJ m c) (rowTile t) (colTile t) (iblk m c 0 t) (iblk m c 1 t) (iblk0_apply m c t) (iblk1_apply m c t) (fun h => h0 ((hcond0_0 t).mp h)) (fun h => h1 ((hcond0_1 t).mp h)) (outsAt0 m c t'.val t'.isLt).2.2.1 (outsAt0 m c t'.val t'.isLt).2.2.2 (off_eq t) hprev q
  exact (congrFun e1 (ix3 (0 : Fin 1) (0 : Fin 1) q)).trans e2

theorem colLast_inv (c : Dev nD) (t t' : Fin cfg0.N) (ht' : t'.val = t.val - 1) (h0 : ¬t.val % 4 = 0) (h3 : t.val % 4 = 3)
    (hprev : ∀ q : Fin 4096, (outsAt0 m c t'.val t'.isLt).2.2.2 (ix3 (0 : Fin 1) (0 : Fin 1) q)
      = if q.val / 1024 < (colTile t).val then
          Cert.Spec.zero + ∑ r : Fin 1024, Cert.Spec.E (ZI m c) (ZJ m c) (Cert.Spec.tileIx (rowTile t) r) q
        else Cert.Spec.zero) (q : Fin 4096) :
    (outsAt0 m c t.val t.isLt).2.1 (ix3 (0 : Fin 1) (0 : Fin 1) q)
      = if q.val / 1024 < (colTile t).val + 1 then
          Cert.Spec.zero + ∑ r : Fin 1024, Cert.Spec.E (ZI m c) (ZJ m c) (Cert.Spec.tileIx (rowTile t) r) q
        else Cert.Spec.zero := by
  have e := outsAt0_C m c t h0 h3
  rw [outsAt0_congr m c (t.val - 1) t'.val _ t'.isLt ht'.symm] at e
  have e1 := proj2 e
  dsimp only at e1
  have e2 := colLast_gen c (grid0.coords t) (ms0_0 t) (hs0_0 t) (ms0_1 t) (hs0_1 t) (ms0_2 t) (hs0_2 t) (ms0_3 t) (hs0_3 t) scM0_0 (Memref.isWhole_whole _) scM0_1 (Memref.isWhole_whole _) (ZI m c) (ZJ m c) (rowTile t) (colTile t) (iblk m c 0 t) (iblk m c 1 t) (iblk0_apply m c t) (iblk1_apply m c t) (fun h => h0 ((hcond0_0 t).mp h)) ((hcond0_1 t).mpr h3) (outsAt0 m c t'.val t'.isLt).2.2.1 (outsAt0 m c t'.val t'.isLt).2.2.2 (off_eq t) hprev q
  exact (congrFun e1 (ix3 (0 : Fin 1) (0 : Fin 1) q)).trans e2

/-- After the last column tile of a row of tiles, every lane of the column output block holds zero plus the sum of `E · q`
    over the rows of the row tile. -/
theorem colOut_apply (c : Dev nD) (t : Fin cfg0.N) (h3 : t.val % 4 = 3) (q : Fin 4096) :
    (outsAt0 m c t.val t.isLt).2.1 (ix3 (0 : Fin 1) (0 : Fin 1) q)
      = Cert.Spec.zero + ∑ r : Fin 1024, Cert.Spec.E (ZI m c) (ZJ m c) (Cert.Spec.tileIx (rowTile t) r) q := by
  have hN : cfg0.N = 16 := N_0
  have hlt := t.isLt
  obtain ⟨t1, e1⟩ : ∃ t1 : Fin cfg0.N, t1.val = t.val - 1 := ⟨⟨t.val - 1, by omega⟩, rfl⟩
  obtain ⟨t2, e2⟩ : ∃ t2 : Fin cfg0.N, t2.val = t1.val - 1 := ⟨⟨t1.val - 1, by omega⟩, rfl⟩
  obtain ⟨t3, e3⟩ : ∃ t3 : Fin cfg0.N, t3.val = t2.val - 1 := ⟨⟨t2.val - 1, by omega⟩, rfl⟩
  have r1 : rowTile t1 = rowTile t := Fin.ext (by show t1.val / 4 = t.val / 4; omega)
  have r2 : rowTile t2 = rowTile t := Fin.ext (by show t2.val / 4 = t.val / 4; omega)
  have r3 : rowTile t3 = rowTile t := Fin.ext (by show t3.val / 4 = t.val / 4; omega)
  have k0 : (colTile t).val = 3 := by show t.val % 4 = 3; omega
  have k1 : (colTile t1).val = 2 := by show t1.val % 4 = 2; omega
  have k2 : (colTile t2).val = 1 := by show t2.val % 4 = 1; omega
  have k3 : (colTile t3).val = 0 := by show t3.val % 4 = 0; omega
  have i3 := colFirst_inv m c t3 (by omega) (by omega)
  rw [r3, k3] at i3
  have i2 := colMid_inv m c t2 t3 e3 (by omega) (by omega) (by rw [r2, k2]; exact i3)
  rw [r2, k2] at i2
  have i1 := colMid_inv m c t1 t2 e2 (by omega) (by omega) (by rw [r1, k1]; exact i2)
  rw [r1, k1] at i1
  have i0 := colLast_inv m c t t1 e1 (by omega) h3 (by rw [k0]; exact i1) q
  rw [k0] at i0
  rw [i0, if_pos (by have := q.isLt; omega)]

end Cert.KernelIdeal.Chain

end
-- ==== Proof.KernelFinal.lean ====
/-
  From blocks to arrays: what the tiled program's two output arrays hold after the run.

  The first output is a column of 4096 entries written back in four blocks of 1024 rows, block `a` after the last column
  tile of row tile `a`; the second is four rows of 4096 lanes, row `a` written back at the same point. Given what each
  written-back block holds — the first denominators of the rows of the row tile, and the column sums over the row tile —
  every entry of either array lies in exactly the block of its row tile's last point, so the first array ends holding the
  first denominator of every row and the second, in row `a`, the column sums over row tile `a`.
-/
import proofs.«108457_j47528108098354_2_alg».proof.Proof.KernelAcc
import Idealize.ShloMosaic.Lib.Pipeline.Value

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.KernelIdeal.Acc

variable (m : (ℓ : Loc nD τ sig) → Buf (Elt Ideal) ℓ)

/-- The first output array after the run: the first denominator of every row. -/
def RowOut (c : Dev nD) : S4096x1.Idx → EReal := fun y => Cert.Spec.rowDen (ZI m c) (ZJ m c) (y 0)

/-- The second output array after the run: in row `a`, lane `q`, zero plus the sum of `E · q` over row tile `a`. -/
def ColOut (c : Dev nD) : S4x1x4096.Idx → EReal :=
  fun y => Cert.Spec.zero + ∑ r : Fin 1024, Cert.Spec.E (ZI m c) (ZJ m c) (Cert.Spec.tileIx (y 0) r) (y 2)

/-! ## Where a block's entry sits in its array -/

/-- Entry `(r, u)` of the first output's block at point `t` is row `1024 · (t / 4) + r` of the array. -/
theorem emb2 (t : Fin cfg0.N) (r : Fin 1024) (u : Fin 1) :
    ((cfg0.win 2).blk t).view.emb (ix2 r u) = (ix2 (Cert.Spec.tileIx (rowTile t) r) (0 : Fin 1) : S4096x1.Idx) := by
  obtain ⟨-, -, -, -, e0, e1, -⟩ := idx_facts t
  have hu := u.isLt
  refine funext fun a => Fin.ext ?_
  match a with
  | ⟨0, _⟩ => show win0_2.index t (0 : Fin 2) * 1024 + 1 * r.val = 1024 * (t.val / 4) + r.val; omega
  | ⟨1, _⟩ => show win0_2.index t (1 : Fin 2) * 1 + 1 * u.val = 0; omega

/-- Entry `(a, b, q)` of the second output's block at point `t` is row `t / 4`, lane `q` of the array. -/
theorem emb3 (t : Fin cfg0.N) (a b : Fin 1) (q : Fin 4096) :
    ((cfg0.win 3).blk t).view.emb (ix3 a b q) = (ix3 (rowTile t) (0 : Fin 1) q : S4x1x4096.Idx) := by
  obtain ⟨-, -, -, -, -, -, e0, e1, e2, -⟩ := idx_facts t
  have ha := a.isLt
  have hb := b.isLt
  refine funext fun d => Fin.ext ?_
  match d with
  | ⟨0, _⟩ => show win0_3.index t (0 : Fin 3) * 1 + 1 * a.val = t.val / 4; omega
  | ⟨1, _⟩ => show win0_3.index t (1 : Fin 3) * 1 + 1 * b.val = 0; omega
  | ⟨2, _⟩ => show win0_3.index t (2 : Fin 3) * 4096 + 1 * q.val = q.val; omega

/-! ## What a point writes back is its block of the array -/

/-- What a last column tile's point writes back through the first output's window is its block of `RowOut`. -/
theorem flushed2_eq (c : Dev nD)
    (hrow : ∀ (t : Fin cfg0.N), t.val % 4 = 3 → ∀ (r : Fin 1024) (u : Fin 1),
      (outsAt0 m c t.val t.isLt).1 (ix2 r u)
        = Cert.Spec.rowDen (ZI m c) (ZJ m c) (Cert.Spec.tileIx (rowTile t) r))
    (t : Fin cfg0.N) (hf : (cfg0.win 2).flush t = true) :
    (dats (F := Ideal) m 0 c).flushed 2 t = ((cfg0.win 2).blk t).view.read (Elt Ideal) (RowOut m c) := by
  have h3 : t.val % 4 = 3 := (flush0_2 t).mp hf
  show (cfg0.win 2).cut (grid0.coords t) ((dats (F := Ideal) m 0 c).after 2 t) = _
  rw [after0_2]
  funext j
  obtain ⟨r, u, rfl⟩ : ∃ (r : Fin 1024) (u : Fin 1), j = ix2 r u := ⟨j 0, j 1, eq_ix2 (n0 := 1024) (n1 := 1) j⟩
  show (outsAt0 (F := Ideal) m c t.val t.isLt).1 (ix2 r u) = RowOut m c (((cfg0.win 2).blk t).view.emb (ix2 r u))
  rw [hrow t h3 r u, emb2]
  rfl

/-- What a last column tile's point writes back through the second output's window is its block of `ColOut`. -/
theorem flushed3_eq (c : Dev nD)
    (hcol : ∀ (t : Fin cfg0.N), t.val % 4 = 3 → ∀ (q : Fin 4096),
      (outsAt0 m c t.val t.isLt).2.1 (ix3 (0 : Fin 1) (0 : Fin 1) q)
        = Cert.Spec.zero + ∑ r : Fin 1024, Cert.Spec.E (ZI m c) (ZJ m c) (Cert.Spec.tileIx (rowTile t) r) q)
    (t : Fin cfg0.N) (hf : (cfg0.win 3).flush t = true) :
    (dats (F := Ideal) m 0 c).flushed 3 t = ((cfg0.win 3).blk t).view.read (Elt Ideal) (ColOut m c) := by
  have h3 : t.val % 4 = 3 := (flush0_3 t).mp hf
  show (cfg0.win 3).cut (grid0.coords t) ((dats (F := Ideal) m 0 c).after 3 t) = _
  rw [after0_3]
  funext j
  obtain ⟨a, b, q, rfl⟩ : ∃ (a b : Fin 1) (q : Fin 4096), j = ix3 a b q :=
    ⟨j 0, j 1, j 2, eq_ix3 (n0 := 1) (n1 := 1) (n2 := 4096) j⟩
  obtain rfl : a = 0 := Subsingleton.elim _ _
  obtain rfl : b = 0 := Subsingleton.elim _ _
  show (outsAt0 (F := Ideal) m c t.val t.isLt).2.1 (ix3 (0 : Fin 1) (0 : Fin 1) q)
    = ColOut m c (((cfg0.win 3).blk t).view.emb (ix3 (0 : Fin 1) (0 : Fin 1) q))
  rw [hcol t h3 q, emb3]
  rfl

/-! ## The blocks of the last column tiles' points cover the arrays -/

/-- Every entry of the first output lies in the block of its row tile's last point. -/
theorem cover2 (p : Fin 4096) (u : Fin 1) :
    ∃ t : Fin cfg0.N, (cfg0.win 2).flush t = true ∧ (ix2 p u : S4096x1.Idx) ∈ ((cfg0.win 2).blk t).view.set := by
  have hN : cfg0.N = 16 := N_0
  have hp := p.isLt
  have hu := u.isLt
  obtain ⟨t, ht⟩ : ∃ t : Fin cfg0.N, t.val = 4 * (p.val / 1024) + 3 := ⟨⟨4 * (p.val / 1024) + 3, by omega⟩, rfl⟩
  obtain ⟨-, -, -, -, e0, e1, -⟩ := idx_facts t
  refine ⟨t, (flush0_2 t).mpr (by omega), ?_⟩
  show (ix2 p u : S4096x1.Idx) ∈ ((View.whole main_call0_v14_0).slice (win0_2.rect t)).set
  rw [View.set_slice_whole, Rect.mem_set_unit]
  intro a
  match a with
  | ⟨0, _⟩ =>
    show win0_2.index t (0 : Fin 2) * 1024 ≤ p.val ∧ p.val < win0_2.index t (0 : Fin 2) * 1024 + 1024
    omega
  | ⟨1, _⟩ =>
    show win0_2.index t (1 : Fin 2) * 1 ≤ u.val ∧ u.val < win0_2.index t (1 : Fin 2) * 1 + 1
    omega

/-- Every entry of the second output lies in the block of its row's last point. -/
theorem cover3 (a : Fin 4) (b : Fin 1) (q : Fin 4096) :
    ∃ t : Fin cfg0.N, (cfg0.win 3).flush t = true ∧ (ix3 a b q : S4x1x4096.Idx) ∈ ((cfg0.win 3).blk t).view.set := by
  have hN : cfg0.N = 16 := N_0
  have ha := a.isLt
  have hb := b.isLt
  have hq := q.isLt
  obtain ⟨t, ht⟩ : ∃ t : Fin cfg0.N, t.val = 4 * a.val + 3 := ⟨⟨4 * a.val + 3, by omega⟩, rfl⟩
  obtain ⟨-, -, -, -, -, -, e0, e1, e2, -⟩ := idx_facts t
  refine ⟨t, (flush0_3 t).mpr (by omega), ?_⟩
  show (ix3 a b q : S4x1x4096.Idx) ∈ ((View.whole main_call0_v14_1).slice (win0_3.rect t)).set
  rw [View.set_slice_whole, Rect.mem_set_unit]
  intro d
  match d with
  | ⟨0, _⟩ =>
    show win0_3.index t (0 : Fin 3) * 1 ≤ a.val ∧ a.val < win0_3.index t (0 : Fin 3) * 1 + 1
    omega
  | ⟨1, _⟩ =>
    show win0_3.index t (1 : Fin 3) * 1 ≤ b.val ∧ b.val < win0_3.index t (1 : Fin 3) * 1 + 1
    omega
  | ⟨2, _⟩ =>
    show win0_3.index t (2 : Fin 3) * 4096 ≤ q.val ∧ q.val < win0_3.index t (2 : Fin 3) * 4096 + 4096
    omega

/-! ## The arrays after the run -/

/-- THE FIRST OUTPUT after the run holds the first denominator of every row. -/
theorem final2 (c : Dev nD)
    (hrow : ∀ (t : Fin cfg0.N), t.val % 4 = 3 → ∀ (r : Fin 1024) (u : Fin 1),
      (outsAt0 m c t.val t.isLt).1 (ix2 r u)
        = Cert.Spec.rowDen (ZI m c) (ZJ m c) (Cert.Spec.tileIx (rowTile t) r)) :
    (dats (F := Ideal) m 0 c).arrAt 2 cfg0.N = RowOut m c :=
  (dats (F := Ideal) m 0 c).arrAt_eq_of_cover 2 (RowOut m c) (fun t hf => flushed2_eq m c hrow t hf) fun i => by
    obtain ⟨p, u, rfl⟩ : ∃ (p : Fin 4096) (u : Fin 1), i = ix2 p u := ⟨i 0, i 1, eq_ix2 (n0 := 4096) (n1 := 1) i⟩
    exact cover2 p u

/-- THE SECOND OUTPUT after the run holds, in row `a`, the column sums over row tile `a`. -/
theorem final3 (c : Dev nD)
    (hcol : ∀ (t : Fin cfg0.N), t.val % 4 = 3 → ∀ (q : Fin 4096),
      (outsAt0 m c t.val t.isLt).2.1 (ix3 (0 : Fin 1) (0 : Fin 1) q)
        = Cert.Spec.zero + ∑ r : Fin 1024, Cert.Spec.E (ZI m c) (ZJ m c) (Cert.Spec.tileIx (rowTile t) r) q) :
    (dats (F := Ideal) m 0 c).arrAt 3 cfg0.N = ColOut m c :=
  (dats (F := Ideal) m 0 c).arrAt_eq_of_cover 3 (ColOut m c) (fun t hf => flushed3_eq m c hcol t hf) fun i => by
    obtain ⟨a, b, q, rfl⟩ : ∃ (a : Fin 4) (b : Fin 1) (q : Fin 4096), i = ix3 a b q :=
      ⟨i 0, i 1, i 2, eq_ix3 (n0 := 4) (n1 := 1) (n2 := 4096) i⟩
    exact cover3 a b q

end Cert.KernelIdeal.Final

end
-- ==== Proof.lean ====
/-
  The certificate's claims.

  Both programs compute a symmetric contrastive loss of two 4096 × 128 inputs. Each first scales every input row to unit
  length, z = x / max (‖x‖, ε). Write d p q = ⟨zi p, zj q⟩ and e p q = exp (4 · d p q). The tiled program walks a 4 × 4 grid of
  1024 × 1024 tiles, accumulates the row sums R p = ∑ q, e p q and, per row tile, the column sums of e, adds the four row
  tiles' column sums to C q = ∑ p, e p q, and returns the mean over 8192 of the terms -d p p / ¼ + log (R p) and
  -d p p / ¼ + log (C p). The plain program stacks the scaled rows into 8192 rows, forms all their inner products, keeps the
  two off-diagonal quadrants, and returns the mean of -log (exp (positive / ¼) / masked row sum). On inputs whose entries
  are all finite every quantity is a real number, the masked row sums are R and C, and for a real s and a real D > 0
  -log (exp (s / ¼) / D) = -s / ¼ + log D: the two programs end at the same extended real. Each program runs to its end and
  leaves its two inputs as they were; over the extended reals the tiled program's text is read as it stands.
-/
import proofs.«108457_j47528108098354_2_alg».proof.Defs
import proofs.«108457_j47528108098354_2_alg».proof.Proof.Gen.Kernel
import proofs.«108457_j47528108098354_2_alg».proof.Proof.Gen.Kernel.Skeleton
import proofs.«108457_j47528108098354_2_alg».proof.Proof.Gen.Kernel.Launch
import proofs.«108457_j47528108098354_2_alg».proof.Proof.Gen.Kernel.Points
import proofs.«108457_j47528108098354_2_alg».proof.Proof.Gen.Kernel.Frame
import proofs.«108457_j47528108098354_2_alg».proof.Proof.Gen.KernelIdeal
import proofs.«108457_j47528108098354_2_alg».proof.Proof.Gen.KernelIdeal.Skeleton
import proofs.«108457_j47528108098354_2_alg».proof.Proof.Gen.KernelIdeal.Launch
import proofs.«108457_j47528108098354_2_alg».proof.Proof.Gen.KernelIdeal.Points
import proofs.«108457_j47528108098354_2_alg».proof.Proof.Gen.KernelIdeal.Frame
import proofs.«108457_j47528108098354_2_alg».proof.Proof.Gen.ReferenceIdeal
import proofs.«108457_j47528108098354_2_alg».proof.Proof.Gen.ReferenceIdeal.Run
import proofs.«108457_j47528108098354_2_alg».proof.Proof.Gen.ReferenceIdeal.Read
import proofs.«108457_j47528108098354_2_alg».proof.Proof.Gen.Pre_finite_inputs
import Idealize.ShloMosaic.Adequacy
import Idealize.ShloMosaic.Init
import proofs.«108457_j47528108098354_2_alg».proof.Proof.Spec
import proofs.«108457_j47528108098354_2_alg».proof.Proof.LossAlgebra
import proofs.«108457_j47528108098354_2_alg».proof.Proof.UnitRowsReal
import proofs.«108457_j47528108098354_2_alg».proof.Proof.PreFinite
import proofs.«108457_j47528108098354_2_alg».proof.Proof.RefValue
import proofs.«108457_j47528108098354_2_alg».proof.Proof.KernelHost
import proofs.«108457_j47528108098354_2_alg».proof.Proof.KernelChain
import proofs.«108457_j47528108098354_2_alg».proof.Proof.KernelFinal

noncomputable section

namespace Cert.Proof

open Idealize.ShloMosaic Idealize.ShloMosaic.TcCoe Idealize.SL.Sem Idealize.ShloMosaic.ValueIdx

/-! ## The tiled program's result is the specification's tiled loss -/

section KernelValue

open Cert.KernelIdeal Cert.KernelIdeal.Gen

variable (m : (ℓ : Loc nD τ sig) → Buf (Elt Ideal) ℓ)

/-- The first matrix the region reads is the first input's rows scaled to unit length. -/
theorem accZI_eq (c : Dev nD) : Cert.KernelIdeal.Acc.ZI m c = Cert.KernelIdeal.Host.ZI m c :=
  funext fun p => funext fun k => Cert.KernelIdeal.Host.V_v12 m c p k

/-- The second matrix the region reads is the second input's rows scaled to unit length. -/
theorem accZJ_eq (c : Dev nD) : Cert.KernelIdeal.Acc.ZJ m c = Cert.KernelIdeal.Host.ZJ m c :=
  funext fun p => funext fun k => Cert.KernelIdeal.Host.V_v13 m c p k

/-- The tiled program's result buffer ends at the specification's tiled loss of the two scaled matrices: the region's
    first output is the first denominator, the sum over the four row tiles of its second output is the second. -/
theorem kernel_value (c : Dev nD) :
    Pipeline.afterTail₀ cfgs (dats (F := Ideal) m) 0 (V0 m) [hostOps1] c main_v0
      = fun _ => Cert.Spec.kernelLoss (Cert.KernelIdeal.Host.ZI m c) (Cert.KernelIdeal.Host.ZJ m c) := by
  rw [Cert.KernelIdeal.Host.tail_eq m c (Cert.KernelIdeal.Final.RowOut m c) (Cert.KernelIdeal.Final.ColOut m c)
    (Cert.KernelIdeal.Final.final2 m c (fun t h3 r u => Cert.KernelIdeal.Chain.rowOut_apply m c t h3 r u))
    (Cert.KernelIdeal.Final.final3 m c (fun t h3 q => Cert.KernelIdeal.Chain.colOut_apply m c t h3 q))]
  funext _
  unfold Cert.Spec.kernelLoss
  refine congrArg (fun s => Ideal.div (Cert.Spec.zero + s) Cert.Spec.count) (Finset.sum_congr rfl fun p _ => ?_)
  have eR : Cert.KernelIdeal.Final.RowOut m c (ix2 p 0)
      = Cert.Spec.rowDen (Cert.KernelIdeal.Host.ZI m c) (Cert.KernelIdeal.Host.ZJ m c) p := by
    show Cert.Spec.rowDen (Cert.KernelIdeal.Acc.ZI m c) (Cert.KernelIdeal.Acc.ZJ m c) p = _
    rw [accZI_eq, accZJ_eq]
  have eC : Cert.Spec.zero + ∑ a : Fin 4, Cert.KernelIdeal.Final.ColOut m c (ix3 a 0 p)
      = Cert.Spec.colDen (Cert.KernelIdeal.Host.ZI m c) (Cert.KernelIdeal.Host.ZJ m c) p := by
    show Cert.Spec.zero + ∑ a : Fin 4, (Cert.Spec.zero + ∑ r : Fin 1024,
        Cert.Spec.E (Cert.KernelIdeal.Acc.ZI m c) (Cert.KernelIdeal.Acc.ZJ m c) (Cert.Spec.tileIx a r) p)
      = Cert.Spec.zero + ∑ a : Fin 4, (Cert.Spec.zero + ∑ r : Fin 1024,
        Cert.Spec.E (Cert.KernelIdeal.Host.ZI m c) (Cert.KernelIdeal.Host.ZJ m c) (Cert.Spec.tileIx a r) p)
    rw [accZI_eq, accZJ_eq]
  exact congrArg₂ (fun x y =>
    (Ideal.div (-(Cert.Spec.diag (Cert.KernelIdeal.Host.ZI m c) (Cert.KernelIdeal.Host.ZJ m c) p)) Cert.Spec.quarter + Ideal.log x)
      + (Ideal.div (-(Cert.Spec.diag (Cert.KernelIdeal.Host.ZI m c) (Cert.KernelIdeal.Host.ZJ m c) p)) Cert.Spec.quarter + Ideal.log y))
    eR eC

end KernelValue

/-! ## The claims -/

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs, from inputs whose entries are all finite, end at the same extended real: the tiled program at the
    specification's tiled loss of the inputs' unit-length rows, the plain program at the specification's plain loss of the
    same rows, and on matrices of real entries the two losses agree. -/
theorem algebraic : Cert.algebraic_KernelIdeal_ReferenceIdeal := by
  intro m ρ m' ρ' hpre hagree
  refine ⟨fun c => fun _ => Cert.Spec.kernelLoss (Cert.KernelIdeal.Host.ZI m c) (Cert.KernelIdeal.Host.ZJ m c), ?_, ?_⟩
  · refine (θ_run Cert.KernelIdeal.defs _ _).mono (fun _ h c => ⟨?_, ?_, ?_⟩) (Cert.KernelIdeal.Gen.run_main m ρ)
    · exact ((h c).2 Cert.KernelIdeal.main_v0 (Pipeline.mem_restRefs_of Cert.KernelIdeal.main_v0 (by decide) (by decide))).trans
        (kernel_value m c)
    · exact ((h c).2 Cert.KernelIdeal.main_arg0 (Pipeline.mem_restRefs_of Cert.KernelIdeal.main_arg0 (by decide) (by decide))).trans
        (Cert.KernelIdeal.Gen.W_main_arg0 m (Cert.KernelIdeal.Gen.dats m) c)
    · exact ((h c).2 Cert.KernelIdeal.main_arg1 (Pipeline.mem_restRefs_of Cert.KernelIdeal.main_arg1 (by decide) (by decide))).trans
        (Cert.KernelIdeal.Gen.W_main_arg1 m (Cert.KernelIdeal.Gen.dats m) c)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v39_eq, (hagree c).1, (hagree c).2, Cert.RefValue.ref_eq]
    funext _
    obtain ⟨h0, h1⟩ := Cert.PreFinite.real_of_pre _ _ (hpre c)
    exact (Cert.LossAlgebra.loss_eq _ _
      (Cert.UnitRowsReal.unitRows_real _ fun p k => h0 (ix2 p k))
      (Cert.UnitRowsReal.unitRows_real _ fun p k => h1 (ix2 p k))).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
